-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S3x96x96 : Shape := ⟨3, ![3, 96, 96]⟩
abbrev S288x96 : Shape := ⟨2, ![288, 96]⟩
abbrev S288 : Shape := ⟨1, ![288]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S288x96 : S_.BroadcastsInDim S288x96 (![] : Fin 0 → Fin S288x96.rank)
  reducesTo_S288x96_S_d0_1 : S288x96.ReducesTo [0, 1] S_
  bcast_S_S288 : S_.BroadcastsInDim S288 (![] : Fin 0 → Fin S288.rank)
  reducesTo_S288_S_d0 : S288.ReducesTo [0] S_

variable [Facts]

def fn_part1 {F : FTy → Type} [FloatOps F] (main_arg5 : FVec F S288 .f32) (main_arg6 : FVec F S288 .f32) (main_v13 : IVec S_ 1) (main_v16 : IVec S288x96 1) : IVec S_ 1 :=
  let main_c_5 : IVec S_ 1 := constantI S_ 1 1#1
  let main_v17 : IVec S_ 1 := (fun x v => Host.reduce IntOp.andi x v reducesTo_S288x96_S_d0_1 h_S_) main_v16 main_c_5
  let main_v18 : IVec S_ 1 := andi main_v13 main_v17
  let main_v19 : FVec F S288 .f32 := Host.absf main_arg5
  let main_cst_6 : FVec F S_ .f32 := constant S_ .f32 0x7F800000#32
  let main_v20 : FVec F S288 .f32 := broadcastInDim S288 ![] bcast_S_S288 main_cst_6
  let main_v21 : IVec S288 1 := cmpf .olt main_v19 main_v20
  let main_c_7 : IVec S_ 1 := constantI S_ 1 1#1
  let main_v22 : IVec S_ 1 := (fun x v => Host.reduce IntOp.andi x v reducesTo_S288_S_d0 h_S_) main_v21 main_c_7
  let main_v23 : IVec S_ 1 := andi main_v18 main_v22
  let main_v24 : FVec F S288 .f32 := Host.absf main_arg6
  let main_cst_8 : FVec F S_ .f32 := constant S_ .f32 0x7F800000#32
  let main_v25 : FVec F S288 .f32 := broadcastInDim S288 ![] bcast_S_S288 main_cst_8
  let main_v26 : IVec S288 1 := cmpf .olt main_v24 main_v25
  let main_c_9 : IVec S_ 1 := constantI S_ 1 1#1
  let main_v27 : IVec S_ 1 := (fun x v => Host.reduce IntOp.andi x v reducesTo_S288_S_d0 h_S_) main_v26 main_c_9
  let main_v28 : IVec S_ 1 := andi main_v23 main_v27
  main_v28

def fn {F : FTy → Type} [FloatOps F] (main_arg0 : FVec F S50000x96 .f32) (main_arg1 : IVec S2x800000 32) (main_arg2 : FVec F S3x96x96 .f32) (main_arg3 : FVec F S288x96 .f32) (main_arg4 : FVec F S288x96 .f32) (main_arg5 : FVec F S288 .f32) (main_arg6 : FVec F S288 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x96 .f32 := Host.absf main_arg2
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S288x96 .f32 := Host.absf main_arg3
  let main_cst_2 : FVec F S_ .f32 := constant S_ .f32 0x7F800000#32
  let main_v10 : FVec F S288x96 .f32 := broadcastInDim S288x96 ![] bcast_S_S288x96 main_cst_2
  let main_v11 : IVec S288x96 1 := cmpf .olt main_v9 main_v10
  let main_c_3 : IVec S_ 1 := constantI S_ 1 1#1
  let main_v12 : IVec S_ 1 := (fun x v => Host.reduce IntOp.andi x v reducesTo_S288x96_S_d0_1 h_S_) main_v11 main_c_3
  let main_v13 : IVec S_ 1 := andi main_v8 main_v12
  let main_v14 : FVec F S288x96 .f32 := Host.absf main_arg4
  let main_cst_4 : FVec F S_ .f32 := constant S_ .f32 0x7F800000#32
  let main_v15 : FVec F S288x96 .f32 := broadcastInDim S288x96 ![] bcast_S_S288x96 main_cst_4
  let main_v16 : IVec S288x96 1 := cmpf .olt main_v14 main_v15
  fn_part1 (F := F) main_arg5 main_arg6 main_v13 main_v16
-- ==== Kernel.lean ====
abbrev S50000x96 : Shape := ⟨2, ![50000, 96]⟩
abbrev S2x800000 : Shape := ⟨2, ![2, 800000]⟩
abbrev S3x96x96 : Shape := ⟨3, ![3, 96, 96]⟩
abbrev S288x96 : Shape := ⟨2, ![288, 96]⟩
abbrev S288 : Shape := ⟨1, ![288]⟩
abbrev S1x800000 : Shape := ⟨2, ![1, 800000]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S1x96x96 : Shape := ⟨3, ![1, 96, 96]⟩
abbrev S5000x96 : Shape := ⟨2, ![5000, 96]⟩
abbrev S_ : Shape := ⟨0, ![]⟩
abbrev S800000x1 : Shape := ⟨2, ![800000, 1]⟩
abbrev S800000x96 : Shape := ⟨2, ![800000, 96]⟩

abbrev nBuf : Space → Nat
  | .hbm => 86
  | .vmem => 69
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S3x96x96, .f32⟩
  | .hbm, ⟨3, _⟩ => ⟨S288x96, .f32⟩
  | .hbm, ⟨4, _⟩ => ⟨S288x96, .f32⟩
  | .hbm, ⟨5, _⟩ => ⟨S288, .f32⟩
  | .hbm, ⟨6, _⟩ => ⟨S288, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S96x96, .f32⟩
  | .hbm, ⟨12, _⟩ => ⟨S96x96, .f32⟩
  | .hbm, ⟨13, _⟩ => ⟨S96x96, .f32⟩
  | .hbm, ⟨14, _⟩ => ⟨S96x96, .f32⟩
  | .hbm, ⟨15, _⟩ => ⟨S96x96, .f32⟩
  | .hbm, ⟨16, _⟩ => ⟨S96x96, .f32⟩
  | .hbm, ⟨17, _⟩ => ⟨S96x96, .f32⟩
  | .hbm, ⟨18, _⟩ => ⟨S96x96, .f32⟩
  | .hbm, ⟨19, _⟩ => ⟨S96x96, .f32⟩
  | .hbm, ⟨20, _⟩ => ⟨S96x96, .f32⟩
  | .hbm, ⟨21, _⟩ => ⟨S96x96, .f32⟩
  | .hbm, ⟨22, _⟩ => ⟨S96x96, .f32⟩
  | .hbm, ⟨23, _⟩ => ⟨S96, .f32⟩
  | .hbm, ⟨24, _⟩ => ⟨S1x96, .f32⟩
  | .hbm, ⟨25, _⟩ => ⟨S96, .f32⟩
  | .hbm, ⟨26, _⟩ => ⟨S1x96, .f32⟩
  | .hbm, ⟨27, _⟩ => ⟨S96, .f32⟩
  | .hbm, ⟨28, _⟩ => ⟨S1x96, .f32⟩
  | .hbm, ⟨29, _⟩ => ⟨S96, .f32⟩
  | .hbm, ⟨30, _⟩ => ⟨S1x96, .f32⟩
  | .hbm, ⟨31, _⟩ => ⟨S96, .f32⟩
  | .hbm, ⟨32, _⟩ => ⟨S1x96, .f32⟩
  | .hbm, ⟨33, _⟩ => ⟨S96, .f32⟩
  | .hbm, ⟨34, _⟩ => ⟨S1x96, .f32⟩
  | .hbm, ⟨35, _⟩ => ⟨S1x96x96, .f32⟩
  | .hbm, ⟨36, _⟩ => ⟨S96x96, .f32⟩
  | .hbm, ⟨37, _⟩ => ⟨S50000x96, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x96, .f32⟩
  | .hbm, ⟨47, _⟩ => ⟨S_, .f32⟩
  | .hbm, ⟨48, _⟩ => ⟨S50000x96, .f32⟩
  | .hbm, ⟨49, _⟩ => ⟨S800000x1, .i32⟩
  | .hbm, ⟨50, _⟩ => ⟨S50000x96, .f32⟩
  | .hbm, ⟨51, _⟩ => ⟨S50000x96, .f32⟩
  | .hbm, ⟨52, _⟩ => ⟨S1x96x96, .f32⟩
  | .hbm, ⟨53, _⟩ => ⟨S96x96, .f32⟩
  | .hbm, ⟨54, _⟩ => ⟨S50000x96, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x96, .f32⟩
  | .hbm, ⟨64, _⟩ => ⟨S_, .f32⟩
  | .hbm, ⟨65, _⟩ => ⟨S50000x96, .f32⟩
  | .hbm, ⟨66, _⟩ => ⟨S800000x1, .i32⟩
  | .hbm, ⟨67, _⟩ => ⟨S50000x96, .f32⟩
  | .hbm, ⟨68, _⟩ => ⟨S50000x96, .f32⟩
  | .hbm, ⟨69, _⟩ => ⟨S1x96x96, .f32⟩
  | .hbm, ⟨70, _⟩ => ⟨S96x96, .f32⟩
  | .hbm, ⟨71, _⟩ => ⟨S50000x96, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x96, .f32⟩
  | .hbm, ⟨81, _⟩ => ⟨S_, .f32⟩
  | .hbm, ⟨82, _⟩ => ⟨S50000x96, .f32⟩
  | .hbm, ⟨83, _⟩ => ⟨S800000x1, .i32⟩
  | .hbm, ⟨84, _⟩ => ⟨S50000x96, .f32⟩
  | .hbm, ⟨85, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S96x96, .f32⟩
  | .local _ .vmem, ⟨10, _⟩ => ⟨S96x96, .f32⟩
  | .local _ .vmem, ⟨11, _⟩ => ⟨S96x96, .f32⟩
  | .local _ .vmem, ⟨12, _⟩ => ⟨S96x96, .f32⟩
  | .local _ .vmem, ⟨13, _⟩ => ⟨S96x96, .f32⟩
  | .local _ .vmem, ⟨14, _⟩ => ⟨S96x96, .f32⟩
  | .local _ .vmem, ⟨15, _⟩ => ⟨S1x96, .f32⟩
  | .local _ .vmem, ⟨16, _⟩ => ⟨S1x96, .f32⟩
  | .local _ .vmem, ⟨17, _⟩ => ⟨S1x96, .f32⟩
  | .local _ .vmem, ⟨18, _⟩ => ⟨S1x96, .f32⟩
  | .local _ .vmem, ⟨19, _⟩ => ⟨S1x96, .f32⟩
  | .local _ .vmem, ⟨20, _⟩ => ⟨S1x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S96x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S96x96, .f32⟩
  | .local _ .vmem, ⟨33, _⟩ => ⟨S96x96, .f32⟩
  | .local _ .vmem, ⟨34, _⟩ => ⟨S96x96, .f32⟩
  | .local _ .vmem, ⟨35, _⟩ => ⟨S96x96, .f32⟩
  | .local _ .vmem, ⟨36, _⟩ => ⟨S96x96, .f32⟩
  | .local _ .vmem, ⟨37, _⟩ => ⟨S96x96, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S1x96, .f32⟩
  | .local _ .vmem, ⟨43, _⟩ => ⟨S1x96, .f32⟩
  | .local _ .vmem, ⟨44, _⟩ => ⟨S5000x96, .f32⟩
  | .local _ .vmem, ⟨45, _⟩ => ⟨S5000x96, .f32⟩
  | .local _ .vmem, ⟨46, _⟩ => ⟨S5000x96, .f32⟩
  | .local _ .vmem, ⟨47, _⟩ => ⟨S5000x96, .f32⟩
  | .local _ .vmem, ⟨48, _⟩ => ⟨S96x96, .f32⟩
  | .local _ .vmem, ⟨49, _⟩ => ⟨S5000x96, .f32⟩
  | .local _ .vmem, ⟨50, _⟩ => ⟨S5000x96, .f32⟩
  | .local _ .vmem, ⟨51, _⟩ => ⟨S5000x96, .f32⟩
  | .local _ .vmem, ⟨52, _⟩ => ⟨S5000x96, .f32⟩
  | .local _ .vmem, ⟨53, _⟩ => ⟨S5000x96, .f32⟩
  | .local _ .vmem, ⟨54, _⟩ => ⟨S5000x96, .f32⟩
  | .local _ .vmem, ⟨55, _⟩ => ⟨S96x96, .f32⟩
  | .local _ .vmem, ⟨56, _⟩ => ⟨S96x96, .f32⟩
  | .local _ .vmem, ⟨57, _⟩ => ⟨S96x96, .f32⟩
  | .local _ .vmem, ⟨58, _⟩ => ⟨S96x96, .f32⟩
  | .local _ .vmem, ⟨59, _⟩ => ⟨S96x96, .f32⟩
  | .local _ .vmem, ⟨60, _⟩ => ⟨S96x96, .f32⟩
  | .local _ .vmem, ⟨61, _⟩ => ⟨S1x96, .f32⟩
  | .local _ .vmem, ⟨62, _⟩ => ⟨S1x96, .f32⟩
  | .local _ .vmem, ⟨63, _⟩ => ⟨S1x96, .f32⟩
  | .local _ .vmem, ⟨64, _⟩ => ⟨S1x96, .f32⟩
  | .local _ .vmem, ⟨65, _⟩ => ⟨S1x96, .f32⟩
  | .local _ .vmem, ⟨66, _⟩ => ⟨S1x96, .f32⟩
  | .local _ .vmem, ⟨67, _⟩ => ⟨S5000x96, .f32⟩
  | .local _ .vmem, ⟨68, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_c_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_1 : Ref sig .tc := ⟨.hbm, 55, rfl⟩
abbrev main_v45 : Ref sig .tc := ⟨.hbm, 56, rfl⟩
abbrev main_v46 : Ref sig .tc := ⟨.hbm, 57, rfl⟩
abbrev main_c_2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_4 : Ref sig .tc := ⟨.hbm, 72, rfl⟩
abbrev main_v59 : Ref sig .tc := ⟨.hbm, 73, rfl⟩
abbrev main_v60 : Ref sig .tc := ⟨.hbm, 74, rfl⟩
abbrev main_c_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg14_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc3_stg11_0 : Ref sig .tc := ⟨.vmem, 41, rfl⟩
abbrev cc3_stg12_0 : Ref sig .tc := ⟨.vmem, 42, rfl⟩
abbrev cc3_stg13_0 : Ref sig .tc := ⟨.vmem, 43, rfl⟩
abbrev cc3_stg14_0 : Ref sig .tc := ⟨.vmem, 44, rfl⟩
abbrev cc3_stg14_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg2_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg8_0 : Ref sig .tc := ⟨.vmem, 61, rfl⟩
abbrev cc5_stg9_0 : Ref sig .tc := ⟨.vmem, 62, rfl⟩
abbrev cc5_stg10_0 : Ref sig .tc := ⟨.vmem, 63, rfl⟩
abbrev cc5_stg11_0 : Ref sig .tc := ⟨.vmem, 64, rfl⟩
abbrev cc5_stg12_0 : Ref sig .tc := ⟨.vmem, 65, rfl⟩
abbrev cc5_stg13_0 : Ref sig .tc := ⟨.vmem, 66, rfl⟩
abbrev cc5_stg14_0 : Ref sig .tc := ⟨.vmem, 67, rfl⟩
abbrev cc5_stg14_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem14_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem11_0 : DmaSem sig := 41
abbrev cc3_sem12_0 : DmaSem sig := 42
abbrev cc3_sem13_0 : DmaSem sig := 43
abbrev cc3_sem14_0 : DmaSem sig := 44
abbrev cc3_sem14_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem2_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem8_0 : DmaSem sig := 61
abbrev cc5_sem9_0 : DmaSem sig := 62
abbrev cc5_sem10_0 : DmaSem sig := 63
abbrev cc5_sem11_0 : DmaSem sig := 64
abbrev cc5_sem12_0 : DmaSem sig := 65
abbrev cc5_sem13_0 : DmaSem sig := 66
abbrev cc5_sem14_0 : DmaSem sig := 67
abbrev cc5_sem14_1 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x96 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x96 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x96 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x96 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x96 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x96 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S96x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S96x96 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S96x96 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x96 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x96 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x96 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x96 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x96 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x96 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x96 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S96x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S96x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S96x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S96x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S96x96 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S96x96 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x96 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x96 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x96 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x96 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x96 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x96 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S5000x96 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S288x96_S96x96_0_0 : S288x96.Slices ![0, 0] S96x96
  transposes_S96x96_S96x96_1_0 : S96x96.Transposes [1, 0] S96x96
  slices_S288x96_S96x96_96_0 : S288x96.Slices ![96, 0] S96x96
  slices_S288x96_S96x96_192_0 : S288x96.Slices ![192, 0] S96x96
  slices_S288_S96_0 : S288.Slices ![0] S96
  shapeCasts_S96_S1x96 : S96.ShapeCasts S1x96
  slices_S288_S96_96 : S288.Slices ![96] S96
  slices_S288_S96_192 : S288.Slices ![192] S96
  slices_S3x96x96_S1x96x96_0_0_0 : S3x96x96.Slices ![0, 0, 0] S1x96x96
  shapeCasts_S1x96x96_S96x96 : S1x96x96.ShapeCasts S96x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S3x96x96_S1x96x96_1_0_0 : S3x96x96.Slices ![1, 0, 0] S1x96x96
  slices_S3x96x96_S1x96x96_2_0_0 : S3x96x96.Slices ![2, 0, 0] S1x96x96
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x96.size a ≤ S96x96.size a
  hwx1_5 : ∀ i : grid1.Coords, EltTy.bits .f32 = 32 ∨ (Rect.block (s := S96x96) S96x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x96.size a ≤ S96x96.size a
  hwx1_6 : ∀ i : grid1.Coords, EltTy.bits .f32 = 32 ∨ (Rect.block (s := S96x96) S96x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x96.size a ≤ S96x96.size a
  hwx1_7 : ∀ i : grid1.Coords, EltTy.bits .f32 = 32 ∨ (Rect.block (s := S96x96) S96x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x96.size a ≤ S1x96.size a
  hwx1_8 : ∀ i : grid1.Coords, EltTy.bits .f32 = 32 ∨ (Rect.block (s := S1x96) S1x96.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x96.size a ≤ S1x96.size a
  hwx1_9 : ∀ i : grid1.Coords, EltTy.bits .f32 = 32 ∨ (Rect.block (s := S1x96) S1x96.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x96.size a ≤ S1x96.size a
  hwx1_10 : ∀ i : grid1.Coords, EltTy.bits .f32 = 32 ∨ (Rect.block (s := S1x96) S1x96.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x96.size a ≤ S1x96.size a
  hwx1_11 : ∀ i : grid1.Coords, EltTy.bits .f32 = 32 ∨ (Rect.block (s := S1x96) S1x96.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x96.size a ≤ S1x96.size a
  hwx1_12 : ∀ i : grid1.Coords, EltTy.bits .f32 = 32 ∨ (Rect.block (s := S1x96) S1x96.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x96.size a ≤ S1x96.size a
  hwx1_13 : ∀ i : grid1.Coords, EltTy.bits .f32 = 32 ∨ (Rect.block (s := S1x96) S1x96.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x96.size a ≤ S50000x96.size a
  hwx1_14 : ∀ i : grid1.Coords, EltTy.bits .f32 = 32 ∨ (Rect.block (s := S50000x96) S5000x96.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96x96.size a ≤ S96x96.size a
  hwx3_3 : ∀ i : grid3.Coords, EltTy.bits .f32 = 32 ∨ (Rect.block (s := S96x96) S96x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x96.size a ≤ S96x96.size a
  hwx3_4 : ∀ i : grid3.Coords, EltTy.bits .f32 = 32 ∨ (Rect.block (s := S96x96) S96x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S96x96.size a ≤ S96x96.size a
  hwx3_5 : ∀ i : grid3.Coords, EltTy.bits .f32 = 32 ∨ (Rect.block (s := S96x96) S96x96.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S96x96.size a ≤ S96x96.size a
  hwx3_6 : ∀ i : grid3.Coords, EltTy.bits .f32 = 32 ∨ (Rect.block (s := S96x96) S96x96.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S96x96.size a ≤ S96x96.size a
  hwx3_7 : ∀ i : grid3.Coords, EltTy.bits .f32 = 32 ∨ (Rect.block (s := S96x96) S96x96.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x96.size a ≤ S1x96.size a
  hwx3_8 : ∀ i : grid3.Coords, EltTy.bits .f32 = 32 ∨ (Rect.block (s := S1x96) S1x96.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x96.size a ≤ S1x96.size a
  hwx3_9 : ∀ i : grid3.Coords, EltTy.bits .f32 = 32 ∨ (Rect.block (s := S1x96) S1x96.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x96.size a ≤ S1x96.size a
  hwx3_10 : ∀ i : grid3.Coords, EltTy.bits .f32 = 32 ∨ (Rect.block (s := S1x96) S1x96.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x96.size a ≤ S1x96.size a
  hwx3_11 : ∀ i : grid3.Coords, EltTy.bits .f32 = 32 ∨ (Rect.block (s := S1x96) S1x96.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x96.size a ≤ S1x96.size a
  hwx3_12 : ∀ i : grid3.Coords, EltTy.bits .f32 = 32 ∨ (Rect.block (s := S1x96) S1x96.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x96.size a ≤ S1x96.size a
  hwx3_13 : ∀ i : grid3.Coords, EltTy.bits .f32 = 32 ∨ (Rect.block (s := S1x96) S1x96.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x96.size a ≤ S50000x96.size a
  hwx3_14 : ∀ i : grid3.Coords, EltTy.bits .f32 = 32 ∨ (Rect.block (s := S50000x96) S5000x96.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S50000x96.size a
  hwx4_2 : ∀ i : grid4.Coords, EltTy.bits .f32 = 32 ∨ (Rect.block (s := S50000x96) S5000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x96.size a ≤ S50000x96.size a
  hwx5_1 : ∀ i : grid5.Coords, EltTy.bits .f32 = 32 ∨ (Rect.block (s := S50000x96) S5000x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S96x96.size a ≤ S96x96.size a
  hwx5_2 : ∀ i : grid5.Coords, EltTy.bits .f32 = 32 ∨ (Rect.block (s := S96x96) S96x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S96x96.size a ≤ S96x96.size a
  hwx5_3 : ∀ i : grid5.Coords, EltTy.bits .f32 = 32 ∨ (Rect.block (s := S96x96) S96x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S96x96.size a ≤ S96x96.size a
  hwx5_4 : ∀ i : grid5.Coords, EltTy.bits .f32 = 32 ∨ (Rect.block (s := S96x96) S96x96.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S96x96.size a ≤ S96x96.size a
  hwx5_5 : ∀ i : grid5.Coords, EltTy.bits .f32 = 32 ∨ (Rect.block (s := S96x96) S96x96.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S96x96.size a ≤ S96x96.size a
  hwx5_6 : ∀ i : grid5.Coords, EltTy.bits .f32 = 32 ∨ (Rect.block (s := S96x96) S96x96.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S96x96.size a ≤ S96x96.size a
  hwx5_7 : ∀ i : grid5.Coords, EltTy.bits .f32 = 32 ∨ (Rect.block (s := S96x96) S96x96.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x96.size a ≤ S1x96.size a
  hwx5_8 : ∀ i : grid5.Coords, EltTy.bits .f32 = 32 ∨ (Rect.block (s := S1x96) S1x96.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x96.size a ≤ S1x96.size a
  hwx5_9 : ∀ i : grid5.Coords, EltTy.bits .f32 = 32 ∨ (Rect.block (s := S1x96) S1x96.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x96.size a ≤ S1x96.size a
  hwx5_10 : ∀ i : grid5.Coords, EltTy.bits .f32 = 32 ∨ (Rect.block (s := S1x96) S1x96.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x96.size a ≤ S1x96.size a
  hwx5_11 : ∀ i : grid5.Coords, EltTy.bits .f32 = 32 ∨ (Rect.block (s := S1x96) S1x96.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x96.size a ≤ S1x96.size a
  hwx5_12 : ∀ i : grid5.Coords, EltTy.bits .f32 = 32 ∨ (Rect.block (s := S1x96) S1x96.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x96.size a ≤ S1x96.size a
  hwx5_13 : ∀ i : grid5.Coords, EltTy.bits .f32 = 32 ∨ (Rect.block (s := S1x96) S1x96.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S5000x96.size a ≤ S50000x96.size a
  hwx5_14 : ∀ i : grid5.Coords, EltTy.bits .f32 = 32 ∨ (Rect.block (s := S50000x96) S5000x96.size (cc5_transform_14 i) (hinb5_14 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S96x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S96x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S1x96.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x96.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21) S1x96.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23) S1x96.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v25) S1x96.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v27) S1x96.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v41) S5000x96.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v41) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S96x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S96x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S96x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13) S96x96.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S96x96.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v17) S1x96.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v19) S1x96.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v21) S1x96.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v23) S1x96.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v25) S1x96.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v27) S1x96.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v55) S5000x96.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v55) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S5000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S96x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v7) S96x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v9) S96x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v11) S96x96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v13) S96x96.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v15) S96x96.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v17) S1x96.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v19) S1x96.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v21) S1x96.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v23) S1x96.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v25) S1x96.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v27) S1x96.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v69) S5000x96.size cc5_transform_14 reads5_14 true false 2 stage5_14 sem5_14
    hrank5 hreads5_14 hinb5_14 nbuf5_14 (Memref.isWhole_whole _) hwx5_14 hstage5_14

abbrev win5 : Fin 15 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | ⟨_ + 15, h⟩ => absurd h (Nat.not_lt.2 (Nat.le_add_left _ _))
abbrev spec5 : Fin 15 → Pipeline.WinSpec sig grid5.rank := fun w => (win5 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S3x96x96 : Shape := ⟨3, ![3, 96, 96]⟩
abbrev S288x96 : Shape := ⟨2, ![288, 96]⟩
abbrev S288 : Shape := ⟨1, ![288]⟩
abbrev S1x800000 : Shape := ⟨2, ![1, 800000]⟩
abbrev S800000 : Shape := ⟨1, ![800000]⟩
abbrev S1x96x96 : Shape := ⟨3, ![1, 96, 96]⟩
abbrev S96x96 : Shape := ⟨2, ![96, 96]⟩
abbrev S_ : Shape := ⟨0, ![]⟩
abbrev S800000x1 : Shape := ⟨2, ![800000, 1]⟩
abbrev S800000x96 : Shape := ⟨2, ![800000, 96]⟩
abbrev S96x288 : Shape := ⟨2, ![96, 288]⟩
abbrev S50000x288 : Shape := ⟨2, ![50000, 288]⟩
abbrev S1x288 : Shape := ⟨2, ![1, 288]⟩

abbrev nBuf : Space → Nat
  | .hbm => 188
  | .vmem => 0
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S288x96, .f32⟩
  | 4 => ⟨S288x96, .f32⟩
  | 5 => ⟨S288, .f32⟩
  | 6 => ⟨S288, .f32⟩
  | 7 => ⟨S1x800000, .i32⟩
  | 8 => ⟨S800000, .i32⟩
  | 9 => ⟨S1x800000, .i32⟩
  | 10 => ⟨S800000, .i32⟩
  | 11 => ⟨S1x96x96, .f32⟩
  | 12 => ⟨S96x96, .f32⟩
  | 13 => ⟨S50000x96, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x96, .f32⟩
  | 23 => ⟨S_, .f32⟩
  | 24 => ⟨S50000x96, .f32⟩
  | 25 => ⟨S800000x1, .i32⟩
  | 26 => ⟨S50000x96, .f32⟩
  | 27 => ⟨S96x288, .f32⟩
  | 28 => ⟨S50000x288, .f32⟩
  | 29 => ⟨S1x288, .f32⟩
  | 30 => ⟨S50000x288, .f32⟩
  | 31 => ⟨S50000x288, .f32⟩
  | 32 => ⟨S96x288, .f32⟩
  | 33 => ⟨S50000x288, .f32⟩
  | 34 => ⟨S1x288, .f32⟩
  | 35 => ⟨S50000x288, .f32⟩
  | 36 => ⟨S50000x288, .f32⟩
  | 37 => ⟨S50000x96, .f32⟩
  | 38 => ⟨S50000x96, .f32⟩
  | 39 => ⟨S50000x96, .f32⟩
  | 40 => ⟨S50000x96, .f32⟩
  | 41 => ⟨S50000x96, .f32⟩
  | 42 => ⟨S50000x96, .f32⟩
  | 43 => ⟨S50000x96, .f32⟩
  | 44 => ⟨S50000x96, .f32⟩
  | 45 => ⟨S50000x96, .f32⟩
  | 46 => ⟨S_, .f32⟩
  | 47 => ⟨S50000x96, .f32⟩
  | 48 => ⟨S50000x96, .f32⟩
  | 49 => ⟨S_, .f32⟩
  | 50 => ⟨S50000x96, .f32⟩
  | 51 => ⟨S50000x96, .f32⟩
  | 52 => ⟨S50000x96, .f32⟩
  | 53 => ⟨S50000x96, .f32⟩
  | 54 => ⟨S50000x96, .f32⟩
  | 55 => ⟨S_, .f32⟩
  | 56 => ⟨S50000x96, .f32⟩
  | 57 => ⟨S50000x96, .f32⟩
  | 58 => ⟨S_, .f32⟩
  | 59 => ⟨S50000x96, .f32⟩
  | 60 => ⟨S50000x96, .f32⟩
  | 61 => ⟨S50000x96, .f32⟩
  | 62 => ⟨S50000x96, .f32⟩
  | 63 => ⟨S50000x96, .f32⟩
  | 64 => ⟨S_, .f32⟩
  | 65 => ⟨S50000x96, .f32⟩
  | 66 => ⟨S50000x96, .f32⟩
  | 67 => ⟨S50000x96, .f32⟩
  | 68 => ⟨S50000x96, .f32⟩
  | 69 => ⟨S50000x96, .f32⟩
  | 70 => ⟨S1x96x96, .f32⟩
  | 71 => ⟨S96x96, .f32⟩
  | 72 => ⟨S50000x96, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x96, .f32⟩
  | 82 => ⟨S_, .f32⟩
  | 83 => ⟨S50000x96, .f32⟩
  | 84 => ⟨S800000x1, .i32⟩
  | 85 => ⟨S50000x96, .f32⟩
  | 86 => ⟨S96x288, .f32⟩
  | 87 => ⟨S50000x288, .f32⟩
  | 88 => ⟨S1x288, .f32⟩
  | 89 => ⟨S50000x288, .f32⟩
  | 90 => ⟨S50000x288, .f32⟩
  | 91 => ⟨S96x288, .f32⟩
  | 92 => ⟨S50000x288, .f32⟩
  | 93 => ⟨S1x288, .f32⟩
  | 94 => ⟨S50000x288, .f32⟩
  | 95 => ⟨S50000x288, .f32⟩
  | 96 => ⟨S50000x96, .f32⟩
  | 97 => ⟨S50000x96, .f32⟩
  | 98 => ⟨S50000x96, .f32⟩
  | 99 => ⟨S50000x96, .f32⟩
  | 100 => ⟨S50000x96, .f32⟩
  | 101 => ⟨S50000x96, .f32⟩
  | 102 => ⟨S50000x96, .f32⟩
  | 103 => ⟨S50000x96, .f32⟩
  | 104 => ⟨S50000x96, .f32⟩
  | 105 => ⟨S_, .f32⟩
  | 106 => ⟨S50000x96, .f32⟩
  | 107 => ⟨S50000x96, .f32⟩
  | 108 => ⟨S_, .f32⟩
  | 109 => ⟨S50000x96, .f32⟩
  | 110 => ⟨S50000x96, .f32⟩
  | 111 => ⟨S50000x96, .f32⟩
  | 112 => ⟨S50000x96, .f32⟩
  | 113 => ⟨S50000x96, .f32⟩
  | 114 => ⟨S_, .f32⟩
  | 115 => ⟨S50000x96, .f32⟩
  | 116 => ⟨S50000x96, .f32⟩
  | 117 => ⟨S_, .f32⟩
  | 118 => ⟨S50000x96, .f32⟩
  | 119 => ⟨S50000x96, .f32⟩
  | 120 => ⟨S50000x96, .f32⟩
  | 121 => ⟨S50000x96, .f32⟩
  | 122 => ⟨S50000x96, .f32⟩
  | 123 => ⟨S_, .f32⟩
  | 124 => ⟨S50000x96, .f32⟩
  | 125 => ⟨S50000x96, .f32⟩
  | 126 => ⟨S50000x96, .f32⟩
  | 127 => ⟨S50000x96, .f32⟩
  | _ => ⟨S50000x96, .f32⟩

abbrev hbmTy0_1 (i : Nat) : BufTy := match i % 128 with
  | 0 => ⟨S50000x96, .f32⟩
  | 1 => ⟨S1x96x96, .f32⟩
  | 2 => ⟨S96x96, .f32⟩
  | 3 => ⟨S50000x96, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x96, .f32⟩
  | 13 => ⟨S_, .f32⟩
  | 14 => ⟨S50000x96, .f32⟩
  | 15 => ⟨S800000x1, .i32⟩
  | 16 => ⟨S50000x96, .f32⟩
  | 17 => ⟨S96x288, .f32⟩
  | 18 => ⟨S50000x288, .f32⟩
  | 19 => ⟨S1x288, .f32⟩
  | 20 => ⟨S50000x288, .f32⟩
  | 21 => ⟨S50000x288, .f32⟩
  | 22 => ⟨S96x288, .f32⟩
  | 23 => ⟨S50000x288, .f32⟩
  | 24 => ⟨S1x288, .f32⟩
  | 25 => ⟨S50000x288, .f32⟩
  | 26 => ⟨S50000x288, .f32⟩
  | 27 => ⟨S50000x96, .f32⟩
  | 28 => ⟨S50000x96, .f32⟩
  | 29 => ⟨S50000x96, .f32⟩
  | 30 => ⟨S50000x96, .f32⟩
  | 31 => ⟨S50000x96, .f32⟩
  | 32 => ⟨S50000x96, .f32⟩
  | 33 => ⟨S50000x96, .f32⟩
  | 34 => ⟨S50000x96, .f32⟩
  | 35 => ⟨S50000x96, .f32⟩
  | 36 => ⟨S_, .f32⟩
  | 37 => ⟨S50000x96, .f32⟩
  | 38 => ⟨S50000x96, .f32⟩
  | 39 => ⟨S_, .f32⟩
  | 40 => ⟨S50000x96, .f32⟩
  | 41 => ⟨S50000x96, .f32⟩
  | 42 => ⟨S50000x96, .f32⟩
  | 43 => ⟨S50000x96, .f32⟩
  | 44 => ⟨S50000x96, .f32⟩
  | 45 => ⟨S_, .f32⟩
  | 46 => ⟨S50000x96, .f32⟩
  | 47 => ⟨S50000x96, .f32⟩
  | 48 => ⟨S_, .f32⟩
  | 49 => ⟨S50000x96, .f32⟩
  | 50 => ⟨S50000x96, .f32⟩
  | 51 => ⟨S50000x96, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S50000x96, .f32⟩
  | 58 => ⟨S50000x96, .f32⟩
  | 59 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_6 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_c_14 : Ref sig .tc := ⟨.hbm, 132, rfl⟩
abbrev main_v109 : Ref sig .tc := ⟨.hbm, 133, rfl⟩
abbrev main_v110 : Ref sig .tc := ⟨.hbm, 134, rfl⟩
abbrev main_c_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_16 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_cst_18 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_19 : Ref sig .tc := ⟨.hbm, 173, rfl⟩
abbrev main_v145 : Ref sig .tc := ⟨.hbm, 174, rfl⟩
abbrev main_v146 : Ref sig .tc := ⟨.hbm, 175, rfl⟩
abbrev main_cst_20 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_21 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x96x96_S1x96x96_0_0_0 : S3x96x96.Slices ![0, 0, 0] S1x96x96
  shapeCasts_S1x96x96_S96x96 : S1x96x96.ShapeCasts S96x96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S288x96_S96x288_1_0 : S288x96.Transposes [1, 0] S96x288
  bcast_S288_S1x288_1 : S288.BroadcastsInDim S1x288 (![1] : Fin 1 → Fin S1x288.rank)
  bcast_S1x288_S50000x288_0_1 : S1x288.BroadcastsInDim S50000x288 (![0, 1] : Fin 2 → Fin S50000x288.rank)
  slices_S50000x288_S50000x96_0_0 : S50000x288.Slices ![0, 0] S50000x96
  slices_S50000x288_S50000x96_0_96 : S50000x288.Slices ![0, 96] S50000x96
  slices_S50000x288_S50000x96_0_192 : S50000x288.Slices ![0, 192] S50000x96
  slices_S3x96x96_S1x96x96_1_0_0 : S3x96x96.Slices ![1, 0, 0] S1x96x96
  slices_S3x96x96_S1x96x96_2_0_0 : S3x96x96.Slices ![2, 0, 0] S1x96x96
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x288_S50000x288_1_0_0_1_n_n_wf : DotDims.WF S50000x96 S96x288 S50000x288 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x288_S50000x288_1_0_0_1_n_n : DotDims S50000x96 S96x288 S50000x288 where
  lhsContracting := [1]
  rhsContracting := [0]
  lhsNonContracting := [0]
  rhsNonContracting := [1]
  lhsBatch := []
  rhsBatch := []
  wf := dot_S50000x96_S96x288_S50000x288_1_0_0_1_n_n_wf

class Facts : Prop extends Facts₀ where

variable [Facts]
-- ==== Proof.KernelRun.lean ====
/-
  The idealized kernel's run with its result named.

  The program is twelve segments: six stretches of host operations alternating with six kernel regions.  The
  generated frame folds the buffer contents through them (`Gen.W0` at launch, `Gen.W12` at the return) and
  shows that every weakly fair execution ends with every unscoped buffer at `Gen.W12`.  Read at the result
  buffer instead of only at the arguments, the same run says: the result ends at `Gen.W12` of the result
  buffer, and the arguments end as launched.
-/
import proofs.«177519_j19945828123200_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven arguments as launched. -/
theorem run : θ_run defs (onTc (τ := τ) (main (F := F))) ⟨m, fun _ => 0, ρ⟩ (fun r => ∀ c : Dev nD,
      r.2.mem ((c.tc : Thread nD τ).loc main_v69) = W12 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v69 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunValue

end
-- ==== Proof.Layer.lean ====
/-
  One layer of a gated graph convolution, entry by entry on the extended reals.

  A layer takes the node features `x` (50000 nodes, 96 channels), multiplies them by the layer's
  96 × 96 matrix, aggregates the products along the edges (the aggregation `A` is a parameter here: both
  programs apply the same gather and scatter-add to the product), and feeds the aggregate `a` and `x` to a
  gated recurrent cell:
      r = σ((a·Wirᵀ + bir) + (x·Whrᵀ + bhr)),   z = σ((a·Wizᵀ + biz) + (x·Whzᵀ + bhz)),
      n = tanh((a·Winᵀ + bin) + r · (x·Whnᵀ + bhn)),   x' = (1 − z) · n + z · x,
  with σ the logistic function `1 / (1 + e^(−s))`.  The three gates' weights are the three 96-row bands of
  one 288 × 96 matrix, their biases the three 96-entry bands of one 288-vector.

  Two arrangements of the same cell are stated: over the stacked 288 × 96 weights, a gate's row picked by
  its band offset (`cell`), and over six 96 × 96 matrices already transposed with six 1 × 96 bias rows
  (`cellT`); `cellT_bands` says they agree when the six pieces are the bands.  Every sum is the plain sum
  over the 96 channels in one order and every product and sum is grouped the same way in both, so no
  law of the extended reals beyond rewriting equals by equals is used.
-/
import Idealize.ShloMosaic.PureOps.Ideal
import Idealize.ShloMosaic.PureOps.Ideal.Laws
import Idealize.ShloMosaic.Lib.ValueIdx

noncomputable section

namespace Cert.GatedGraph

open Idealize.ShloMosaic Idealize.ShloMosaic.ValueIdx

/-- Node features: 50000 nodes × 96 channels. -/
abbrev Nodes : Shape := ⟨2, ![50000, 96]⟩
/-- A square channel-mixing matrix. -/
abbrev Sq : Shape := ⟨2, ![96, 96]⟩
/-- The three gates' weights stacked by rows. -/
abbrev Gates : Shape := ⟨2, ![288, 96]⟩
/-- The three gates' biases stacked. -/
abbrev Bias : Shape := ⟨1, ![288]⟩
/-- One gate's bias as a row. -/
abbrev Row : Shape := ⟨2, ![1, 96]⟩

/-- The float word of `1.0`, kept as the word both programs print. -/
abbrev one : EReal := Ideal.ofBits .f32 0x3F800000#32

/-- `(x · W)(p, q) = ∑ₖ x(p, k) · W(k, q)`. -/
def lin (x : Nodes.Idx → EReal) (w : Sq.Idx → EReal) (p : Fin 50000) (q : Fin 96) : EReal :=
  ∑ k : Fin 96, x (ix2 p k) * w (ix2 k q)

/-- The product as an array. -/
def linArr (x : Nodes.Idx → EReal) (w : Sq.Idx → EReal) : Nodes.Idx → EReal :=
  fun i => lin x w (i 0) (i 1)

theorem linArr_apply (x : Nodes.Idx → EReal) (w : Sq.Idx → EReal) (p : Fin 50000) (q : Fin 96) :
    linArr x w (ix2 p q) = lin x w p q := rfl

/-- Row `o + q` of the stacked weights: channel `q` of the gate whose band starts at `o`. -/
def band (o : Nat) (ho : o + 96 ≤ 288) (q : Fin 96) : Fin 288 := ⟨o + q.val, by have := q.isLt; omega⟩

/-- A gate's pre-activation over the stacked weights: `(∑ₖ a(p, k) · W(r, k)) + b(r)`. -/
def pre (a : Nodes.Idx → EReal) (W : Gates.Idx → EReal) (b : Bias.Idx → EReal) (p : Fin 50000) (r : Fin 288) : EReal :=
  (∑ k : Fin 96, a (ix2 p k) * W (ix2 r k)) + b (ix1 r)

/-- The recurrent cell over the stacked weights, at node `p` and channel `q`. -/
def cell (a x : Nodes.Idx → EReal) (Wi Wh : Gates.Idx → EReal) (bi bh : Bias.Idx → EReal)
    (p : Fin 50000) (q : Fin 96) : EReal :=
  (one - Ideal.logistic (pre a Wi bi p (band 96 (by omega) q) + pre x Wh bh p (band 96 (by omega) q)))
      * Ideal.tanh (pre a Wi bi p (band 192 (by omega) q)
          + Ideal.logistic (pre a Wi bi p (band 0 (by omega) q) + pre x Wh bh p (band 0 (by omega) q))
            * pre x Wh bh p (band 192 (by omega) q))
    + Ideal.logistic (pre a Wi bi p (band 96 (by omega) q) + pre x Wh bh p (band 96 (by omega) q)) * x (ix2 p q)

/-- The cell as an array. -/
def cellArr (a x : Nodes.Idx → EReal) (Wi Wh : Gates.Idx → EReal) (bi bh : Bias.Idx → EReal) : Nodes.Idx → EReal :=
  fun i => cell a x Wi Wh bi bh (i 0) (i 1)

theorem cellArr_apply (a x : Nodes.Idx → EReal) (Wi Wh : Gates.Idx → EReal) (bi bh : Bias.Idx → EReal)
    (p : Fin 50000) (q : Fin 96) : cellArr a x Wi Wh bi bh (ix2 p q) = cell a x Wi Wh bi bh p q := rfl

/-- A gate's pre-activation over one transposed 96 × 96 piece and its bias row:
    `(∑ₖ a(p, k) · Wt(k, q)) + b(0, q)`. -/
def preT (a : Nodes.Idx → EReal) (Wt : Sq.Idx → EReal) (b : Row.Idx → EReal) (p : Fin 50000) (q : Fin 96) : EReal :=
  (∑ k : Fin 96, a (ix2 p k) * Wt (ix2 k q)) + b (ix2 (0 : Fin 1) q)

/-- The recurrent cell over six transposed pieces and six bias rows. -/
def cellT (a x : Nodes.Idx → EReal) (wir wiz win whr whz whn : Sq.Idx → EReal) (bir biz bin bhr bhz bhn : Row.Idx → EReal)
    (p : Fin 50000) (q : Fin 96) : EReal :=
  (one - Ideal.logistic (preT a wiz biz p q + preT x whz bhz p q))
      * Ideal.tanh (preT a win bin p q + Ideal.logistic (preT a wir bir p q + preT x whr bhr p q) * preT x whn bhn p q)
    + Ideal.logistic (preT a wiz biz p q + preT x whz bhz p q) * x (ix2 p q)

/-- The same as an array. -/
def cellTArr (a x : Nodes.Idx → EReal) (wir wiz win whr whz whn : Sq.Idx → EReal) (bir biz bin bhr bhz bhn : Row.Idx → EReal) :
    Nodes.Idx → EReal :=
  fun i => cellT a x wir wiz win whr whz whn bir biz bin bhr bhz bhn (i 0) (i 1)

theorem cellTArr_apply (a x : Nodes.Idx → EReal) (wir wiz win whr whz whn : Sq.Idx → EReal)
    (bir biz bin bhr bhz bhn : Row.Idx → EReal) (p : Fin 50000) (q : Fin 96) :
    cellTArr a x wir wiz win whr whz whn bir biz bin bhr bhz bhn (ix2 p q)
      = cellT a x wir wiz win whr whz whn bir biz bin bhr bhz bhn p q := rfl

/-- A transposed piece that is a band of the stacked weights, with its bias row the same band of the stacked
    biases, gives the stacked pre-activation at that band's row. -/
theorem preT_band (a : Nodes.Idx → EReal) (W : Gates.Idx → EReal) (b : Bias.Idx → EReal)
    (Wt : Sq.Idx → EReal) (bt : Row.Idx → EReal) (o : Nat) (ho : o + 96 ≤ 288)
    (hW : ∀ (k q : Fin 96), Wt (ix2 k q) = W (ix2 (band o ho q) k))
    (hb : ∀ q : Fin 96, bt (ix2 (0 : Fin 1) q) = b (ix1 (band o ho q)))
    (p : Fin 50000) (q : Fin 96) : preT a Wt bt p q = pre a W b p (band o ho q) := by
  unfold preT pre
  rw [hb q]
  exact congrArg (· + b (ix1 (band o ho q))) (Finset.sum_congr rfl fun k _ => by rw [hW k q])

/-- The two arrangements of the cell agree when the six pieces are the three bands of the two stacked
    weight matrices, transposed, and the six rows the three bands of the two stacked biases. -/
theorem cellT_bands (a x : Nodes.Idx → EReal) (Wi Wh : Gates.Idx → EReal) (bi bh : Bias.Idx → EReal)
    (wir wiz win whr whz whn : Sq.Idx → EReal) (bir biz bin bhr bhz bhn : Row.Idx → EReal)
    (h_ir : ∀ (k q : Fin 96), wir (ix2 k q) = Wi (ix2 (band 0 (by omega) q) k))
    (h_iz : ∀ (k q : Fin 96), wiz (ix2 k q) = Wi (ix2 (band 96 (by omega) q) k))
    (h_in : ∀ (k q : Fin 96), win (ix2 k q) = Wi (ix2 (band 192 (by omega) q) k))
    (h_hr : ∀ (k q : Fin 96), whr (ix2 k q) = Wh (ix2 (band 0 (by omega) q) k))
    (h_hz : ∀ (k q : Fin 96), whz (ix2 k q) = Wh (ix2 (band 96 (by omega) q) k))
    (h_hn : ∀ (k q : Fin 96), whn (ix2 k q) = Wh (ix2 (band 192 (by omega) q) k))
    (g_ir : ∀ q : Fin 96, bir (ix2 (0 : Fin 1) q) = bi (ix1 (band 0 (by omega) q)))
    (g_iz : ∀ q : Fin 96, biz (ix2 (0 : Fin 1) q) = bi (ix1 (band 96 (by omega) q)))
    (g_in : ∀ q : Fin 96, bin (ix2 (0 : Fin 1) q) = bi (ix1 (band 192 (by omega) q)))
    (g_hr : ∀ q : Fin 96, bhr (ix2 (0 : Fin 1) q) = bh (ix1 (band 0 (by omega) q)))
    (g_hz : ∀ q : Fin 96, bhz (ix2 (0 : Fin 1) q) = bh (ix1 (band 96 (by omega) q)))
    (g_hn : ∀ q : Fin 96, bhn (ix2 (0 : Fin 1) q) = bh (ix1 (band 192 (by omega) q))) :
    cellTArr a x wir wiz win whr whz whn bir biz bin bhr bhz bhn = cellArr a x Wi Wh bi bh := by
  funext i
  obtain ⟨p, q, rfl⟩ : ∃ (p : Fin 50000) (q : Fin 96), i = ix2 p q := ⟨i 0, i 1, eq_ix2 i⟩
  rw [cellTArr_apply, cellArr_apply]
  unfold cellT cell
  rw [preT_band a Wi bi wir bir 0 (by omega) h_ir g_ir, preT_band a Wi bi wiz biz 96 (by omega) h_iz g_iz,
    preT_band a Wi bi win bin 192 (by omega) h_in g_in, preT_band x Wh bh whr bhr 0 (by omega) h_hr g_hr,
    preT_band x Wh bh whz bhz 96 (by omega) h_hz g_hz, preT_band x Wh bh whn bhn 192 (by omega) h_hn g_hn]

/-- One layer: the cell of the aggregated product and the features. -/
def layer (A : (Nodes.Idx → EReal) → (Nodes.Idx → EReal)) (Wi Wh : Gates.Idx → EReal) (bi bh : Bias.Idx → EReal)
    (x : Nodes.Idx → EReal) (w : Sq.Idx → EReal) : Nodes.Idx → EReal :=
  cellArr (A (linArr x w)) x Wi Wh bi bh

end Cert.GatedGraph

end
-- ==== Proof.Boundaries.lean ====
/-
  What each segment of the program leaves alone.

  The program's buffer contents are folded through twelve segments: a stretch of host operations, then a
  kernel region, six times over.  A host stretch changes only the buffers its operations write; a region changes
  only its output array (its input windows' arrays are never written back, and every other buffer is not its
  own).  So a buffer that nothing after the first stretch writes — the index vectors, the twelve weight and bias
  pieces, the arguments — holds at every later region entry what it held after the first stretch.
-/
import proofs.«177519_j19945828123200_1_alg».proof.Proof.Gen.KernelIdeal.Frame

set_option maxRecDepth 16384

noncomputable section

namespace Cert.KernelIdeal.Fold

open Cert.KernelIdeal Cert.KernelIdeal.Gen Idealize.ShloMosaic Idealize.ShloMosaic.TcCoe Idealize.ShloMosaic.StableHlo
open Idealize.ShloMosaic.Pipeline (Dat Cfg Window)

variable {F : FTy → Type} [FloatOps F]
variable (m : (ℓ : Loc nD τ sig) → Buf (Elt F) ℓ) (ρ : Dev nD → PrngReg) (c : Dev nD)

/-- The buffers stretch 1 writes. -/
abbrev written1 : List (Ref sig .tc) := [main_c, main_v31, main_v32, main_c_0, main_v33, main_v34, main_v35, main_v36, main_v37, main_cst, main_v38, main_v39, main_v40]
theorem writes1 : (hostOps1 : List (HloOp τ sig (Elt F))).Forall fun op => op.writes ⊆ (written1.map (Proc.devRef (τ := τ) .tc)).toFinset := by
  simp only [List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch 1 does not write keeps its contents through it. -/
theorem host1_keep (b : Ref sig .tc) (h : b ∉ written1) :
    W3 m ρ c (Proc.devRef .tc b) = W2 m ρ c (Proc.devRef .tc b) :=
  after_of_writes_sub hostOps1 _ writes1 h

/-- The buffers stretch 2 writes. -/
abbrev written2 : List (Ref sig .tc) := [main_v42, main_v43]
theorem writes2 : (hostOps2 : List (HloOp τ sig (Elt F))).Forall fun op => op.writes ⊆ (written2.map (Proc.devRef (τ := τ) .tc)).toFinset := by
  simp only [List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch 2 does not write keeps its contents through it. -/
theorem host2_keep (b : Ref sig .tc) (h : b ∉ written2) :
    W5 m ρ c (Proc.devRef .tc b) = W4 m ρ c (Proc.devRef .tc b) :=
  after_of_writes_sub hostOps2 _ writes2 h

/-- The buffers stretch 3 writes. -/
abbrev written3 : List (Ref sig .tc) := [main_c_1, main_v45, main_v46, main_c_2, main_v47, main_v48, main_v49, main_v50, main_v51, main_cst_3, main_v52, main_v53, main_v54]
theorem writes3 : (hostOps3 : List (HloOp τ sig (Elt F))).Forall fun op => op.writes ⊆ (written3.map (Proc.devRef (τ := τ) .tc)).toFinset := by
  simp only [List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch 3 does not write keeps its contents through it. -/
theorem host3_keep (b : Ref sig .tc) (h : b ∉ written3) :
    W7 m ρ c (Proc.devRef .tc b) = W6 m ρ c (Proc.devRef .tc b) :=
  after_of_writes_sub hostOps3 _ writes3 h

/-- The buffers stretch 4 writes. -/
abbrev written4 : List (Ref sig .tc) := [main_v56, main_v57]
theorem writes4 : (hostOps4 : List (HloOp τ sig (Elt F))).Forall fun op => op.writes ⊆ (written4.map (Proc.devRef (τ := τ) .tc)).toFinset := by
  simp only [List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch 4 does not write keeps its contents through it. -/
theorem host4_keep (b : Ref sig .tc) (h : b ∉ written4) :
    W9 m ρ c (Proc.devRef .tc b) = W8 m ρ c (Proc.devRef .tc b) :=
  after_of_writes_sub hostOps4 _ writes4 h

/-- The buffers stretch 5 writes. -/
abbrev written5 : List (Ref sig .tc) := [main_c_4, main_v59, main_v60, main_c_5, main_v61, main_v62, main_v63, main_v64, main_v65, main_cst_6, main_v66, main_v67, main_v68]
theorem writes5 : (hostOps5 : List (HloOp τ sig (Elt F))).Forall fun op => op.writes ⊆ (written5.map (Proc.devRef (τ := τ) .tc)).toFinset := by
  simp only [List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch 5 does not write keeps its contents through it. -/
theorem host5_keep (b : Ref sig .tc) (h : b ∉ written5) :
    W11 m ρ c (Proc.devRef .tc b) = W10 m ρ c (Proc.devRef .tc b) :=
  after_of_writes_sub hostOps5 _ writes5 h

/-- Every window of region 0 but its last is an input window. -/
theorem inputs0 : ∀ w : Fin cfg0.W, Pipeline.arrRef spec0 w ≠ main_v30 → (cfg0.win w).isOut = false := by decide
/-- Region 0 changes no buffer but its output array. -/
theorem region0_keep (b : Ref sig .tc) (h : b ≠ main_v30) :
    W2 m ρ c (Proc.devRef .tc b) = W1 m ρ c (Proc.devRef .tc b) := by
  by_cases hw : ∃ w, Pipeline.arrRef spec0 w = b
  · obtain ⟨w, rfl⟩ := hw
    exact (W2_arr m ρ c w).trans (((dat0 (V1 m ρ) c).arrAt_in w (inputs0 w h) _).trans (A_eq0 (V1 m ρ) c w))
  · exact W2_of_ne m ρ c b fun w e => hw ⟨w, e⟩

/-- Every window of region 1 but its last is an input window. -/
theorem inputs1 : ∀ w : Fin cfg1.W, Pipeline.arrRef spec1 w ≠ main_v41 → (cfg1.win w).isOut = false := by decide
/-- Region 1 changes no buffer but its output array. -/
theorem region1_keep (b : Ref sig .tc) (h : b ≠ main_v41) :
    W4 m ρ c (Proc.devRef .tc b) = W3 m ρ c (Proc.devRef .tc b) := by
  by_cases hw : ∃ w, Pipeline.arrRef spec1 w = b
  · obtain ⟨w, rfl⟩ := hw
    exact (W4_arr m ρ c w).trans (((dat1 (V3 m ρ) c).arrAt_in w (inputs1 w h) _).trans (A_eq1 (V3 m ρ) c w))
  · exact W4_of_ne m ρ c b fun w e => hw ⟨w, e⟩

/-- Every window of region 2 but its last is an input window. -/
theorem inputs2 : ∀ w : Fin cfg2.W, Pipeline.arrRef spec2 w ≠ main_v44 → (cfg2.win w).isOut = false := by decide
/-- Region 2 changes no buffer but its output array. -/
theorem region2_keep (b : Ref sig .tc) (h : b ≠ main_v44) :
    W6 m ρ c (Proc.devRef .tc b) = W5 m ρ c (Proc.devRef .tc b) := by
  by_cases hw : ∃ w, Pipeline.arrRef spec2 w = b
  · obtain ⟨w, rfl⟩ := hw
    exact (W6_arr m ρ c w).trans (((dat2 (V5 m ρ) c).arrAt_in w (inputs2 w h) _).trans (A_eq2 (V5 m ρ) c w))
  · exact W6_of_ne m ρ c b fun w e => hw ⟨w, e⟩

/-- Every window of region 3 but its last is an input window. -/
theorem inputs3 : ∀ w : Fin cfg3.W, Pipeline.arrRef spec3 w ≠ main_v55 → (cfg3.win w).isOut = false := by decide
/-- Region 3 changes no buffer but its output array. -/
theorem region3_keep (b : Ref sig .tc) (h : b ≠ main_v55) :
    W8 m ρ c (Proc.devRef .tc b) = W7 m ρ c (Proc.devRef .tc b) := by
  by_cases hw : ∃ w, Pipeline.arrRef spec3 w = b
  · obtain ⟨w, rfl⟩ := hw
    exact (W8_arr m ρ c w).trans (((dat3 (V7 m ρ) c).arrAt_in w (inputs3 w h) _).trans (A_eq3 (V7 m ρ) c w))
  · exact W8_of_ne m ρ c b fun w e => hw ⟨w, e⟩

/-- Every window of region 4 but its last is an input window. -/
theorem inputs4 : ∀ w : Fin cfg4.W, Pipeline.arrRef spec4 w ≠ main_v58 → (cfg4.win w).isOut = false := by decide
/-- Region 4 changes no buffer but its output array. -/
theorem region4_keep (b : Ref sig .tc) (h : b ≠ main_v58) :
    W10 m ρ c (Proc.devRef .tc b) = W9 m ρ c (Proc.devRef .tc b) := by
  by_cases hw : ∃ w, Pipeline.arrRef spec4 w = b
  · obtain ⟨w, rfl⟩ := hw
    exact (W10_arr m ρ c w).trans (((dat4 (V9 m ρ) c).arrAt_in w (inputs4 w h) _).trans (A_eq4 (V9 m ρ) c w))
  · exact W10_of_ne m ρ c b fun w e => hw ⟨w, e⟩

/-- Every window of region 5 but its last is an input window. -/
theorem inputs5 : ∀ w : Fin cfg5.W, Pipeline.arrRef spec5 w ≠ main_v69 → (cfg5.win w).isOut = false := by decide
/-- Region 5 changes no buffer but its output array. -/
theorem region5_keep (b : Ref sig .tc) (h : b ≠ main_v69) :
    W12 m ρ c (Proc.devRef .tc b) = W11 m ρ c (Proc.devRef .tc b) := by
  by_cases hw : ∃ w, Pipeline.arrRef spec5 w = b
  · obtain ⟨w, rfl⟩ := hw
    exact (W12_arr m ρ c w).trans (((dat5 (V11 m ρ) c).arrAt_in w (inputs5 w h) _).trans (A_eq5 (V11 m ρ) c w))
  · exact W12_of_ne m ρ c b fun w e => hw ⟨w, e⟩

/-- Everything written after the first stretch: the later stretches' buffers and the six regions' outputs. -/
abbrev writtenLater : List (Ref sig .tc) :=
  written1 ++ (written2 ++ (written3 ++ (written4 ++ (written5 ++ [main_v30, main_v41, main_v44, main_v55, main_v58, main_v69]))))

theorem later1 {b : Ref sig .tc} (h : b ∉ writtenLater) : b ∉ written1 := fun hm => h (List.mem_append_left _ hm)
theorem later2 {b : Ref sig .tc} (h : b ∉ writtenLater) : b ∉ written2 := fun hm => h (List.mem_append_right _ (List.mem_append_left _ hm))
theorem later3 {b : Ref sig .tc} (h : b ∉ writtenLater) : b ∉ written3 := fun hm => h (List.mem_append_right _ (List.mem_append_right _ (List.mem_append_left _ hm)))
theorem later4 {b : Ref sig .tc} (h : b ∉ writtenLater) : b ∉ written4 := fun hm => h (List.mem_append_right _ (List.mem_append_right _ (List.mem_append_right _ (List.mem_append_left _ hm))))
theorem later5 {b : Ref sig .tc} (h : b ∉ writtenLater) : b ∉ written5 := fun hm => h (List.mem_append_right _ (List.mem_append_right _ (List.mem_append_right _ (List.mem_append_right _ (List.mem_append_left _ hm)))))
theorem laterOut {b : Ref sig .tc} (h : b ∉ writtenLater) (o : Ref sig .tc)
    (ho : o ∈ [main_v30, main_v41, main_v44, main_v55, main_v58, main_v69]) : b ≠ o :=
  fun e => h (List.mem_append_right _ (List.mem_append_right _ (List.mem_append_right _ (List.mem_append_right _ (List.mem_append_right _ (e ▸ ho))))))

/-- A buffer nothing later writes holds, at each later region's entry, what it held after the first stretch. -/
theorem kept2 (b : Ref sig .tc) (h : b ∉ writtenLater) :
    W2 m ρ c (Proc.devRef .tc b) = W1 m ρ c (Proc.devRef .tc b) :=
  region0_keep m ρ c b (laterOut h _ (by decide))
theorem kept3 (b : Ref sig .tc) (h : b ∉ writtenLater) :
    W3 m ρ c (Proc.devRef .tc b) = W1 m ρ c (Proc.devRef .tc b) :=
  (host1_keep m ρ c b (later1 h)).trans (kept2 m ρ c b h)
theorem kept4 (b : Ref sig .tc) (h : b ∉ writtenLater) :
    W4 m ρ c (Proc.devRef .tc b) = W1 m ρ c (Proc.devRef .tc b) :=
  (region1_keep m ρ c b (laterOut h _ (by decide))).trans (kept3 m ρ c b h)
theorem kept5 (b : Ref sig .tc) (h : b ∉ writtenLater) :
    W5 m ρ c (Proc.devRef .tc b) = W1 m ρ c (Proc.devRef .tc b) :=
  (host2_keep m ρ c b (later2 h)).trans (kept4 m ρ c b h)
theorem kept6 (b : Ref sig .tc) (h : b ∉ writtenLater) :
    W6 m ρ c (Proc.devRef .tc b) = W1 m ρ c (Proc.devRef .tc b) :=
  (region2_keep m ρ c b (laterOut h _ (by decide))).trans (kept5 m ρ c b h)
theorem kept7 (b : Ref sig .tc) (h : b ∉ writtenLater) :
    W7 m ρ c (Proc.devRef .tc b) = W1 m ρ c (Proc.devRef .tc b) :=
  (host3_keep m ρ c b (later3 h)).trans (kept6 m ρ c b h)
theorem kept8 (b : Ref sig .tc) (h : b ∉ writtenLater) :
    W8 m ρ c (Proc.devRef .tc b) = W1 m ρ c (Proc.devRef .tc b) :=
  (region3_keep m ρ c b (laterOut h _ (by decide))).trans (kept7 m ρ c b h)
theorem kept9 (b : Ref sig .tc) (h : b ∉ writtenLater) :
    W9 m ρ c (Proc.devRef .tc b) = W1 m ρ c (Proc.devRef .tc b) :=
  (host4_keep m ρ c b (later4 h)).trans (kept8 m ρ c b h)
theorem kept10 (b : Ref sig .tc) (h : b ∉ writtenLater) :
    W10 m ρ c (Proc.devRef .tc b) = W1 m ρ c (Proc.devRef .tc b) :=
  (region4_keep m ρ c b (laterOut h _ (by decide))).trans (kept9 m ρ c b h)
theorem kept11 (b : Ref sig .tc) (h : b ∉ writtenLater) :
    W11 m ρ c (Proc.devRef .tc b) = W1 m ρ c (Proc.devRef .tc b) :=
  (host5_keep m ρ c b (later5 h)).trans (kept10 m ρ c b h)

end Cert.KernelIdeal.Fold

end
-- ==== Proof.Prologue.lean ====
/-
  What the first stretch of host operations leaves.

  Before the first region the program cuts its inputs into the pieces the kernels take: the source and target
  index vectors (the two rows of the edge list), the three 96-row bands of each stacked gate-weight matrix,
  transposed, the three 96-entry bands of each stacked bias as 1 × 96 rows, and the first layer's 96 × 96
  matrix.  Read at an entry: a transposed band at (k, q) is the stacked matrix at (o + q, k), a bias row at
  (0, q) is the stacked bias at o + q, for the band offset o ∈ {0, 96, 192}.
-/
import proofs.«177519_j19945828123200_1_alg».proof.Proof.Gen.KernelIdeal.Frame
import proofs.«177519_j19945828123200_1_alg».proof.Proof.Layer
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.ShloMosaic.ValueIdx

variable (m : (ℓ : Loc nD τ sig) → Buf (Elt Ideal) ℓ) (ρ : Dev nD → PrngReg) (c : Dev nD)

/-- The source-node index vector: row 0 of the edge list. -/
def srcOf (e : IVec S2x800000 32) : IVec S800000 32 :=
  shapeCast S800000 (extractStridedSlice S1x800000 ![0, 0] e slices_S2x800000_S1x800000_0_0) shapeCasts_S1x800000_S800000
/-- The target-node index vector: row 1 of the edge list. -/
def dstOf (e : IVec S2x800000 32) : IVec S800000 32 :=
  shapeCast S800000 (extractStridedSlice S1x800000 ![1, 0] e slices_S2x800000_S1x800000_1_0) shapeCasts_S1x800000_S800000

theorem src_eq : (W1 m ρ c (Proc.devRef .tc main_v1) : S800000.Idx → BitVec 32) = srcOf (m ((c : Thread nD τ).loc main_arg1)) := by
  show StableHlo.after hostOps0 (W0 m ρ c) (Proc.devRef .tc main_v1) = _
  after_results
  all_goals rfl
theorem dst_eq : (W1 m ρ c (Proc.devRef .tc main_v3) : S800000.Idx → BitVec 32) = dstOf (m ((c : Thread nD τ).loc main_arg1)) := by
  show StableHlo.after hostOps0 (W0 m ρ c) (Proc.devRef .tc main_v3) = _
  after_results
  all_goals rfl

/-- Layer `j`'s 96 × 96 matrix: slab `j` of the stacked layer weights. -/
def slabOf (j : Fin 3) (h : S3x96x96.Slices ![j.val, 0, 0] S1x96x96) (w : FVec Ideal S3x96x96 .f32) : FVec Ideal S96x96 .f32 :=
  shapeCast S96x96 (extractStridedSlice S1x96x96 ![j.val, 0, 0] w h) shapeCasts_S1x96x96_S96x96

theorem slab0_eq : (W1 m ρ c (Proc.devRef .tc main_v29) : S96x96.Idx → EReal)
    = slabOf 0 slices_S3x96x96_S1x96x96_0_0_0 (m ((c : Thread nD τ).loc main_arg2)) := by
  show StableHlo.after hostOps0 (W0 m ρ c) (Proc.devRef .tc main_v29) = _
  after_results
  all_goals rfl

theorem wir_eq : (W1 m ρ c (Proc.devRef .tc main_v5) : S96x96.Idx → EReal)
    = transpose S96x96 [1, 0] (extractStridedSlice S96x96 ![0, 0] (m ((c : Thread nD τ).loc main_arg3)) slices_S288x96_S96x96_0_0) transposes_S96x96_S96x96_1_0 := by
  show StableHlo.after hostOps0 (W0 m ρ c) (Proc.devRef .tc main_v5) = _
  after_results
  all_goals rfl
/-- The transposed band at (k, q) is the stacked matrix at (0 + q, k). -/
theorem wir_at (k q : Fin 96) : (W1 m ρ c (Proc.devRef .tc main_v5) : S96x96.Idx → EReal) (ix2 k q)
    = (m ((c : Thread nD τ).loc main_arg3) : S288x96.Idx → EReal) (ix2 (Cert.GatedGraph.band 0 (by omega) q) k) := by
  rw [wir_eq, transpose_ix2_apply, slice2_axis0_eq]
  rfl

theorem wiz_eq : (W1 m ρ c (Proc.devRef .tc main_v7) : S96x96.Idx → EReal)
    = transpose S96x96 [1, 0] (extractStridedSlice S96x96 ![96, 0] (m ((c : Thread nD τ).loc main_arg3)) slices_S288x96_S96x96_96_0) transposes_S96x96_S96x96_1_0 := by
  show StableHlo.after hostOps0 (W0 m ρ c) (Proc.devRef .tc main_v7) = _
  after_results
  all_goals rfl
/-- The transposed band at (k, q) is the stacked matrix at (96 + q, k). -/
theorem wiz_at (k q : Fin 96) : (W1 m ρ c (Proc.devRef .tc main_v7) : S96x96.Idx → EReal) (ix2 k q)
    = (m ((c : Thread nD τ).loc main_arg3) : S288x96.Idx → EReal) (ix2 (Cert.GatedGraph.band 96 (by omega) q) k) := by
  rw [wiz_eq, transpose_ix2_apply, slice2_axis0_eq]
  rfl

theorem win_eq : (W1 m ρ c (Proc.devRef .tc main_v9) : S96x96.Idx → EReal)
    = transpose S96x96 [1, 0] (extractStridedSlice S96x96 ![192, 0] (m ((c : Thread nD τ).loc main_arg3)) slices_S288x96_S96x96_192_0) transposes_S96x96_S96x96_1_0 := by
  show StableHlo.after hostOps0 (W0 m ρ c) (Proc.devRef .tc main_v9) = _
  after_results
  all_goals rfl
/-- The transposed band at (k, q) is the stacked matrix at (192 + q, k). -/
theorem win_at (k q : Fin 96) : (W1 m ρ c (Proc.devRef .tc main_v9) : S96x96.Idx → EReal) (ix2 k q)
    = (m ((c : Thread nD τ).loc main_arg3) : S288x96.Idx → EReal) (ix2 (Cert.GatedGraph.band 192 (by omega) q) k) := by
  rw [win_eq, transpose_ix2_apply, slice2_axis0_eq]
  rfl

theorem whr_eq : (W1 m ρ c (Proc.devRef .tc main_v11) : S96x96.Idx → EReal)
    = transpose S96x96 [1, 0] (extractStridedSlice S96x96 ![0, 0] (m ((c : Thread nD τ).loc main_arg4)) slices_S288x96_S96x96_0_0) transposes_S96x96_S96x96_1_0 := by
  show StableHlo.after hostOps0 (W0 m ρ c) (Proc.devRef .tc main_v11) = _
  after_results
  all_goals rfl
/-- The transposed band at (k, q) is the stacked matrix at (0 + q, k). -/
theorem whr_at (k q : Fin 96) : (W1 m ρ c (Proc.devRef .tc main_v11) : S96x96.Idx → EReal) (ix2 k q)
    = (m ((c : Thread nD τ).loc main_arg4) : S288x96.Idx → EReal) (ix2 (Cert.GatedGraph.band 0 (by omega) q) k) := by
  rw [whr_eq, transpose_ix2_apply, slice2_axis0_eq]
  rfl

theorem whz_eq : (W1 m ρ c (Proc.devRef .tc main_v13) : S96x96.Idx → EReal)
    = transpose S96x96 [1, 0] (extractStridedSlice S96x96 ![96, 0] (m ((c : Thread nD τ).loc main_arg4)) slices_S288x96_S96x96_96_0) transposes_S96x96_S96x96_1_0 := by
  show StableHlo.after hostOps0 (W0 m ρ c) (Proc.devRef .tc main_v13) = _
  after_results
  all_goals rfl
/-- The transposed band at (k, q) is the stacked matrix at (96 + q, k). -/
theorem whz_at (k q : Fin 96) : (W1 m ρ c (Proc.devRef .tc main_v13) : S96x96.Idx → EReal) (ix2 k q)
    = (m ((c : Thread nD τ).loc main_arg4) : S288x96.Idx → EReal) (ix2 (Cert.GatedGraph.band 96 (by omega) q) k) := by
  rw [whz_eq, transpose_ix2_apply, slice2_axis0_eq]
  rfl

theorem whn_eq : (W1 m ρ c (Proc.devRef .tc main_v15) : S96x96.Idx → EReal)
    = transpose S96x96 [1, 0] (extractStridedSlice S96x96 ![192, 0] (m ((c : Thread nD τ).loc main_arg4)) slices_S288x96_S96x96_192_0) transposes_S96x96_S96x96_1_0 := by
  show StableHlo.after hostOps0 (W0 m ρ c) (Proc.devRef .tc main_v15) = _
  after_results
  all_goals rfl
/-- The transposed band at (k, q) is the stacked matrix at (192 + q, k). -/
theorem whn_at (k q : Fin 96) : (W1 m ρ c (Proc.devRef .tc main_v15) : S96x96.Idx → EReal) (ix2 k q)
    = (m ((c : Thread nD τ).loc main_arg4) : S288x96.Idx → EReal) (ix2 (Cert.GatedGraph.band 192 (by omega) q) k) := by
  rw [whn_eq, transpose_ix2_apply, slice2_axis0_eq]
  rfl

theorem bir_eq : (W1 m ρ c (Proc.devRef .tc main_v17) : S1x96.Idx → EReal)
    = shapeCast S1x96 (extractStridedSlice S96 ![0] (m ((c : Thread nD τ).loc main_arg5)) slices_S288_S96_0) shapeCasts_S96_S1x96 := by
  show StableHlo.after hostOps0 (W0 m ρ c) (Proc.devRef .tc main_v17) = _
  after_results
  all_goals rfl
/-- The bias row at (0, q) is the stacked bias at 0 + q. -/
theorem bir_at (q : Fin 96) : (W1 m ρ c (Proc.devRef .tc main_v17) : S1x96.Idx → EReal) (ix2 (0 : Fin 1) q)
    = (m ((c : Thread nD τ).loc main_arg5) : S288.Idx → EReal) (ix1 (Cert.GatedGraph.band 0 (by omega) q)) := by
  rw [bir_eq, shapeCast_a_1a_apply]
  refine extractStridedSlice_apply _ _ _ _ _ fun ax => ?_
  match ax with
  | ⟨0, _⟩ => rfl

theorem biz_eq : (W1 m ρ c (Proc.devRef .tc main_v19) : S1x96.Idx → EReal)
    = shapeCast S1x96 (extractStridedSlice S96 ![96] (m ((c : Thread nD τ).loc main_arg5)) slices_S288_S96_96) shapeCasts_S96_S1x96 := by
  show StableHlo.after hostOps0 (W0 m ρ c) (Proc.devRef .tc main_v19) = _
  after_results
  all_goals rfl
/-- The bias row at (0, q) is the stacked bias at 96 + q. -/
theorem biz_at (q : Fin 96) : (W1 m ρ c (Proc.devRef .tc main_v19) : S1x96.Idx → EReal) (ix2 (0 : Fin 1) q)
    = (m ((c : Thread nD τ).loc main_arg5) : S288.Idx → EReal) (ix1 (Cert.GatedGraph.band 96 (by omega) q)) := by
  rw [biz_eq, shapeCast_a_1a_apply]
  refine extractStridedSlice_apply _ _ _ _ _ fun ax => ?_
  match ax with
  | ⟨0, _⟩ => rfl

theorem bin_eq : (W1 m ρ c (Proc.devRef .tc main_v21) : S1x96.Idx → EReal)
    = shapeCast S1x96 (extractStridedSlice S96 ![192] (m ((c : Thread nD τ).loc main_arg5)) slices_S288_S96_192) shapeCasts_S96_S1x96 := by
  show StableHlo.after hostOps0 (W0 m ρ c) (Proc.devRef .tc main_v21) = _
  after_results
  all_goals rfl
/-- The bias row at (0, q) is the stacked bias at 192 + q. -/
theorem bin_at (q : Fin 96) : (W1 m ρ c (Proc.devRef .tc main_v21) : S1x96.Idx → EReal) (ix2 (0 : Fin 1) q)
    = (m ((c : Thread nD τ).loc main_arg5) : S288.Idx → EReal) (ix1 (Cert.GatedGraph.band 192 (by omega) q)) := by
  rw [bin_eq, shapeCast_a_1a_apply]
  refine extractStridedSlice_apply _ _ _ _ _ fun ax => ?_
  match ax with
  | ⟨0, _⟩ => rfl

theorem bhr_eq : (W1 m ρ c (Proc.devRef .tc main_v23) : S1x96.Idx → EReal)
    = shapeCast S1x96 (extractStridedSlice S96 ![0] (m ((c : Thread nD τ).loc main_arg6)) slices_S288_S96_0) shapeCasts_S96_S1x96 := by
  show StableHlo.after hostOps0 (W0 m ρ c) (Proc.devRef .tc main_v23) = _
  after_results
  all_goals rfl
/-- The bias row at (0, q) is the stacked bias at 0 + q. -/
theorem bhr_at (q : Fin 96) : (W1 m ρ c (Proc.devRef .tc main_v23) : S1x96.Idx → EReal) (ix2 (0 : Fin 1) q)
    = (m ((c : Thread nD τ).loc main_arg6) : S288.Idx → EReal) (ix1 (Cert.GatedGraph.band 0 (by omega) q)) := by
  rw [bhr_eq, shapeCast_a_1a_apply]
  refine extractStridedSlice_apply _ _ _ _ _ fun ax => ?_
  match ax with
  | ⟨0, _⟩ => rfl

theorem bhz_eq : (W1 m ρ c (Proc.devRef .tc main_v25) : S1x96.Idx → EReal)
    = shapeCast S1x96 (extractStridedSlice S96 ![96] (m ((c : Thread nD τ).loc main_arg6)) slices_S288_S96_96) shapeCasts_S96_S1x96 := by
  show StableHlo.after hostOps0 (W0 m ρ c) (Proc.devRef .tc main_v25) = _
  after_results
  all_goals rfl
/-- The bias row at (0, q) is the stacked bias at 96 + q. -/
theorem bhz_at (q : Fin 96) : (W1 m ρ c (Proc.devRef .tc main_v25) : S1x96.Idx → EReal) (ix2 (0 : Fin 1) q)
    = (m ((c : Thread nD τ).loc main_arg6) : S288.Idx → EReal) (ix1 (Cert.GatedGraph.band 96 (by omega) q)) := by
  rw [bhz_eq, shapeCast_a_1a_apply]
  refine extractStridedSlice_apply _ _ _ _ _ fun ax => ?_
  match ax with
  | ⟨0, _⟩ => rfl

theorem bhn_eq : (W1 m ρ c (Proc.devRef .tc main_v27) : S1x96.Idx → EReal)
    = shapeCast S1x96 (extractStridedSlice S96 ![192] (m ((c : Thread nD τ).loc main_arg6)) slices_S288_S96_192) shapeCasts_S96_S1x96 := by
  show StableHlo.after hostOps0 (W0 m ρ c) (Proc.devRef .tc main_v27) = _
  after_results
  all_goals rfl
/-- The bias row at (0, q) is the stacked bias at 192 + q. -/
theorem bhn_at (q : Fin 96) : (W1 m ρ c (Proc.devRef .tc main_v27) : S1x96.Idx → EReal) (ix2 (0 : Fin 1) q)
    = (m ((c : Thread nD τ).loc main_arg6) : S288.Idx → EReal) (ix1 (Cert.GatedGraph.band 192 (by omega) q)) := by
  rw [bhn_eq, shapeCast_a_1a_apply]
  refine extractStridedSlice_apply _ _ _ _ _ fun ax => ?_
  match ax with
  | ⟨0, _⟩ => rfl

/-- An argument is not touched by the first stretch. -/
theorem arg_at_entry (b : Ref sig .tc) (h : b ∉ ([main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29] : List (Ref sig .tc))) :
    W1 m ρ c (Proc.devRef .tc b) = m ((c : Thread nD τ).loc b) := by
  refine (after_of_writes_sub hostOps0 _ ?_ h).trans rfl
  simp only [List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)

end Cert.KernelIdeal.Fold

end
-- ==== Proof.Aggregate.lean ====
/-
  The aggregation stretches.

  Between a layer's matmul region and its cell region the program aggregates the product along the edges on the
  host: negative source indices are wrapped (index + 50000 where index < 0), the product's rows are gathered
  at the sources, and the gathered rows are scatter-added into a zero array at the targets.  The chain is named
  here as one function of the two index vectors and the product and is never opened: both programs apply the
  same operations.  The two short stretches before the second and third matmul regions cut the layer's matrix
  out of the stacked layer weights.
-/
import proofs.«177519_j19945828123200_1_alg».proof.Proof.Gen.KernelIdeal.Frame
import proofs.«177519_j19945828123200_1_alg».proof.Proof.Prologue
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-- The aggregation along the edges: gather the rows of `h` at the wrapped sources, scatter-add them at the
    targets into zeros. -/
def aggr (src dst : IVec S800000 32) (h : FVec Ideal S50000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

set_option maxHeartbeats 4000000 in
/-- Stretch 1 leaves the aggregate of the product it finds. -/
theorem aggregate1 : (W3 m ρ c (Proc.devRef .tc main_v40) : S50000x96.Idx → EReal)
    = aggr (W2 m ρ c (Proc.devRef .tc main_v1)) (W2 m ρ c (Proc.devRef .tc main_v3)) (W2 m ρ c (Proc.devRef .tc main_v30)) := by
  show StableHlo.after hostOps1 (W2 m ρ c) (Proc.devRef .tc main_v40) = _
  generalize W2 m ρ c = W
  after_results
  all_goals rfl

set_option maxHeartbeats 4000000 in
/-- Stretch 3 leaves the aggregate of the product it finds. -/
theorem aggregate3 : (W7 m ρ c (Proc.devRef .tc main_v54) : S50000x96.Idx → EReal)
    = aggr (W6 m ρ c (Proc.devRef .tc main_v1)) (W6 m ρ c (Proc.devRef .tc main_v3)) (W6 m ρ c (Proc.devRef .tc main_v44)) := by
  show StableHlo.after hostOps3 (W6 m ρ c) (Proc.devRef .tc main_v54) = _
  generalize W6 m ρ c = W
  after_results
  all_goals rfl

set_option maxHeartbeats 4000000 in
/-- Stretch 5 leaves the aggregate of the product it finds. -/
theorem aggregate5 : (W11 m ρ c (Proc.devRef .tc main_v68) : S50000x96.Idx → EReal)
    = aggr (W10 m ρ c (Proc.devRef .tc main_v1)) (W10 m ρ c (Proc.devRef .tc main_v3)) (W10 m ρ c (Proc.devRef .tc main_v58)) := by
  show StableHlo.after hostOps5 (W10 m ρ c) (Proc.devRef .tc main_v68) = _
  generalize W10 m ρ c = W
  after_results
  all_goals rfl

set_option maxHeartbeats 4000000 in
/-- Stretch 2 cuts layer 1's matrix out of the stacked layer weights. -/
theorem slab1_eq : (W5 m ρ c (Proc.devRef .tc main_v43) : S96x96.Idx → EReal)
    = slabOf 1 slices_S3x96x96_S1x96x96_1_0_0 (W4 m ρ c (Proc.devRef .tc main_arg2)) := by
  show StableHlo.after hostOps2 (W4 m ρ c) (Proc.devRef .tc main_v43) = _
  generalize W4 m ρ c = W
  after_results
  all_goals rfl

set_option maxHeartbeats 4000000 in
/-- Stretch 4 cuts layer 2's matrix out of the stacked layer weights. -/
theorem slab2_eq : (W9 m ρ c (Proc.devRef .tc main_v57) : S96x96.Idx → EReal)
    = slabOf 2 slices_S3x96x96_S1x96x96_2_0_0 (W8 m ρ c (Proc.devRef .tc main_arg2)) := by
  show StableHlo.after hostOps4 (W8 m ρ c) (Proc.devRef .tc main_v57) = _
  generalize W8 m ρ c = W
  after_results
  all_goals rfl

end Cert.KernelIdeal.Fold

end
-- ==== Proof.MatmulAt.lean ====
/-
  A block matmul read at an entry.

  On the extended reals a 5000 × 96 block times a 96 × 96 matrix, accumulated into the zero block, is at entry
  (p, q) the plain sum over the 96 channels of the operands' products: the accumulator contributes 0, and the
  contraction's index set is the channel axis.
-/
import proofs.«177519_j19945828123200_1_alg».proof.KernelIdeal
import proofs.«177519_j19945828123200_1_alg».proof.Proof.Gen.KernelIdeal
import Idealize.ShloMosaic.Lib.ValueIdx
import Idealize.ShloMosaic.PureOps.Ideal.Laws

noncomputable section

namespace Cert.KernelIdeal.LinValue

open Cert.KernelIdeal Idealize.ShloMosaic Idealize.ShloMosaic.ValueIdx

/-- `(a · b)(p, q) = ∑ₖ a(p, k) · b(k, q)` for a 5000 × 96 block `a` and a 96 × 96 matrix `b`, whatever the
    operands' float formats. -/
theorem matmul_at {φ₁ φ₂ : FTy} (a : FVec Ideal S5000x96 φ₁) (b : FVec Ideal S96x96 φ₂) (p : Fin 5000) (q : Fin 96) :
    matmul (F := Ideal) dot_S5000x96_S96x96_S5000x96_1_0_0_1_n_n none a b (constant S5000x96 .f32 0x00000000#32) (ix2 p q)
      = ∑ k : Fin 96, a (ix2 p k) * b (ix2 k q) := by
  refine (Ideal.matmul_constant_zero_apply dot_S5000x96_S96x96_S5000x96_1_0_0_1_n_n none a b (ix2 p q)).trans ?_
  refine (Equiv.sum_comp (contrEquiv1 dot_S5000x96_S96x96_S5000x96_1_0_0_1_n_n 96 rfl rfl).symm _).symm.trans ?_
  refine Finset.sum_congr rfl fun k _ => ?_
  have hl : dot_S5000x96_S96x96_S5000x96_1_0_0_1_n_n.lhsIdx (ix2 p q)
      ((contrEquiv1 dot_S5000x96_S96x96_S5000x96_1_0_0_1_n_n 96 rfl rfl).symm k) = ix2 p k := by
    funext ax; apply Fin.ext
    match ax with
    | ⟨0, _⟩ => rfl
    | ⟨1, _⟩ => exact (DotDims.lhsIdx_val_of_single _ rfl _ _).trans (contrEquiv1_symm_val _ 96 rfl rfl k)
  have hr : dot_S5000x96_S96x96_S5000x96_1_0_0_1_n_n.rhsIdx (ix2 p q)
      ((contrEquiv1 dot_S5000x96_S96x96_S5000x96_1_0_0_1_n_n 96 rfl rfl).symm k) = ix2 k q := by
    funext ax; apply Fin.ext
    match ax with
    | ⟨0, _⟩ => exact (DotDims.rhsIdx_val_of_single _ rfl _ _).trans (contrEquiv1_symm_val _ 96 rfl rfl k)
    | ⟨1, _⟩ => rfl
  rw [hl, hr]

end Cert.KernelIdeal.LinValue

end
-- ==== Proof.LinRegion0.lean ====
/-
  Region 0: the array a tiled block matmul leaves.

  The region multiplies the node features by one 96 × 96 matrix ten node-blocks of 5000 rows at a time: at grid
  point t it reads rows 5000·t … 5000·t + 4999 of the features and the whole matrix, and writes the same rows
  of the product.  Entry (p, q) of what point t writes is ∑ₖ x(5000·t + p, k) · W(k, q); the ten row blocks
  tile the 50000 rows (row r belongs to point r / 5000), so the array ends as the whole product x · W.
-/
import proofs.«177519_j19945828123200_1_alg».proof.Proof.Gen.KernelIdeal.Frame
import proofs.«177519_j19945828123200_1_alg».proof.Proof.Layer
import proofs.«177519_j19945828123200_1_alg».proof.Proof.MatmulAt
import Idealize.ShloMosaic.Lib.ValueIdx
import Idealize.ShloMosaic.Lib.Pipeline.Value

set_option maxRecDepth 16384

noncomputable section

namespace Cert.KernelIdeal.LinValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b)) (c : Dev nD)

theorem zero_offsets0 : (![0, 0] : Fin 2 → Nat) = fun _ => 0 := funext fun a => by fin_cases a <;> rfl

/-- What the body stores, at an entry of the block: the sum over the channels of the loaded block's row against
    the loaded matrix's column (narrowing an operand to bf16 and casting a shape to itself change nothing). -/
theorem stored0_at (x0 : Vec Ideal S5000x96 .f32) (x1 : Vec Ideal S96x96 .f32) (p : Fin 5000) (q : Fin 96) :
    out0_2 x0 x1 (ix2 p q) = ∑ k : Fin 96, x0 (ix2 p k) * x1 (ix2 k q) := by
  unfold out0_2
  rw [View.canon_unit_zero zero_offsets0]
  simp only [View.ld_unit_zero (S := S5000x96) zero_offsets0, View.ld_unit_zero (S := S96x96) zero_offsets0]
  unfold k0_pay1
  refine (matmul_at _ _ p q).trans (Finset.sum_congr rfl fun k _ => ?_)
  simp only [truncf_apply, Idealize.ShloMosaic.shapeCast_self]

/-- The printed index maps over the grid: the feature window and the output window sit at the same row block, in
    column block 0; the matrix window always at block (0, 0); the row block is below 10. -/
theorem index_maps0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every row block is some point's. -/
theorem index_onto0 : ∀ (b : Fin 10), ∃ t : Fin cfg0.N, win0_2.index t = ![b.val, 0] :=
  (by decide +kernel : ∀ (b : Fin 10), ∃ t : Fin grid0.N, win0_2.index t = ![b.val, 0])

/-- What point `t` writes back is block `t` of the whole product. -/
theorem flushed0 (t : Fin cfg0.N) :
    (dat0 (F := Ideal) V c).flushed 2 t
      = ((cfg0.win 2).blk t).view.read (Elt Ideal) (Cert.GatedGraph.linArr (V c main_arg0) (V c main_v29)) := by
  show (cfg0.win 2).cut (grid0.coords t) ((dat0 V c).after 2 t) = _
  rw [after0_2]
  obtain ⟨e0, e1, e2, e3, e4, e5⟩ := index_maps0 t
  funext y
  obtain ⟨p, q, rfl⟩ : ∃ (p : Fin 5000) (q : Fin 96), y = ix2 p q := ⟨y 0, y 1, eq_ix2 y⟩
  show out0_2 (iblk0 V c 0 t) (iblk0 V c 1 t) (ix2 p q)
    = Cert.GatedGraph.linArr (V c main_arg0) (V c main_v29) (((cfg0.win 2).blk t).view.emb (ix2 p q))
  rw [stored0_at]
  have hrow : win0_2.index t (0 : Fin 2) * 5000 + p.val < 50000 := by have := p.isLt; omega
  have hout : ((cfg0.win 2).blk t).view.emb (ix2 p q)
      = ix2 (⟨win0_2.index t (0 : Fin 2) * 5000 + p.val, hrow⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 96 + 1 * q.val = q.val; omega
  rw [hout, Cert.GatedGraph.linArr_apply]
  unfold Cert.GatedGraph.lin
  refine Finset.sum_congr rfl fun k _ => ?_
  have hx : iblk0 V c 0 t (ix2 p k)
      = V c main_arg0 (ix2 (⟨win0_2.index t (0 : Fin 2) * 5000 + p.val, hrow⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 96 + 1 * k.val = k.val; omega
  have hw : iblk0 V c 1 t (ix2 k q) = V c main_v29 (ix2 k q) := by
    show V c main_v29 (((cfg0.win 1).blk t).view.emb (ix2 k q)) = _
    refine congrArg (V c main_v29) ?_
    funext a; apply Fin.ext
    match a with
    | ⟨0, _⟩ => show win0_1.index t (0 : Fin 2) * 96 + 1 * k.val = k.val; omega
    | ⟨1, _⟩ => show win0_1.index t (1 : Fin 2) * 96 + 1 * q.val = q.val; omega
  rw [hx, hw]

/-- An index of the product array lies in point `t`'s block iff each coordinate is in the block's range on its axis. -/
theorem mem_block0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v30).slice (win0_2.rect t)).set ↔ _
  rw [View.set_slice_whole, Rect.mem_set_unit]
  exact Iff.rfl

/-- The ten row blocks cover the array: row `r` lies in the block of the point whose row block is `r / 5000`. -/
theorem covered0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The region leaves the whole product `x · W` in its output array, `x` and `W` as it found them. -/
theorem final0 : (dat0 (F := Ideal) V c).arrAt 2 cfg0.N = Cert.GatedGraph.linArr (V c main_arg0) (V c main_v29) :=
  (dat0 V c).arrAt_eq_of_cover 2 _ (fun t _ => flushed0 V c t) (covered0)

end Cert.KernelIdeal.LinValue

end
-- ==== Proof.LinRegion2.lean ====
/-
  Region 2: the array a tiled block matmul leaves.

  The region multiplies the node features by one 96 × 96 matrix ten node-blocks of 5000 rows at a time: at grid
  point t it reads rows 5000·t … 5000·t + 4999 of the features and the whole matrix, and writes the same rows
  of the product.  Entry (p, q) of what point t writes is ∑ₖ x(5000·t + p, k) · W(k, q); the ten row blocks
  tile the 50000 rows (row r belongs to point r / 5000), so the array ends as the whole product x · W.
-/
import proofs.«177519_j19945828123200_1_alg».proof.Proof.Gen.KernelIdeal.Frame
import proofs.«177519_j19945828123200_1_alg».proof.Proof.Layer
import proofs.«177519_j19945828123200_1_alg».proof.Proof.MatmulAt
import Idealize.ShloMosaic.Lib.ValueIdx
import Idealize.ShloMosaic.Lib.Pipeline.Value

set_option maxRecDepth 16384

noncomputable section

namespace Cert.KernelIdeal.LinValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b)) (c : Dev nD)

theorem zero_offsets2 : (![0, 0] : Fin 2 → Nat) = fun _ => 0 := funext fun a => by fin_cases a <;> rfl

/-- What the body stores, at an entry of the block: the sum over the channels of the loaded block's row against
    the loaded matrix's column (narrowing an operand to bf16 and casting a shape to itself change nothing). -/
theorem stored2_at (x0 : Vec Ideal S5000x96 .f32) (x1 : Vec Ideal S96x96 .f32) (p : Fin 5000) (q : Fin 96) :
    out2_2 x0 x1 (ix2 p q) = ∑ k : Fin 96, x0 (ix2 p k) * x1 (ix2 k q) := by
  unfold out2_2
  rw [View.canon_unit_zero zero_offsets2]
  simp only [View.ld_unit_zero (S := S5000x96) zero_offsets2, View.ld_unit_zero (S := S96x96) zero_offsets2]
  unfold k2_pay1
  refine (matmul_at _ _ p q).trans (Finset.sum_congr rfl fun k _ => ?_)
  simp only [truncf_apply, Idealize.ShloMosaic.shapeCast_self]

/-- The printed index maps over the grid: the feature window and the output window sit at the same row block, in
    column block 0; the matrix window always at block (0, 0); the row block is below 10. -/
theorem index_maps2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every row block is some point's. -/
theorem index_onto2 : ∀ (b : Fin 10), ∃ t : Fin cfg2.N, win2_2.index t = ![b.val, 0] :=
  (by decide +kernel : ∀ (b : Fin 10), ∃ t : Fin grid2.N, win2_2.index t = ![b.val, 0])

/-- What point `t` writes back is block `t` of the whole product. -/
theorem flushed2 (t : Fin cfg2.N) :
    (dat2 (F := Ideal) V c).flushed 2 t
      = ((cfg2.win 2).blk t).view.read (Elt Ideal) (Cert.GatedGraph.linArr (V c main_v41) (V c main_v43)) := by
  show (cfg2.win 2).cut (grid2.coords t) ((dat2 V c).after 2 t) = _
  rw [after2_2]
  obtain ⟨e0, e1, e2, e3, e4, e5⟩ := index_maps2 t
  funext y
  obtain ⟨p, q, rfl⟩ : ∃ (p : Fin 5000) (q : Fin 96), y = ix2 p q := ⟨y 0, y 1, eq_ix2 y⟩
  show out2_2 (iblk2 V c 0 t) (iblk2 V c 1 t) (ix2 p q)
    = Cert.GatedGraph.linArr (V c main_v41) (V c main_v43) (((cfg2.win 2).blk t).view.emb (ix2 p q))
  rw [stored2_at]
  have hrow : win2_2.index t (0 : Fin 2) * 5000 + p.val < 50000 := by have := p.isLt; omega
  have hout : ((cfg2.win 2).blk t).view.emb (ix2 p q)
      = ix2 (⟨win2_2.index t (0 : Fin 2) * 5000 + p.val, hrow⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 96 + 1 * q.val = q.val; omega
  rw [hout, Cert.GatedGraph.linArr_apply]
  unfold Cert.GatedGraph.lin
  refine Finset.sum_congr rfl fun k _ => ?_
  have hx : iblk2 V c 0 t (ix2 p k)
      = V c main_v41 (ix2 (⟨win2_2.index t (0 : Fin 2) * 5000 + p.val, hrow⟩ : Fin 50000) k) := by
    show V c main_v41 (((cfg2.win 0).blk t).view.emb (ix2 p k)) = _
    refine congrArg (V c main_v41) ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 96 + 1 * k.val = k.val; omega
  have hw : iblk2 V c 1 t (ix2 k q) = V c main_v43 (ix2 k q) := by
    show V c main_v43 (((cfg2.win 1).blk t).view.emb (ix2 k q)) = _
    refine congrArg (V c main_v43) ?_
    funext a; apply Fin.ext
    match a with
    | ⟨0, _⟩ => show win2_1.index t (0 : Fin 2) * 96 + 1 * k.val = k.val; omega
    | ⟨1, _⟩ => show win2_1.index t (1 : Fin 2) * 96 + 1 * q.val = q.val; omega
  rw [hx, hw]

/-- An index of the product array lies in point `t`'s block iff each coordinate is in the block's range on its axis. -/
theorem mem_block2 (t : Fin cfg2.N) (i : S50000x96.Idx) :
    i ∈ ((cfg2.win 2).blk t).view.set ↔ ∀ a : Fin 2, win2_2.index t a * S5000x96.size a ≤ (i a).val
      ∧ (i a).val < win2_2.index t a * S5000x96.size a + S5000x96.size a := by
  show i ∈ ((View.whole main_v44).slice (win2_2.rect t)).set ↔ _
  rw [View.set_slice_whole, Rect.mem_set_unit]
  exact Iff.rfl

/-- The ten row blocks cover the array: row `r` lies in the block of the point whose row block is `r / 5000`. -/
theorem covered2 (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  obtain ⟨t, ht⟩ := index_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 96 ≤ (i 1).val ∧ (i 1).val < win2_2.index t (1 : Fin 2) * 96 + 96; omega

/-- The region leaves the whole product `x · W` in its output array, `x` and `W` as it found them. -/
theorem final2 : (dat2 (F := Ideal) V c).arrAt 2 cfg2.N = Cert.GatedGraph.linArr (V c main_v41) (V c main_v43) :=
  (dat2 V c).arrAt_eq_of_cover 2 _ (fun t _ => flushed2 V c t) (covered2)

end Cert.KernelIdeal.LinValue

end
-- ==== Proof.LinRegion4.lean ====
/-
  Region 4: the array a tiled block matmul leaves.

  The region multiplies the node features by one 96 × 96 matrix ten node-blocks of 5000 rows at a time: at grid
  point t it reads rows 5000·t … 5000·t + 4999 of the features and the whole matrix, and writes the same rows
  of the product.  Entry (p, q) of what point t writes is ∑ₖ x(5000·t + p, k) · W(k, q); the ten row blocks
  tile the 50000 rows (row r belongs to point r / 5000), so the array ends as the whole product x · W.
-/
import proofs.«177519_j19945828123200_1_alg».proof.Proof.Gen.KernelIdeal.Frame
import proofs.«177519_j19945828123200_1_alg».proof.Proof.Layer
import proofs.«177519_j19945828123200_1_alg».proof.Proof.MatmulAt
import Idealize.ShloMosaic.Lib.ValueIdx
import Idealize.ShloMosaic.Lib.Pipeline.Value

set_option maxRecDepth 16384

noncomputable section

namespace Cert.KernelIdeal.LinValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b)) (c : Dev nD)

theorem zero_offsets4 : (![0, 0] : Fin 2 → Nat) = fun _ => 0 := funext fun a => by fin_cases a <;> rfl

/-- What the body stores, at an entry of the block: the sum over the channels of the loaded block's row against
    the loaded matrix's column (narrowing an operand to bf16 and casting a shape to itself change nothing). -/
theorem stored4_at (x0 : Vec Ideal S5000x96 .f32) (x1 : Vec Ideal S96x96 .f32) (p : Fin 5000) (q : Fin 96) :
    out4_2 x0 x1 (ix2 p q) = ∑ k : Fin 96, x0 (ix2 p k) * x1 (ix2 k q) := by
  unfold out4_2
  rw [View.canon_unit_zero zero_offsets4]
  simp only [View.ld_unit_zero (S := S5000x96) zero_offsets4, View.ld_unit_zero (S := S96x96) zero_offsets4]
  unfold k4_pay1
  refine (matmul_at _ _ p q).trans (Finset.sum_congr rfl fun k _ => ?_)
  simp only [truncf_apply, Idealize.ShloMosaic.shapeCast_self]

/-- The printed index maps over the grid: the feature window and the output window sit at the same row block, in
    column block 0; the matrix window always at block (0, 0); the row block is below 10. -/
theorem index_maps4 : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0
    ∧ win4_2.index t (0 : Fin 2) ≤ 9 :=
  (by decide +kernel : ∀ t : Fin grid4.N, _)

/-- Every row block is some point's. -/
theorem index_onto4 : ∀ (b : Fin 10), ∃ t : Fin cfg4.N, win4_2.index t = ![b.val, 0] :=
  (by decide +kernel : ∀ (b : Fin 10), ∃ t : Fin grid4.N, win4_2.index t = ![b.val, 0])

/-- What point `t` writes back is block `t` of the whole product. -/
theorem flushed4 (t : Fin cfg4.N) :
    (dat4 (F := Ideal) V c).flushed 2 t
      = ((cfg4.win 2).blk t).view.read (Elt Ideal) (Cert.GatedGraph.linArr (V c main_v55) (V c main_v57)) := by
  show (cfg4.win 2).cut (grid4.coords t) ((dat4 V c).after 2 t) = _
  rw [after4_2]
  obtain ⟨e0, e1, e2, e3, e4, e5⟩ := index_maps4 t
  funext y
  obtain ⟨p, q, rfl⟩ : ∃ (p : Fin 5000) (q : Fin 96), y = ix2 p q := ⟨y 0, y 1, eq_ix2 y⟩
  show out4_2 (iblk4 V c 0 t) (iblk4 V c 1 t) (ix2 p q)
    = Cert.GatedGraph.linArr (V c main_v55) (V c main_v57) (((cfg4.win 2).blk t).view.emb (ix2 p q))
  rw [stored4_at]
  have hrow : win4_2.index t (0 : Fin 2) * 5000 + p.val < 50000 := by have := p.isLt; omega
  have hout : ((cfg4.win 2).blk t).view.emb (ix2 p q)
      = ix2 (⟨win4_2.index t (0 : Fin 2) * 5000 + p.val, hrow⟩ : Fin 50000) q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 96 + 1 * q.val = q.val; omega
  rw [hout, Cert.GatedGraph.linArr_apply]
  unfold Cert.GatedGraph.lin
  refine Finset.sum_congr rfl fun k _ => ?_
  have hx : iblk4 V c 0 t (ix2 p k)
      = V c main_v55 (ix2 (⟨win4_2.index t (0 : Fin 2) * 5000 + p.val, hrow⟩ : Fin 50000) k) := by
    show V c main_v55 (((cfg4.win 0).blk t).view.emb (ix2 p k)) = _
    refine congrArg (V c main_v55) ?_
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 96 + 1 * k.val = k.val; omega
  have hw : iblk4 V c 1 t (ix2 k q) = V c main_v57 (ix2 k q) := by
    show V c main_v57 (((cfg4.win 1).blk t).view.emb (ix2 k q)) = _
    refine congrArg (V c main_v57) ?_
    funext a; apply Fin.ext
    match a with
    | ⟨0, _⟩ => show win4_1.index t (0 : Fin 2) * 96 + 1 * k.val = k.val; omega
    | ⟨1, _⟩ => show win4_1.index t (1 : Fin 2) * 96 + 1 * q.val = q.val; omega
  rw [hx, hw]

/-- An index of the product array lies in point `t`'s block iff each coordinate is in the block's range on its axis. -/
theorem mem_block4 (t : Fin cfg4.N) (i : S50000x96.Idx) :
    i ∈ ((cfg4.win 2).blk t).view.set ↔ ∀ a : Fin 2, win4_2.index t a * S5000x96.size a ≤ (i a).val
      ∧ (i a).val < win4_2.index t a * S5000x96.size a + S5000x96.size a := by
  show i ∈ ((View.whole main_v58).slice (win4_2.rect t)).set ↔ _
  rw [View.set_slice_whole, Rect.mem_set_unit]
  exact Iff.rfl

/-- The ten row blocks cover the array: row `r` lies in the block of the point whose row block is `r / 5000`. -/
theorem covered4 (i : S50000x96.Idx) :
    ∃ t : Fin cfg4.N, (cfg4.win 2).flush t = true ∧ i ∈ ((cfg4.win 2).blk t).view.set := by
  have hi0 : (i 0).val < 50000 := (i 0).isLt
  have hi1 : (i 1).val < 96 := (i 1).isLt
  obtain ⟨t, ht⟩ := index_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 96 ≤ (i 1).val ∧ (i 1).val < win4_2.index t (1 : Fin 2) * 96 + 96; omega

/-- The region leaves the whole product `x · W` in its output array, `x` and `W` as it found them. -/
theorem final4 : (dat4 (F := Ideal) V c).arrAt 2 cfg4.N = Cert.GatedGraph.linArr (V c main_v55) (V c main_v57) :=
  (dat4 V c).arrAt_eq_of_cover 2 _ (fun t _ => flushed4 V c t) (covered4)

end Cert.KernelIdeal.LinValue

end
-- ==== Proof.GruPayload.lean ====
/-
  The recurrent cell's arithmetic on one block of 5000 nodes, entry by entry on the extended reals.

  A block step takes the aggregate's block `a` and the features' block `x` (5000 × 96 each), six 96 × 96
  matrices already transposed and six 1 × 96 bias rows, and leaves
      (1 − z) · n + z · x,   r = σ((a·wir + bir) + (x·whr + bhr)),   z = σ((a·wiz + biz) + (x·whz + bhz)),
      n = tanh((a·win + bin) + r · (x·whn + bhn)).
  On the extended reals a change of float format is the identity, a reshape to the same shape is the identity, a
  bias row laid along every row reads its one row, and a block product into the zero block is the plain sum over
  the 96 channels; every other operation acts entry by entry.  So the entry (p, q) of what a step leaves is the
  cell's formula at (p, q), with every sum and product grouped as the formula groups them.
-/
import proofs.«177519_j19945828123200_1_alg».proof.Proof.Layer
import proofs.«177519_j19945828123200_1_alg».proof.Proof.MatmulAt
import proofs.«177519_j19945828123200_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GruValue

open Cert.KernelIdeal Cert.KernelIdeal.Gen Idealize.ShloMosaic Idealize.ShloMosaic.ValueIdx

/-- The zero offsets of a whole-buffer load or store, as the constant function. -/
theorem zeros : (![0, 0] : Fin 2 → Nat) = fun _ => 0 := funext fun a => by fin_cases a <;> rfl

/-- A gate's pre-activation on a block of 5000 rows: `(∑ₖ a(p, k) · Wt(k, q)) + b(0, q)`. -/
def preB (a : S5000x96.Idx → EReal) (Wt : S96x96.Idx → EReal) (b : S1x96.Idx → EReal) (p : Fin 5000) (q : Fin 96) : EReal :=
  (∑ k : Fin 96, a (ix2 p k) * Wt (ix2 k q)) + b (ix2 (0 : Fin 1) q)

/-- The recurrent cell on a block of 5000 rows, at row `p` and channel `q`. -/
def cellB (a x : S5000x96.Idx → EReal) (wir wiz win whr whz whn : S96x96.Idx → EReal)
    (bir biz bin bhr bhz bhn : S1x96.Idx → EReal) (p : Fin 5000) (q : Fin 96) : EReal :=
  (Cert.GatedGraph.one - Ideal.logistic (preB a wiz biz p q + preB x whz bhz p q))
      * Ideal.tanh (preB a win bin p q + Ideal.logistic (preB a wir bir p q + preB x whr bhr p q) * preB x whn bhn p q)
    + Ideal.logistic (preB a wiz biz p q + preB x whz bhz p q) * x (ix2 p q)

/-- The logistic function of a block acts entry by entry. -/
theorem logistic_apply (v : FVec Ideal S5000x96 .f32) (i : S5000x96.Idx) : logistic v i = Ideal.logistic (v i) := rfl
/-- The hyperbolic tangent of a block acts entry by entry. -/
theorem tanh_apply (v : FVec Ideal S5000x96 .f32) (i : S5000x96.Idx) : tanh v i = Ideal.tanh (v i) := rfl

/-- A block times a narrowed matrix, into the zero block: `∑ₖ a(p, k) · w(k, q)`. -/
theorem prod_apply (a : FVec Ideal S5000x96 .bf16) (w : FVec Ideal S96x96 .f32) (p : Fin 5000) (q : Fin 96) :
    matmul dot_S5000x96_S96x96_S5000x96_1_0_0_1_n_n none a (truncf .bf16 w Facts₀.bitsLt_bf16_f32)
        (constant (F := Ideal) S5000x96 .f32 0x00000000#32) (ix2 p q)
      = ∑ k : Fin 96, a (ix2 p k) * w (ix2 k q) := by
  rw [LinValue.matmul_at]
  rfl

/-- A bias row laid along every row of a block reads, at (p, q), the row at q. -/
theorem row_apply (b : FVec Ideal S1x96 .f32) (p : Fin 5000) (q : Fin 96) :
    broadcastTo S5000x96 b Facts₀.broadcasts_S1x96_S5000x96 (ix2 p q) = b (ix2 (0 : Fin 1) q) :=
  broadcastTo_1b_ab_apply b _ p q

/-! ## A block of the whole arrays -/

/-- A gate's pre-activation on a block is the whole arrays' at the block's row, when the block's row `p` holds the
    array's row `P` and the matrix and bias row are the same. -/
theorem preB_eq_preT (A : Cert.GatedGraph.Nodes.Idx → EReal) (W : Cert.GatedGraph.Sq.Idx → EReal)
    (B : Cert.GatedGraph.Row.Idx → EReal) (a : S5000x96.Idx → EReal) (w : S96x96.Idx → EReal) (b : S1x96.Idx → EReal)
    (P : Fin 50000) (p : Fin 5000) (q : Fin 96)
    (ha : ∀ k : Fin 96, a (ix2 p k) = A (ix2 P k)) (hw : ∀ k : Fin 96, w (ix2 k q) = W (ix2 k q))
    (hb : b (ix2 (0 : Fin 1) q) = B (ix2 (0 : Fin 1) q)) :
    preB a w b p q = Cert.GatedGraph.preT A W B P q := by
  unfold preB Cert.GatedGraph.preT
  rw [hb]
  exact congrArg (· + B (ix2 (0 : Fin 1) q)) (Finset.sum_congr rfl fun k _ => by rw [ha k, hw k])

/-- The cell on a block is the whole arrays' cell at the block's row, when row `p` of the aggregate's and the
    features' blocks holds row `P` of the arrays and the six matrices and six bias rows are the same. -/
theorem cellB_eq_cellT (A X : Cert.GatedGraph.Nodes.Idx → EReal)
    (Wir Wiz Win Whr Whz Whn : Cert.GatedGraph.Sq.Idx → EReal) (Bir Biz Bin Bhr Bhz Bhn : Cert.GatedGraph.Row.Idx → EReal)
    (a x : S5000x96.Idx → EReal) (wir wiz win whr whz whn : S96x96.Idx → EReal)
    (bir biz bin bhr bhz bhn : S1x96.Idx → EReal) (P : Fin 50000) (p : Fin 5000) (q : Fin 96)
    (ha : ∀ k : Fin 96, a (ix2 p k) = A (ix2 P k)) (hx : ∀ k : Fin 96, x (ix2 p k) = X (ix2 P k))
    (h_ir : ∀ k : Fin 96, wir (ix2 k q) = Wir (ix2 k q)) (h_iz : ∀ k : Fin 96, wiz (ix2 k q) = Wiz (ix2 k q))
    (h_in : ∀ k : Fin 96, win (ix2 k q) = Win (ix2 k q)) (h_hr : ∀ k : Fin 96, whr (ix2 k q) = Whr (ix2 k q))
    (h_hz : ∀ k : Fin 96, whz (ix2 k q) = Whz (ix2 k q)) (h_hn : ∀ k : Fin 96, whn (ix2 k q) = Whn (ix2 k q))
    (g_ir : bir (ix2 (0 : Fin 1) q) = Bir (ix2 (0 : Fin 1) q)) (g_iz : biz (ix2 (0 : Fin 1) q) = Biz (ix2 (0 : Fin 1) q))
    (g_in : bin (ix2 (0 : Fin 1) q) = Bin (ix2 (0 : Fin 1) q)) (g_hr : bhr (ix2 (0 : Fin 1) q) = Bhr (ix2 (0 : Fin 1) q))
    (g_hz : bhz (ix2 (0 : Fin 1) q) = Bhz (ix2 (0 : Fin 1) q)) (g_hn : bhn (ix2 (0 : Fin 1) q) = Bhn (ix2 (0 : Fin 1) q)) :
    cellB a x wir wiz win whr whz whn bir biz bin bhr bhz bhn p q
      = Cert.GatedGraph.cellT A X Wir Wiz Win Whr Whz Whn Bir Biz Bin Bhr Bhz Bhn P q := by
  unfold cellB Cert.GatedGraph.cellT
  rw [preB_eq_preT A Wir Bir a wir bir P p q ha h_ir g_ir, preB_eq_preT A Wiz Biz a wiz biz P p q ha h_iz g_iz,
    preB_eq_preT A Win Bin a win bin P p q ha h_in g_in, preB_eq_preT X Whr Bhr x whr bhr P p q hx h_hr g_hr,
    preB_eq_preT X Whz Bhz x whz bhz P p q hx h_hz g_hz, preB_eq_preT X Whn Bhn x whn bhn P p q hx h_hn g_hn,
    hx q]

/-! ## The block step of layer 1 -/

/-- Narrowing the features' block for the products leaves it as it is. -/
theorem narrow1 (v : Vec Ideal S5000x96 .f32) : k1_pay3 v = v := rfl

/-- Narrowing the aggregate's block for the products leaves it as it is. -/
theorem narrowCast1 (v : Vec Ideal S5000x96 .f32) : k1_pay2 v = v := by
  unfold k1_pay2
  rw [shapeCast_self]
  rfl

/-- The input reset gate's pre-activation at an entry. -/
theorem gateR1 (a : Vec Ideal S5000x96 .f32) (w : Vec Ideal S96x96 .f32) (b : Vec Ideal S1x96 .f32) (p : Fin 5000) (q : Fin 96) :
    k1_pay4 a w b (ix2 p q) = preB a w b p q := by
  unfold k1_pay4
  simp only [addf_apply, prod_apply, row_apply, shapeCast_self, narrowCast1]
  rfl

/-- The input update gate's pre-activation at an entry. -/
theorem gateZ1 (a : Vec Ideal S5000x96 .f32) (w : Vec Ideal S96x96 .f32) (b : Vec Ideal S1x96 .f32) (p : Fin 5000) (q : Fin 96) :
    k1_pay5 a w b (ix2 p q) = preB a w b p q := by
  unfold k1_pay5
  simp only [addf_apply, prod_apply, row_apply, shapeCast_self, narrowCast1]
  rfl

/-- The input candidate's pre-activation at an entry. -/
theorem gateN1 (a : Vec Ideal S5000x96 .f32) (w : Vec Ideal S96x96 .f32) (b : Vec Ideal S1x96 .f32) (p : Fin 5000) (q : Fin 96) :
    k1_pay6 a w b (ix2 p q) = preB a w b p q := by
  unfold k1_pay6
  simp only [addf_apply, prod_apply, row_apply, shapeCast_self, narrowCast1]
  rfl

/-- The recurrent reset product at an entry. -/
theorem prodR1 (x : Vec Ideal S5000x96 .f32) (w : Vec Ideal S96x96 .f32) (p : Fin 5000) (q : Fin 96) :
    k1_pay7 x w (ix2 p q) = ∑ k : Fin 96, x (ix2 p k) * w (ix2 k q) := by
  unfold k1_pay7
  simp only [prod_apply, shapeCast_self, narrow1]

/-- The recurrent reset bias row passes through unchanged. -/
theorem row1 (b : Vec Ideal S1x96 .f32) : k1_pay8 b = b := by
  unfold k1_pay8
  rw [shapeCast_self]

/-- What the step leaves, at entry (p, q), is the cell's formula there. -/
theorem out1_apply (x0 x1 : Vec Ideal S5000x96 .f32) (x2 x3 x4 x5 x6 x7 : Vec Ideal S96x96 .f32)
    (x8 x9 x10 x11 x12 x13 : Vec Ideal S1x96 .f32) (p : Fin 5000) (q : Fin 96) :
    out1_14 x0 x1 x2 x3 x4 x5 x6 x7 x8 x9 x10 x11 x12 x13 (ix2 p q)
      = cellB x0 x1 x2 x3 x4 x5 x6 x7 x8 x9 x10 x11 x12 x13 p q := by
  unfold out1_14
  rw [View.canon_unit_zero zeros]
  simp only [View.ld_unit_zero (S := S5000x96) zeros, View.ld_unit_zero (S := S96x96) zeros,
    View.ld_unit_zero (S := S1x96) zeros]
  unfold k1_pay1
  simp only [addf_apply, mulf_apply, subf_apply, broadcast_apply, logistic_apply, tanh_apply, gateR1, gateZ1, gateN1,
    prodR1, row1, prod_apply, row_apply, shapeCast_self, narrow1]
  rfl

/-! ## The block step of layer 2 -/

/-- Narrowing the features' block for the products leaves it as it is. -/
theorem narrow3 (v : Vec Ideal S5000x96 .f32) : k3_pay3 v = v := by
  unfold k3_pay3
  rw [shapeCast_self]
  rfl

/-- Narrowing the aggregate's block for the products leaves it as it is. -/
theorem narrowCast3 (v : Vec Ideal S5000x96 .f32) : k3_pay2 v = v := by
  unfold k3_pay2
  rw [shapeCast_self]
  rfl

/-- The input reset gate's pre-activation at an entry. -/
theorem gateR3 (a : Vec Ideal S5000x96 .f32) (w : Vec Ideal S96x96 .f32) (b : Vec Ideal S1x96 .f32) (p : Fin 5000) (q : Fin 96) :
    k3_pay4 a w b (ix2 p q) = preB a w b p q := by
  unfold k3_pay4
  simp only [addf_apply, prod_apply, row_apply, shapeCast_self, narrowCast3]
  rfl

/-- The input update gate's pre-activation at an entry. -/
theorem gateZ3 (a : Vec Ideal S5000x96 .f32) (w : Vec Ideal S96x96 .f32) (b : Vec Ideal S1x96 .f32) (p : Fin 5000) (q : Fin 96) :
    k3_pay5 a w b (ix2 p q) = preB a w b p q := by
  unfold k3_pay5
  simp only [addf_apply, prod_apply, row_apply, shapeCast_self, narrowCast3]
  rfl

/-- The input candidate's pre-activation at an entry. -/
theorem gateN3 (a : Vec Ideal S5000x96 .f32) (w : Vec Ideal S96x96 .f32) (b : Vec Ideal S1x96 .f32) (p : Fin 5000) (q : Fin 96) :
    k3_pay6 a w b (ix2 p q) = preB a w b p q := by
  unfold k3_pay6
  simp only [addf_apply, prod_apply, row_apply, shapeCast_self, narrowCast3]
  rfl

/-- The recurrent reset product at an entry. -/
theorem prodR3 (x : Vec Ideal S5000x96 .f32) (w : Vec Ideal S96x96 .f32) (p : Fin 5000) (q : Fin 96) :
    k3_pay7 x w (ix2 p q) = ∑ k : Fin 96, x (ix2 p k) * w (ix2 k q) := by
  unfold k3_pay7
  simp only [prod_apply, shapeCast_self, narrow3]

/-- What the step leaves, at entry (p, q), is the cell's formula there. -/
theorem out3_apply (x0 x1 : Vec Ideal S5000x96 .f32) (x2 x3 x4 x5 x6 x7 : Vec Ideal S96x96 .f32)
    (x8 x9 x10 x11 x12 x13 : Vec Ideal S1x96 .f32) (p : Fin 5000) (q : Fin 96) :
    out3_14 x0 x1 x2 x3 x4 x5 x6 x7 x8 x9 x10 x11 x12 x13 (ix2 p q)
      = cellB x0 x1 x2 x3 x4 x5 x6 x7 x8 x9 x10 x11 x12 x13 p q := by
  unfold out3_14
  rw [View.canon_unit_zero zeros]
  simp only [View.ld_unit_zero (S := S5000x96) zeros, View.ld_unit_zero (S := S96x96) zeros,
    View.ld_unit_zero (S := S1x96) zeros]
  unfold k3_pay1
  simp only [addf_apply, mulf_apply, subf_apply, broadcast_apply, logistic_apply, tanh_apply, gateR3, gateZ3, gateN3,
    prodR3, prod_apply, row_apply, shapeCast_self, narrow3]
  rfl

/-! ## The block step of layer 3 -/

/-- Narrowing the features' block for the products leaves it as it is. -/
theorem narrow5 (v : Vec Ideal S5000x96 .f32) : k5_pay3 v = v := by
  unfold k5_pay3
  rw [shapeCast_self]
  rfl

/-- Narrowing the aggregate's block for the products leaves it as it is. -/
theorem narrowCast5 (v : Vec Ideal S5000x96 .f32) : k5_pay2 v = v := by
  unfold k5_pay2
  rw [shapeCast_self]
  rfl

/-- The input reset gate's pre-activation at an entry. -/
theorem gateR5 (a : Vec Ideal S5000x96 .f32) (w : Vec Ideal S96x96 .f32) (b : Vec Ideal S1x96 .f32) (p : Fin 5000) (q : Fin 96) :
    k5_pay4 a w b (ix2 p q) = preB a w b p q := by
  unfold k5_pay4
  simp only [addf_apply, prod_apply, row_apply, shapeCast_self, narrowCast5]
  rfl

/-- The input update gate's pre-activation at an entry. -/
theorem gateZ5 (a : Vec Ideal S5000x96 .f32) (w : Vec Ideal S96x96 .f32) (b : Vec Ideal S1x96 .f32) (p : Fin 5000) (q : Fin 96) :
    k5_pay5 a w b (ix2 p q) = preB a w b p q := by
  unfold k5_pay5
  simp only [addf_apply, prod_apply, row_apply, shapeCast_self, narrowCast5]
  rfl

/-- The input candidate's pre-activation at an entry. -/
theorem gateN5 (a : Vec Ideal S5000x96 .f32) (w : Vec Ideal S96x96 .f32) (b : Vec Ideal S1x96 .f32) (p : Fin 5000) (q : Fin 96) :
    k5_pay6 a w b (ix2 p q) = preB a w b p q := by
  unfold k5_pay6
  simp only [addf_apply, prod_apply, row_apply, shapeCast_self, narrowCast5]
  rfl

/-- The recurrent reset product at an entry. -/
theorem prodR5 (x : Vec Ideal S5000x96 .f32) (w : Vec Ideal S96x96 .f32) (p : Fin 5000) (q : Fin 96) :
    k5_pay7 x w (ix2 p q) = ∑ k : Fin 96, x (ix2 p k) * w (ix2 k q) := by
  unfold k5_pay7
  simp only [prod_apply, shapeCast_self, narrow5]

/-- What the step leaves, at entry (p, q), is the cell's formula there. -/
theorem out5_apply (x0 x1 : Vec Ideal S5000x96 .f32) (x2 x3 x4 x5 x6 x7 : Vec Ideal S96x96 .f32)
    (x8 x9 x10 x11 x12 x13 : Vec Ideal S1x96 .f32) (p : Fin 5000) (q : Fin 96) :
    out5_14 x0 x1 x2 x3 x4 x5 x6 x7 x8 x9 x10 x11 x12 x13 (ix2 p q)
      = cellB x0 x1 x2 x3 x4 x5 x6 x7 x8 x9 x10 x11 x12 x13 p q := by
  unfold out5_14
  rw [View.canon_unit_zero zeros]
  simp only [View.ld_unit_zero (S := S5000x96) zeros, View.ld_unit_zero (S := S96x96) zeros,
    View.ld_unit_zero (S := S1x96) zeros]
  unfold k5_pay1
  simp only [addf_apply, mulf_apply, subf_apply, broadcast_apply, logistic_apply, tanh_apply, gateR5, gateZ5, gateN5,
    prodR5, prod_apply, row_apply, shapeCast_self, narrow5]
  rfl

end Cert.KernelIdeal.GruValue

end
-- ==== Proof.GruRegion1.lean ====
/-
  Layer 1's recurrent cell over the whole node arrays.

  The step runs at ten points; point t takes rows 5000·t … 5000·t + 4999 of the aggregate and of the features, the
  whole of each of the six matrices and six bias rows, and writes rows 5000·t … 5000·t + 4999 of the result.  What a
  point writes is the block step's result on those blocks, which entry by entry is the cell's formula; row p of a
  point's block is row 5000·t + p of its array, and the ten blocks of rows fill the 50000 rows, so the array the
  step leaves is the cell of the whole arrays.
-/
import proofs.«177519_j19945828123200_1_alg».proof.Proof.GruPayload

set_option maxRecDepth 16384

noncomputable section

namespace Cert.KernelIdeal.GruValue

open Cert.KernelIdeal Cert.KernelIdeal.Gen Idealize.ShloMosaic Idealize.ShloMosaic.TcCoe Idealize.ShloMosaic.ValueIdx Idealize.SL.Sem
open Idealize.ShloMosaic.Pipeline (Dat)
open Cert.GatedGraph (preT cellT cellTArr)

variable (V : (c : Dev nD) → (b : Ref sig .tc) → Buf (Elt Ideal) ((c : Thread nD τ).loc b))

/-! ## Where each point's blocks lie -/

/-- The three node arrays' blocks at point `t` start at row block `t`, column block 0. -/
theorem node_blocks1 : ∀ t : Fin cfg1.N,
    win1_14.index t (0 : Fin 2) = t.val ∧ win1_14.index t (1 : Fin 2) = 0
    ∧ win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Every matrix and every bias row is taken whole at every point: block (0, 0). -/
theorem whole_blocks1 : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

/-- Row `p` of point `t`'s block is a row of the array. -/
theorem row_lt1 (t : Fin cfg1.N) (p : Fin 5000) : t.val * 5000 + p.val < 50000 := by
  have ht : t.val < 10 := t.isLt
  have hp := p.isLt
  omega

/-! ## The blocks, read off the arrays -/

/-- The aggregate's block at point `t`, at (p, k), is the aggregate at (5000·t + p, k). -/
theorem agg_block1 (c : Dev nD) (t : Fin cfg1.N) (p : Fin 5000) (k : Fin 96) :
    iblk1 V c 0 t (ix2 p k) = V c main_v40 (ix2 ⟨t.val * 5000 + p.val, row_lt1 t p⟩ k) := by
  obtain ⟨-, -, e0, e1, -, -⟩ := node_blocks1 t
  show V c main_v40 (((cfg1.win 0).blk t).view.emb (ix2 p k)) = _
  refine congrArg (V c main_v40) (funext fun a => Fin.ext ?_)
  match a with
  | ⟨0, _⟩ => show win1_0.index t (0 : Fin 2) * 5000 + 1 * p.val = t.val * 5000 + p.val; omega
  | ⟨1, _⟩ => show win1_0.index t (1 : Fin 2) * 96 + 1 * k.val = k.val; omega

/-- The features' block at point `t`, at (p, k), is the features at (5000·t + p, k). -/
theorem feat_block1 (c : Dev nD) (t : Fin cfg1.N) (p : Fin 5000) (k : Fin 96) :
    iblk1 V c 1 t (ix2 p k) = V c main_arg0 (ix2 ⟨t.val * 5000 + p.val, row_lt1 t p⟩ k) := by
  obtain ⟨-, -, -, -, e0, e1⟩ := node_blocks1 t
  show V c main_arg0 (((cfg1.win 1).blk t).view.emb (ix2 p k)) = _
  refine congrArg (V c main_arg0) (funext fun a => Fin.ext ?_)
  match a with
  | ⟨0, _⟩ => show win1_1.index t (0 : Fin 2) * 5000 + 1 * p.val = t.val * 5000 + p.val; omega
  | ⟨1, _⟩ => show win1_1.index t (1 : Fin 2) * 96 + 1 * k.val = k.val; omega

/-- The input reset matrix's block at any point is the matrix. -/
theorem mat_block1_2 (c : Dev nD) (t : Fin cfg1.N) (k q : Fin 96) :
    iblk1 V c 2 t (ix2 k q) = V c main_v5 (ix2 k q) := by
  obtain ⟨⟨e0, e1⟩, -, -, -, -, -, -, -, -, -, -, -⟩ := whole_blocks1 t
  show V c main_v5 (((cfg1.win 2).blk t).view.emb (ix2 k q)) = _
  refine congrArg (V c main_v5) (funext fun a => Fin.ext ?_)
  match a with
  | ⟨0, _⟩ => show win1_2.index t (0 : Fin 2) * 96 + 1 * k.val = k.val; omega
  | ⟨1, _⟩ => show win1_2.index t (1 : Fin 2) * 96 + 1 * q.val = q.val; omega

/-- The input update matrix's block at any point is the matrix. -/
theorem mat_block1_3 (c : Dev nD) (t : Fin cfg1.N) (k q : Fin 96) :
    iblk1 V c 3 t (ix2 k q) = V c main_v7 (ix2 k q) := by
  obtain ⟨-, ⟨e0, e1⟩, -, -, -, -, -, -, -, -, -, -⟩ := whole_blocks1 t
  show V c main_v7 (((cfg1.win 3).blk t).view.emb (ix2 k q)) = _
  refine congrArg (V c main_v7) (funext fun a => Fin.ext ?_)
  match a with
  | ⟨0, _⟩ => show win1_3.index t (0 : Fin 2) * 96 + 1 * k.val = k.val; omega
  | ⟨1, _⟩ => show win1_3.index t (1 : Fin 2) * 96 + 1 * q.val = q.val; omega

/-- The input candidate matrix's block at any point is the matrix. -/
theorem mat_block1_4 (c : Dev nD) (t : Fin cfg1.N) (k q : Fin 96) :
    iblk1 V c 4 t (ix2 k q) = V c main_v9 (ix2 k q) := by
  obtain ⟨-, -, ⟨e0, e1⟩, -, -, -, -, -, -, -, -, -⟩ := whole_blocks1 t
  show V c main_v9 (((cfg1.win 4).blk t).view.emb (ix2 k q)) = _
  refine congrArg (V c main_v9) (funext fun a => Fin.ext ?_)
  match a with
  | ⟨0, _⟩ => show win1_4.index t (0 : Fin 2) * 96 + 1 * k.val = k.val; omega
  | ⟨1, _⟩ => show win1_4.index t (1 : Fin 2) * 96 + 1 * q.val = q.val; omega

/-- The recurrent reset matrix's block at any point is the matrix. -/
theorem mat_block1_5 (c : Dev nD) (t : Fin cfg1.N) (k q : Fin 96) :
    iblk1 V c 5 t (ix2 k q) = V c main_v11 (ix2 k q) := by
  obtain ⟨-, -, -, ⟨e0, e1⟩, -, -, -, -, -, -, -, -⟩ := whole_blocks1 t
  show V c main_v11 (((cfg1.win 5).blk t).view.emb (ix2 k q)) = _
  refine congrArg (V c main_v11) (funext fun a => Fin.ext ?_)
  match a with
  | ⟨0, _⟩ => show win1_5.index t (0 : Fin 2) * 96 + 1 * k.val = k.val; omega
  | ⟨1, _⟩ => show win1_5.index t (1 : Fin 2) * 96 + 1 * q.val = q.val; omega

/-- The recurrent update matrix's block at any point is the matrix. -/
theorem mat_block1_6 (c : Dev nD) (t : Fin cfg1.N) (k q : Fin 96) :
    iblk1 V c 6 t (ix2 k q) = V c main_v13 (ix2 k q) := by
  obtain ⟨-, -, -, -, ⟨e0, e1⟩, -, -, -, -, -, -, -⟩ := whole_blocks1 t
  show V c main_v13 (((cfg1.win 6).blk t).view.emb (ix2 k q)) = _
  refine congrArg (V c main_v13) (funext fun a => Fin.ext ?_)
  match a with
  | ⟨0, _⟩ => show win1_6.index t (0 : Fin 2) * 96 + 1 * k.val = k.val; omega
  | ⟨1, _⟩ => show win1_6.index t (1 : Fin 2) * 96 + 1 * q.val = q.val; omega

/-- The recurrent candidate matrix's block at any point is the matrix. -/
theorem mat_block1_7 (c : Dev nD) (t : Fin cfg1.N) (k q : Fin 96) :
    iblk1 V c 7 t (ix2 k q) = V c main_v15 (ix2 k q) := by
  obtain ⟨-, -, -, -, -, ⟨e0, e1⟩, -, -, -, -, -, -⟩ := whole_blocks1 t
  show V c main_v15 (((cfg1.win 7).blk t).view.emb (ix2 k q)) = _
  refine congrArg (V c main_v15) (funext fun a => Fin.ext ?_)
  match a with
  | ⟨0, _⟩ => show win1_7.index t (0 : Fin 2) * 96 + 1 * k.val = k.val; omega
  | ⟨1, _⟩ => show win1_7.index t (1 : Fin 2) * 96 + 1 * q.val = q.val; omega

/-- The input reset bias row's block at any point is the row. -/
theorem bias_block1_8 (c : Dev nD) (t : Fin cfg1.N) (q : Fin 96) :
    iblk1 V c 8 t (ix2 (0 : Fin 1) q) = V c main_v17 (ix2 (0 : Fin 1) q) := by
  obtain ⟨-, -, -, -, -, -, ⟨e0, e1⟩, -, -, -, -, -⟩ := whole_blocks1 t
  show V c main_v17 (((cfg1.win 8).blk t).view.emb (ix2 (0 : Fin 1) q)) = _
  refine congrArg (V c main_v17) (funext fun a => Fin.ext ?_)
  match a with
  | ⟨0, _⟩ => show win1_8.index t (0 : Fin 2) * 1 + 1 * 0 = 0; omega
  | ⟨1, _⟩ => show win1_8.index t (1 : Fin 2) * 96 + 1 * q.val = q.val; omega

/-- The input update bias row's block at any point is the row. -/
theorem bias_block1_9 (c : Dev nD) (t : Fin cfg1.N) (q : Fin 96) :
    iblk1 V c 9 t (ix2 (0 : Fin 1) q) = V c main_v19 (ix2 (0 : Fin 1) q) := by
  obtain ⟨-, -, -, -, -, -, -, ⟨e0, e1⟩, -, -, -, -⟩ := whole_blocks1 t
  show V c main_v19 (((cfg1.win 9).blk t).view.emb (ix2 (0 : Fin 1) q)) = _
  refine congrArg (V c main_v19) (funext fun a => Fin.ext ?_)
  match a with
  | ⟨0, _⟩ => show win1_9.index t (0 : Fin 2) * 1 + 1 * 0 = 0; omega
  | ⟨1, _⟩ => show win1_9.index t (1 : Fin 2) * 96 + 1 * q.val = q.val; omega

/-- The input candidate bias row's block at any point is the row. -/
theorem bias_block1_10 (c : Dev nD) (t : Fin cfg1.N) (q : Fin 96) :
    iblk1 V c 10 t (ix2 (0 : Fin 1) q) = V c main_v21 (ix2 (0 : Fin 1) q) := by
  obtain ⟨-, -, -, -, -, -, -, -, ⟨e0, e1⟩, -, -, -⟩ := whole_blocks1 t
  show V c main_v21 (((cfg1.win 10).blk t).view.emb (ix2 (0 : Fin 1) q)) = _
  refine congrArg (V c main_v21) (funext fun a => Fin.ext ?_)
  match a with
  | ⟨0, _⟩ => show win1_10.index t (0 : Fin 2) * 1 + 1 * 0 = 0; omega
  | ⟨1, _⟩ => show win1_10.index t (1 : Fin 2) * 96 + 1 * q.val = q.val; omega

/-- The recurrent reset bias row's block at any point is the row. -/
theorem bias_block1_11 (c : Dev nD) (t : Fin cfg1.N) (q : Fin 96) :
    iblk1 V c 11 t (ix2 (0 : Fin 1) q) = V c main_v23 (ix2 (0 : Fin 1) q) := by
  obtain ⟨-, -, -, -, -, -, -, -, -, ⟨e0, e1⟩, -, -⟩ := whole_blocks1 t
  show V c main_v23 (((cfg1.win 11).blk t).view.emb (ix2 (0 : Fin 1) q)) = _
  refine congrArg (V c main_v23) (funext fun a => Fin.ext ?_)
  match a with
  | ⟨0, _⟩ => show win1_11.index t (0 : Fin 2) * 1 + 1 * 0 = 0; omega
  | ⟨1, _⟩ => show win1_11.index t (1 : Fin 2) * 96 + 1 * q.val = q.val; omega

/-- The recurrent update bias row's block at any point is the row. -/
theorem bias_block1_12 (c : Dev nD) (t : Fin cfg1.N) (q : Fin 96) :
    iblk1 V c 12 t (ix2 (0 : Fin 1) q) = V c main_v25 (ix2 (0 : Fin 1) q) := by
  obtain ⟨-, -, -, -, -, -, -, -, -, -, ⟨e0, e1⟩, -⟩ := whole_blocks1 t
  show V c main_v25 (((cfg1.win 12).blk t).view.emb (ix2 (0 : Fin 1) q)) = _
  refine congrArg (V c main_v25) (funext fun a => Fin.ext ?_)
  match a with
  | ⟨0, _⟩ => show win1_12.index t (0 : Fin 2) * 1 + 1 * 0 = 0; omega
  | ⟨1, _⟩ => show win1_12.index t (1 : Fin 2) * 96 + 1 * q.val = q.val; omega

/-- The recurrent candidate bias row's block at any point is the row. -/
theorem bias_block1_13 (c : Dev nD) (t : Fin cfg1.N) (q : Fin 96) :
    iblk1 V c 13 t (ix2 (0 : Fin 1) q) = V c main_v27 (ix2 (0 : Fin 1) q) := by
  obtain ⟨-, -, -, -, -, -, -, -, -, -, -, ⟨e0, e1⟩⟩ := whole_blocks1 t
  show V c main_v27 (((cfg1.win 13).blk t).view.emb (ix2 (0 : Fin 1) q)) = _
  refine congrArg (V c main_v27) (funext fun a => Fin.ext ?_)
  match a with
  | ⟨0, _⟩ => show win1_13.index t (0 : Fin 2) * 1 + 1 * 0 = 0; omega
  | ⟨1, _⟩ => show win1_13.index t (1 : Fin 2) * 96 + 1 * q.val = q.val; omega

/-! ## What a point writes back -/

/-- Point `t` writes back its block of the cell of the whole arrays. -/
theorem flushed_eq1 (c : Dev nD) (t : Fin cfg1.N) :
    (dat1 V c).flushed 14 t = ((cfg1.win 14).blk t).view.read (Elt Ideal)
      (cellTArr (V c main_v40) (V c main_arg0) (V c main_v5) (V c main_v7) (V c main_v9) (V c main_v11) (V c main_v13)
        (V c main_v15) (V c main_v17) (V c main_v19) (V c main_v21) (V c main_v23) (V c main_v25) (V c main_v27)) := by
  show (cfg1.win 14).cut (grid1.coords t) ((dat1 V c).after 14 t) = _
  rw [after1_14]
  funext y
  obtain ⟨p, q, rfl⟩ : ∃ (p : Fin 5000) (q : Fin 96), y = ix2 p q := ⟨y 0, y 1, eq_ix2 y⟩
  have hin : (cfg1.win 14).xinj (grid1.coords t) (ix2 p q) = ix2 p q :=
    funext fun a => match a with | ⟨0, _⟩ => rfl | ⟨1, _⟩ => rfl
  have hemb : ((cfg1.win 14).blk t).view.emb (ix2 p q) = ix2 ⟨t.val * 5000 + p.val, row_lt1 t p⟩ q := by
    obtain ⟨e0, e1, -, -, -, -⟩ := node_blocks1 t
    refine funext fun a => Fin.ext ?_
    match a with
    | ⟨0, _⟩ => show win1_14.index t (0 : Fin 2) * 5000 + 1 * p.val = t.val * 5000 + p.val; omega
    | ⟨1, _⟩ => show win1_14.index t (1 : Fin 2) * 96 + 1 * q.val = q.val; omega
  change out1_14 (F := Ideal) _ _ _ _ _ _ _ _ _ _ _ _ _ _ ((cfg1.win 14).xinj (grid1.coords t) (ix2 p q))
    = cellTArr _ _ _ _ _ _ _ _ _ _ _ _ _ _ (((cfg1.win 14).blk t).view.emb (ix2 p q))
  rw [hin, hemb, out1_apply, Cert.GatedGraph.cellTArr_apply]
  exact cellB_eq_cellT _ _ _ _ _ _ _ _ _ _ _ _ _ _ _ _ _ _ _ _ _ _ _ _ _ _ _ _ _ p q
    (agg_block1 V c t p) (feat_block1 V c t p)
    (fun k => mat_block1_2 V c t k q) (fun k => mat_block1_3 V c t k q) (fun k => mat_block1_4 V c t k q)
    (fun k => mat_block1_5 V c t k q) (fun k => mat_block1_6 V c t k q) (fun k => mat_block1_7 V c t k q)
    (bias_block1_8 V c t q) (bias_block1_9 V c t q) (bias_block1_10 V c t q)
    (bias_block1_11 V c t q) (bias_block1_12 V c t q) (bias_block1_13 V c t q)

/-! ## The ten blocks fill the array -/

/-- A row is in point `t`'s block of the result iff each coordinate is in the block's range on its axis. -/
theorem mem_block1 (t : Fin cfg1.N) (i : S50000x96.Idx) :
    i ∈ ((cfg1.win 14).blk t).view.set ↔ ∀ a : Fin 2, win1_14.index t a * S5000x96.size a ≤ (i a).val
      ∧ (i a).val < win1_14.index t a * S5000x96.size a + S5000x96.size a := by
  show i ∈ ((View.whole main_v41).slice (win1_14.rect t)).set ↔ _
  rw [View.set_slice_whole, Rect.mem_set_unit]
  exact Iff.rfl

/-- Row `r` lies in the block of point `r / 5000`, which writes back. -/
theorem covered1 (i : S50000x96.Idx) :
    ∃ t : Fin cfg1.N, (cfg1.win 14).flush t = true ∧ i ∈ ((cfg1.win 14).blk t).view.set := by
  have hi0 : (i 0).val < 50000 := (i 0).isLt
  have hi1 : (i 1).val < 96 := (i 1).isLt
  have hN : (i 0).val / 5000 < cfg1.N := by
    show (i 0).val / 5000 < grid1.N
    rw [N_1]; omega
  obtain ⟨e0, e1, -, -, -, -⟩ := node_blocks1 ⟨(i 0).val / 5000, hN⟩
  have e0' : win1_14.index ⟨(i 0).val / 5000, hN⟩ (0 : Fin 2) = (i 0).val / 5000 := e0
  refine ⟨⟨(i 0).val / 5000, hN⟩, flush1_14 _, ?_⟩
  rw [mem_block1]
  intro a
  match a with
  | ⟨0, _⟩ =>
    show win1_14.index ⟨(i 0).val / 5000, hN⟩ (0 : Fin 2) * 5000 ≤ (i 0).val
      ∧ (i 0).val < win1_14.index ⟨(i 0).val / 5000, hN⟩ (0 : Fin 2) * 5000 + 5000
    omega
  | ⟨1, _⟩ =>
    show win1_14.index ⟨(i 0).val / 5000, hN⟩ (1 : Fin 2) * 96 ≤ (i 1).val
      ∧ (i 1).val < win1_14.index ⟨(i 0).val / 5000, hN⟩ (1 : Fin 2) * 96 + 96
    omega

/-! ## The array the step leaves -/

/-- After the ten points the result array is the cell of the aggregate, the features, the six matrices and the six
    bias rows as the step found them. -/
theorem final1 (c : Dev nD) :
    (dat1 V c).arrAt 14 cfg1.N
      = cellTArr (V c main_v40) (V c main_arg0) (V c main_v5) (V c main_v7) (V c main_v9) (V c main_v11) (V c main_v13)
        (V c main_v15) (V c main_v17) (V c main_v19) (V c main_v21) (V c main_v23) (V c main_v25) (V c main_v27) :=
  (dat1 V c).arrAt_eq_of_cover 14 _ (fun t _ => flushed_eq1 V c t) (covered1)

end Cert.KernelIdeal.GruValue

end
-- ==== Proof.GruRegion3.lean ====
/-
  Layer 2's recurrent cell over the whole node arrays.

  The step runs at ten points; point t takes rows 5000·t … 5000·t + 4999 of the aggregate and of the features, the
  whole of each of the six matrices and six bias rows, and writes rows 5000·t … 5000·t + 4999 of the result.  What a
  point writes is the block step's result on those blocks, which entry by entry is the cell's formula; row p of a
  point's block is row 5000·t + p of its array, and the ten blocks of rows fill the 50000 rows, so the array the
  step leaves is the cell of the whole arrays.
-/
import proofs.«177519_j19945828123200_1_alg».proof.Proof.GruPayload

set_option maxRecDepth 16384

noncomputable section

namespace Cert.KernelIdeal.GruValue

open Cert.KernelIdeal Cert.KernelIdeal.Gen Idealize.ShloMosaic Idealize.ShloMosaic.TcCoe Idealize.ShloMosaic.ValueIdx Idealize.SL.Sem
open Idealize.ShloMosaic.Pipeline (Dat)
open Cert.GatedGraph (preT cellT cellTArr)

variable (V : (c : Dev nD) → (b : Ref sig .tc) → Buf (Elt Ideal) ((c : Thread nD τ).loc b))

/-! ## Where each point's blocks lie -/

/-- The three node arrays' blocks at point `t` start at row block `t`, column block 0. -/
theorem node_blocks3 : ∀ t : Fin cfg3.N,
    win3_14.index t (0 : Fin 2) = t.val ∧ win3_14.index t (1 : Fin 2) = 0
    ∧ win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Every matrix and every bias row is taken whole at every point: block (0, 0). -/
theorem whole_blocks3 : ∀ t : Fin cfg3.N,
    (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = 0 ∧ win3_11.index t (1 : Fin 2) = 0)
    ∧ (win3_12.index t (0 : Fin 2) = 0 ∧ win3_12.index t (1 : Fin 2) = 0)
    ∧ (win3_13.index t (0 : Fin 2) = 0 ∧ win3_13.index t (1 : Fin 2) = 0) :=
  (by decide +kernel : ∀ t : Fin grid3.N, _)

/-- Row `p` of point `t`'s block is a row of the array. -/
theorem row_lt3 (t : Fin cfg3.N) (p : Fin 5000) : t.val * 5000 + p.val < 50000 := by
  have ht : t.val < 10 := t.isLt
  have hp := p.isLt
  omega

/-! ## The blocks, read off the arrays -/

/-- The aggregate's block at point `t`, at (p, k), is the aggregate at (5000·t + p, k). -/
theorem agg_block3 (c : Dev nD) (t : Fin cfg3.N) (p : Fin 5000) (k : Fin 96) :
    iblk3 V c 0 t (ix2 p k) = V c main_v54 (ix2 ⟨t.val * 5000 + p.val, row_lt3 t p⟩ k) := by
  obtain ⟨-, -, e0, e1, -, -⟩ := node_blocks3 t
  show V c main_v54 (((cfg3.win 0).blk t).view.emb (ix2 p k)) = _
  refine congrArg (V c main_v54) (funext fun a => Fin.ext ?_)
  match a with
  | ⟨0, _⟩ => show win3_0.index t (0 : Fin 2) * 5000 + 1 * p.val = t.val * 5000 + p.val; omega
  | ⟨1, _⟩ => show win3_0.index t (1 : Fin 2) * 96 + 1 * k.val = k.val; omega

/-- The features' block at point `t`, at (p, k), is the features at (5000·t + p, k). -/
theorem feat_block3 (c : Dev nD) (t : Fin cfg3.N) (p : Fin 5000) (k : Fin 96) :
    iblk3 V c 1 t (ix2 p k) = V c main_v41 (ix2 ⟨t.val * 5000 + p.val, row_lt3 t p⟩ k) := by
  obtain ⟨-, -, -, -, e0, e1⟩ := node_blocks3 t
  show V c main_v41 (((cfg3.win 1).blk t).view.emb (ix2 p k)) = _
  refine congrArg (V c main_v41) (funext fun a => Fin.ext ?_)
  match a with
  | ⟨0, _⟩ => show win3_1.index t (0 : Fin 2) * 5000 + 1 * p.val = t.val * 5000 + p.val; omega
  | ⟨1, _⟩ => show win3_1.index t (1 : Fin 2) * 96 + 1 * k.val = k.val; omega

/-- The input reset matrix's block at any point is the matrix. -/
theorem mat_block3_2 (c : Dev nD) (t : Fin cfg3.N) (k q : Fin 96) :
    iblk3 V c 2 t (ix2 k q) = V c main_v5 (ix2 k q) := by
  obtain ⟨⟨e0, e1⟩, -, -, -, -, -, -, -, -, -, -, -⟩ := whole_blocks3 t
  show V c main_v5 (((cfg3.win 2).blk t).view.emb (ix2 k q)) = _
  refine congrArg (V c main_v5) (funext fun a => Fin.ext ?_)
  match a with
  | ⟨0, _⟩ => show win3_2.index t (0 : Fin 2) * 96 + 1 * k.val = k.val; omega
  | ⟨1, _⟩ => show win3_2.index t (1 : Fin 2) * 96 + 1 * q.val = q.val; omega

/-- The input update matrix's block at any point is the matrix. -/
theorem mat_block3_3 (c : Dev nD) (t : Fin cfg3.N) (k q : Fin 96) :
    iblk3 V c 3 t (ix2 k q) = V c main_v7 (ix2 k q) := by
  obtain ⟨-, ⟨e0, e1⟩, -, -, -, -, -, -, -, -, -, -⟩ := whole_blocks3 t
  show V c main_v7 (((cfg3.win 3).blk t).view.emb (ix2 k q)) = _
  refine congrArg (V c main_v7) (funext fun a => Fin.ext ?_)
  match a with
  | ⟨0, _⟩ => show win3_3.index t (0 : Fin 2) * 96 + 1 * k.val = k.val; omega
  | ⟨1, _⟩ => show win3_3.index t (1 : Fin 2) * 96 + 1 * q.val = q.val; omega

/-- The input candidate matrix's block at any point is the matrix. -/
theorem mat_block3_4 (c : Dev nD) (t : Fin cfg3.N) (k q : Fin 96) :
    iblk3 V c 4 t (ix2 k q) = V c main_v9 (ix2 k q) := by
  obtain ⟨-, -, ⟨e0, e1⟩, -, -, -, -, -, -, -, -, -⟩ := whole_blocks3 t
  show V c main_v9 (((cfg3.win 4).blk t).view.emb (ix2 k q)) = _
  refine congrArg (V c main_v9) (funext fun a => Fin.ext ?_)
  match a with
  | ⟨0, _⟩ => show win3_4.index t (0 : Fin 2) * 96 + 1 * k.val = k.val; omega
  | ⟨1, _⟩ => show win3_4.index t (1 : Fin 2) * 96 + 1 * q.val = q.val; omega

/-- The recurrent reset matrix's block at any point is the matrix. -/
theorem mat_block3_5 (c : Dev nD) (t : Fin cfg3.N) (k q : Fin 96) :
    iblk3 V c 5 t (ix2 k q) = V c main_v11 (ix2 k q) := by
  obtain ⟨-, -, -, ⟨e0, e1⟩, -, -, -, -, -, -, -, -⟩ := whole_blocks3 t
  show V c main_v11 (((cfg3.win 5).blk t).view.emb (ix2 k q)) = _
  refine congrArg (V c main_v11) (funext fun a => Fin.ext ?_)
  match a with
  | ⟨0, _⟩ => show win3_5.index t (0 : Fin 2) * 96 + 1 * k.val = k.val; omega
  | ⟨1, _⟩ => show win3_5.index t (1 : Fin 2) * 96 + 1 * q.val = q.val; omega

/-- The recurrent update matrix's block at any point is the matrix. -/
theorem mat_block3_6 (c : Dev nD) (t : Fin cfg3.N) (k q : Fin 96) :
    iblk3 V c 6 t (ix2 k q) = V c main_v13 (ix2 k q) := by
  obtain ⟨-, -, -, -, ⟨e0, e1⟩, -, -, -, -, -, -, -⟩ := whole_blocks3 t
  show V c main_v13 (((cfg3.win 6).blk t).view.emb (ix2 k q)) = _
  refine congrArg (V c main_v13) (funext fun a => Fin.ext ?_)
  match a with
  | ⟨0, _⟩ => show win3_6.index t (0 : Fin 2) * 96 + 1 * k.val = k.val; omega
  | ⟨1, _⟩ => show win3_6.index t (1 : Fin 2) * 96 + 1 * q.val = q.val; omega

/-- The recurrent candidate matrix's block at any point is the matrix. -/
theorem mat_block3_7 (c : Dev nD) (t : Fin cfg3.N) (k q : Fin 96) :
    iblk3 V c 7 t (ix2 k q) = V c main_v15 (ix2 k q) := by
  obtain ⟨-, -, -, -, -, ⟨e0, e1⟩, -, -, -, -, -, -⟩ := whole_blocks3 t
  show V c main_v15 (((cfg3.win 7).blk t).view.emb (ix2 k q)) = _
  refine congrArg (V c main_v15) (funext fun a => Fin.ext ?_)
  match a with
  | ⟨0, _⟩ => show win3_7.index t (0 : Fin 2) * 96 + 1 * k.val = k.val; omega
  | ⟨1, _⟩ => show win3_7.index t (1 : Fin 2) * 96 + 1 * q.val = q.val; omega

/-- The input reset bias row's block at any point is the row. -/
theorem bias_block3_8 (c : Dev nD) (t : Fin cfg3.N) (q : Fin 96) :
    iblk3 V c 8 t (ix2 (0 : Fin 1) q) = V c main_v17 (ix2 (0 : Fin 1) q) := by
  obtain ⟨-, -, -, -, -, -, ⟨e0, e1⟩, -, -, -, -, -⟩ := whole_blocks3 t
  show V c main_v17 (((cfg3.win 8).blk t).view.emb (ix2 (0 : Fin 1) q)) = _
  refine congrArg (V c main_v17) (funext fun a => Fin.ext ?_)
  match a with
  | ⟨0, _⟩ => show win3_8.index t (0 : Fin 2) * 1 + 1 * 0 = 0; omega
  | ⟨1, _⟩ => show win3_8.index t (1 : Fin 2) * 96 + 1 * q.val = q.val; omega

/-- The input update bias row's block at any point is the row. -/
theorem bias_block3_9 (c : Dev nD) (t : Fin cfg3.N) (q : Fin 96) :
    iblk3 V c 9 t (ix2 (0 : Fin 1) q) = V c main_v19 (ix2 (0 : Fin 1) q) := by
  obtain ⟨-, -, -, -, -, -, -, ⟨e0, e1⟩, -, -, -, -⟩ := whole_blocks3 t
  show V c main_v19 (((cfg3.win 9).blk t).view.emb (ix2 (0 : Fin 1) q)) = _
  refine congrArg (V c main_v19) (funext fun a => Fin.ext ?_)
  match a with
  | ⟨0, _⟩ => show win3_9.index t (0 : Fin 2) * 1 + 1 * 0 = 0; omega
  | ⟨1, _⟩ => show win3_9.index t (1 : Fin 2) * 96 + 1 * q.val = q.val; omega

/-- The input candidate bias row's block at any point is the row. -/
theorem bias_block3_10 (c : Dev nD) (t : Fin cfg3.N) (q : Fin 96) :
    iblk3 V c 10 t (ix2 (0 : Fin 1) q) = V c main_v21 (ix2 (0 : Fin 1) q) := by
  obtain ⟨-, -, -, -, -, -, -, -, ⟨e0, e1⟩, -, -, -⟩ := whole_blocks3 t
  show V c main_v21 (((cfg3.win 10).blk t).view.emb (ix2 (0 : Fin 1) q)) = _
  refine congrArg (V c main_v21) (funext fun a => Fin.ext ?_)
  match a with
  | ⟨0, _⟩ => show win3_10.index t (0 : Fin 2) * 1 + 1 * 0 = 0; omega
  | ⟨1, _⟩ => show win3_10.index t (1 : Fin 2) * 96 + 1 * q.val = q.val; omega

/-- The recurrent reset bias row's block at any point is the row. -/
theorem bias_block3_11 (c : Dev nD) (t : Fin cfg3.N) (q : Fin 96) :
    iblk3 V c 11 t (ix2 (0 : Fin 1) q) = V c main_v23 (ix2 (0 : Fin 1) q) := by
  obtain ⟨-, -, -, -, -, -, -, -, -, ⟨e0, e1⟩, -, -⟩ := whole_blocks3 t
  show V c main_v23 (((cfg3.win 11).blk t).view.emb (ix2 (0 : Fin 1) q)) = _
  refine congrArg (V c main_v23) (funext fun a => Fin.ext ?_)
  match a with
  | ⟨0, _⟩ => show win3_11.index t (0 : Fin 2) * 1 + 1 * 0 = 0; omega
  | ⟨1, _⟩ => show win3_11.index t (1 : Fin 2) * 96 + 1 * q.val = q.val; omega

/-- The recurrent update bias row's block at any point is the row. -/
theorem bias_block3_12 (c : Dev nD) (t : Fin cfg3.N) (q : Fin 96) :
    iblk3 V c 12 t (ix2 (0 : Fin 1) q) = V c main_v25 (ix2 (0 : Fin 1) q) := by
  obtain ⟨-, -, -, -, -, -, -, -, -, -, ⟨e0, e1⟩, -⟩ := whole_blocks3 t
  show V c main_v25 (((cfg3.win 12).blk t).view.emb (ix2 (0 : Fin 1) q)) = _
  refine congrArg (V c main_v25) (funext fun a => Fin.ext ?_)
  match a with
  | ⟨0, _⟩ => show win3_12.index t (0 : Fin 2) * 1 + 1 * 0 = 0; omega
  | ⟨1, _⟩ => show win3_12.index t (1 : Fin 2) * 96 + 1 * q.val = q.val; omega

/-- The recurrent candidate bias row's block at any point is the row. -/
theorem bias_block3_13 (c : Dev nD) (t : Fin cfg3.N) (q : Fin 96) :
    iblk3 V c 13 t (ix2 (0 : Fin 1) q) = V c main_v27 (ix2 (0 : Fin 1) q) := by
  obtain ⟨-, -, -, -, -, -, -, -, -, -, -, ⟨e0, e1⟩⟩ := whole_blocks3 t
  show V c main_v27 (((cfg3.win 13).blk t).view.emb (ix2 (0 : Fin 1) q)) = _
  refine congrArg (V c main_v27) (funext fun a => Fin.ext ?_)
  match a with
  | ⟨0, _⟩ => show win3_13.index t (0 : Fin 2) * 1 + 1 * 0 = 0; omega
  | ⟨1, _⟩ => show win3_13.index t (1 : Fin 2) * 96 + 1 * q.val = q.val; omega

/-! ## What a point writes back -/

/-- Point `t` writes back its block of the cell of the whole arrays. -/
theorem flushed_eq3 (c : Dev nD) (t : Fin cfg3.N) :
    (dat3 V c).flushed 14 t = ((cfg3.win 14).blk t).view.read (Elt Ideal)
      (cellTArr (V c main_v54) (V c main_v41) (V c main_v5) (V c main_v7) (V c main_v9) (V c main_v11) (V c main_v13)
        (V c main_v15) (V c main_v17) (V c main_v19) (V c main_v21) (V c main_v23) (V c main_v25) (V c main_v27)) := by
  show (cfg3.win 14).cut (grid3.coords t) ((dat3 V c).after 14 t) = _
  rw [after3_14]
  funext y
  obtain ⟨p, q, rfl⟩ : ∃ (p : Fin 5000) (q : Fin 96), y = ix2 p q := ⟨y 0, y 1, eq_ix2 y⟩
  have hin : (cfg3.win 14).xinj (grid3.coords t) (ix2 p q) = ix2 p q :=
    funext fun a => match a with | ⟨0, _⟩ => rfl | ⟨1, _⟩ => rfl
  have hemb : ((cfg3.win 14).blk t).view.emb (ix2 p q) = ix2 ⟨t.val * 5000 + p.val, row_lt3 t p⟩ q := by
    obtain ⟨e0, e1, -, -, -, -⟩ := node_blocks3 t
    refine funext fun a => Fin.ext ?_
    match a with
    | ⟨0, _⟩ => show win3_14.index t (0 : Fin 2) * 5000 + 1 * p.val = t.val * 5000 + p.val; omega
    | ⟨1, _⟩ => show win3_14.index t (1 : Fin 2) * 96 + 1 * q.val = q.val; omega
  change out3_14 (F := Ideal) _ _ _ _ _ _ _ _ _ _ _ _ _ _ ((cfg3.win 14).xinj (grid3.coords t) (ix2 p q))
    = cellTArr _ _ _ _ _ _ _ _ _ _ _ _ _ _ (((cfg3.win 14).blk t).view.emb (ix2 p q))
  rw [hin, hemb, out3_apply, Cert.GatedGraph.cellTArr_apply]
  exact cellB_eq_cellT _ _ _ _ _ _ _ _ _ _ _ _ _ _ _ _ _ _ _ _ _ _ _ _ _ _ _ _ _ p q
    (agg_block3 V c t p) (feat_block3 V c t p)
    (fun k => mat_block3_2 V c t k q) (fun k => mat_block3_3 V c t k q) (fun k => mat_block3_4 V c t k q)
    (fun k => mat_block3_5 V c t k q) (fun k => mat_block3_6 V c t k q) (fun k => mat_block3_7 V c t k q)
    (bias_block3_8 V c t q) (bias_block3_9 V c t q) (bias_block3_10 V c t q)
    (bias_block3_11 V c t q) (bias_block3_12 V c t q) (bias_block3_13 V c t q)

/-! ## The ten blocks fill the array -/

/-- A row is in point `t`'s block of the result iff each coordinate is in the block's range on its axis. -/
theorem mem_block3 (t : Fin cfg3.N) (i : S50000x96.Idx) :
    i ∈ ((cfg3.win 14).blk t).view.set ↔ ∀ a : Fin 2, win3_14.index t a * S5000x96.size a ≤ (i a).val
      ∧ (i a).val < win3_14.index t a * S5000x96.size a + S5000x96.size a := by
  show i ∈ ((View.whole main_v55).slice (win3_14.rect t)).set ↔ _
  rw [View.set_slice_whole, Rect.mem_set_unit]
  exact Iff.rfl

/-- Row `r` lies in the block of point `r / 5000`, which writes back. -/
theorem covered3 (i : S50000x96.Idx) :
    ∃ t : Fin cfg3.N, (cfg3.win 14).flush t = true ∧ i ∈ ((cfg3.win 14).blk t).view.set := by
  have hi0 : (i 0).val < 50000 := (i 0).isLt
  have hi1 : (i 1).val < 96 := (i 1).isLt
  have hN : (i 0).val / 5000 < cfg3.N := by
    show (i 0).val / 5000 < grid3.N
    rw [N_3]; omega
  obtain ⟨e0, e1, -, -, -, -⟩ := node_blocks3 ⟨(i 0).val / 5000, hN⟩
  have e0' : win3_14.index ⟨(i 0).val / 5000, hN⟩ (0 : Fin 2) = (i 0).val / 5000 := e0
  refine ⟨⟨(i 0).val / 5000, hN⟩, flush3_14 _, ?_⟩
  rw [mem_block3]
  intro a
  match a with
  | ⟨0, _⟩ =>
    show win3_14.index ⟨(i 0).val / 5000, hN⟩ (0 : Fin 2) * 5000 ≤ (i 0).val
      ∧ (i 0).val < win3_14.index ⟨(i 0).val / 5000, hN⟩ (0 : Fin 2) * 5000 + 5000
    omega
  | ⟨1, _⟩ =>
    show win3_14.index ⟨(i 0).val / 5000, hN⟩ (1 : Fin 2) * 96 ≤ (i 1).val
      ∧ (i 1).val < win3_14.index ⟨(i 0).val / 5000, hN⟩ (1 : Fin 2) * 96 + 96
    omega

/-! ## The array the step leaves -/

/-- After the ten points the result array is the cell of the aggregate, the features, the six matrices and the six
    bias rows as the step found them. -/
theorem final3 (c : Dev nD) :
    (dat3 V c).arrAt 14 cfg3.N
      = cellTArr (V c main_v54) (V c main_v41) (V c main_v5) (V c main_v7) (V c main_v9) (V c main_v11) (V c main_v13)
        (V c main_v15) (V c main_v17) (V c main_v19) (V c main_v21) (V c main_v23) (V c main_v25) (V c main_v27) :=
  (dat3 V c).arrAt_eq_of_cover 14 _ (fun t _ => flushed_eq3 V c t) (covered3)

end Cert.KernelIdeal.GruValue

end
-- ==== Proof.GruRegion5.lean ====
/-
  Layer 3's recurrent cell over the whole node arrays.

  The step runs at ten points; point t takes rows 5000·t … 5000·t + 4999 of the aggregate and of the features, the
  whole of each of the six matrices and six bias rows, and writes rows 5000·t … 5000·t + 4999 of the result.  What a
  point writes is the block step's result on those blocks, which entry by entry is the cell's formula; row p of a
  point's block is row 5000·t + p of its array, and the ten blocks of rows fill the 50000 rows, so the array the
  step leaves is the cell of the whole arrays.
-/
import proofs.«177519_j19945828123200_1_alg».proof.Proof.GruPayload

set_option maxRecDepth 16384

noncomputable section

namespace Cert.KernelIdeal.GruValue

open Cert.KernelIdeal Cert.KernelIdeal.Gen Idealize.ShloMosaic Idealize.ShloMosaic.TcCoe Idealize.ShloMosaic.ValueIdx Idealize.SL.Sem
open Idealize.ShloMosaic.Pipeline (Dat)
open Cert.GatedGraph (preT cellT cellTArr)

variable (V : (c : Dev nD) → (b : Ref sig .tc) → Buf (Elt Ideal) ((c : Thread nD τ).loc b))

/-! ## Where each point's blocks lie -/

/-- The three node arrays' blocks at point `t` start at row block `t`, column block 0. -/
theorem node_blocks5 : ∀ t : Fin cfg5.N,
    win5_14.index t (0 : Fin 2) = t.val ∧ win5_14.index t (1 : Fin 2) = 0
    ∧ win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- Every matrix and every bias row is taken whole at every point: block (0, 0). -/
theorem whole_blocks5 : ∀ t : Fin cfg5.N,
    (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0)
    ∧ (win5_10.index t (0 : Fin 2) = 0 ∧ win5_10.index t (1 : Fin 2) = 0)
    ∧ (win5_11.index t (0 : Fin 2) = 0 ∧ win5_11.index t (1 : Fin 2) = 0)
    ∧ (win5_12.index t (0 : Fin 2) = 0 ∧ win5_12.index t (1 : Fin 2) = 0)
    ∧ (win5_13.index t (0 : Fin 2) = 0 ∧ win5_13.index t (1 : Fin 2) = 0) :=
  (by decide +kernel : ∀ t : Fin grid5.N, _)

/-- Row `p` of point `t`'s block is a row of the array. -/
theorem row_lt5 (t : Fin cfg5.N) (p : Fin 5000) : t.val * 5000 + p.val < 50000 := by
  have ht : t.val < 10 := t.isLt
  have hp := p.isLt
  omega

/-! ## The blocks, read off the arrays -/

/-- The aggregate's block at point `t`, at (p, k), is the aggregate at (5000·t + p, k). -/
theorem agg_block5 (c : Dev nD) (t : Fin cfg5.N) (p : Fin 5000) (k : Fin 96) :
    iblk5 V c 0 t (ix2 p k) = V c main_v68 (ix2 ⟨t.val * 5000 + p.val, row_lt5 t p⟩ k) := by
  obtain ⟨-, -, e0, e1, -, -⟩ := node_blocks5 t
  show V c main_v68 (((cfg5.win 0).blk t).view.emb (ix2 p k)) = _
  refine congrArg (V c main_v68) (funext fun a => Fin.ext ?_)
  match a with
  | ⟨0, _⟩ => show win5_0.index t (0 : Fin 2) * 5000 + 1 * p.val = t.val * 5000 + p.val; omega
  | ⟨1, _⟩ => show win5_0.index t (1 : Fin 2) * 96 + 1 * k.val = k.val; omega

/-- The features' block at point `t`, at (p, k), is the features at (5000·t + p, k). -/
theorem feat_block5 (c : Dev nD) (t : Fin cfg5.N) (p : Fin 5000) (k : Fin 96) :
    iblk5 V c 1 t (ix2 p k) = V c main_v55 (ix2 ⟨t.val * 5000 + p.val, row_lt5 t p⟩ k) := by
  obtain ⟨-, -, -, -, e0, e1⟩ := node_blocks5 t
  show V c main_v55 (((cfg5.win 1).blk t).view.emb (ix2 p k)) = _
  refine congrArg (V c main_v55) (funext fun a => Fin.ext ?_)
  match a with
  | ⟨0, _⟩ => show win5_1.index t (0 : Fin 2) * 5000 + 1 * p.val = t.val * 5000 + p.val; omega
  | ⟨1, _⟩ => show win5_1.index t (1 : Fin 2) * 96 + 1 * k.val = k.val; omega

/-- The input reset matrix's block at any point is the matrix. -/
theorem mat_block5_2 (c : Dev nD) (t : Fin cfg5.N) (k q : Fin 96) :
    iblk5 V c 2 t (ix2 k q) = V c main_v5 (ix2 k q) := by
  obtain ⟨⟨e0, e1⟩, -, -, -, -, -, -, -, -, -, -, -⟩ := whole_blocks5 t
  show V c main_v5 (((cfg5.win 2).blk t).view.emb (ix2 k q)) = _
  refine congrArg (V c main_v5) (funext fun a => Fin.ext ?_)
  match a with
  | ⟨0, _⟩ => show win5_2.index t (0 : Fin 2) * 96 + 1 * k.val = k.val; omega
  | ⟨1, _⟩ => show win5_2.index t (1 : Fin 2) * 96 + 1 * q.val = q.val; omega

/-- The input update matrix's block at any point is the matrix. -/
theorem mat_block5_3 (c : Dev nD) (t : Fin cfg5.N) (k q : Fin 96) :
    iblk5 V c 3 t (ix2 k q) = V c main_v7 (ix2 k q) := by
  obtain ⟨-, ⟨e0, e1⟩, -, -, -, -, -, -, -, -, -, -⟩ := whole_blocks5 t
  show V c main_v7 (((cfg5.win 3).blk t).view.emb (ix2 k q)) = _
  refine congrArg (V c main_v7) (funext fun a => Fin.ext ?_)
  match a with
  | ⟨0, _⟩ => show win5_3.index t (0 : Fin 2) * 96 + 1 * k.val = k.val; omega
  | ⟨1, _⟩ => show win5_3.index t (1 : Fin 2) * 96 + 1 * q.val = q.val; omega

/-- The input candidate matrix's block at any point is the matrix. -/
theorem mat_block5_4 (c : Dev nD) (t : Fin cfg5.N) (k q : Fin 96) :
    iblk5 V c 4 t (ix2 k q) = V c main_v9 (ix2 k q) := by
  obtain ⟨-, -, ⟨e0, e1⟩, -, -, -, -, -, -, -, -, -⟩ := whole_blocks5 t
  show V c main_v9 (((cfg5.win 4).blk t).view.emb (ix2 k q)) = _
  refine congrArg (V c main_v9) (funext fun a => Fin.ext ?_)
  match a with
  | ⟨0, _⟩ => show win5_4.index t (0 : Fin 2) * 96 + 1 * k.val = k.val; omega
  | ⟨1, _⟩ => show win5_4.index t (1 : Fin 2) * 96 + 1 * q.val = q.val; omega

/-- The recurrent reset matrix's block at any point is the matrix. -/
theorem mat_block5_5 (c : Dev nD) (t : Fin cfg5.N) (k q : Fin 96) :
    iblk5 V c 5 t (ix2 k q) = V c main_v11 (ix2 k q) := by
  obtain ⟨-, -, -, ⟨e0, e1⟩, -, -, -, -, -, -, -, -⟩ := whole_blocks5 t
  show V c main_v11 (((cfg5.win 5).blk t).view.emb (ix2 k q)) = _
  refine congrArg (V c main_v11) (funext fun a => Fin.ext ?_)
  match a with
  | ⟨0, _⟩ => show win5_5.index t (0 : Fin 2) * 96 + 1 * k.val = k.val; omega
  | ⟨1, _⟩ => show win5_5.index t (1 : Fin 2) * 96 + 1 * q.val = q.val; omega

/-- The recurrent update matrix's block at any point is the matrix. -/
theorem mat_block5_6 (c : Dev nD) (t : Fin cfg5.N) (k q : Fin 96) :
    iblk5 V c 6 t (ix2 k q) = V c main_v13 (ix2 k q) := by
  obtain ⟨-, -, -, -, ⟨e0, e1⟩, -, -, -, -, -, -, -⟩ := whole_blocks5 t
  show V c main_v13 (((cfg5.win 6).blk t).view.emb (ix2 k q)) = _
  refine congrArg (V c main_v13) (funext fun a => Fin.ext ?_)
  match a with
  | ⟨0, _⟩ => show win5_6.index t (0 : Fin 2) * 96 + 1 * k.val = k.val; omega
  | ⟨1, _⟩ => show win5_6.index t (1 : Fin 2) * 96 + 1 * q.val = q.val; omega

/-- The recurrent candidate matrix's block at any point is the matrix. -/
theorem mat_block5_7 (c : Dev nD) (t : Fin cfg5.N) (k q : Fin 96) :
    iblk5 V c 7 t (ix2 k q) = V c main_v15 (ix2 k q) := by
  obtain ⟨-, -, -, -, -, ⟨e0, e1⟩, -, -, -, -, -, -⟩ := whole_blocks5 t
  show V c main_v15 (((cfg5.win 7).blk t).view.emb (ix2 k q)) = _
  refine congrArg (V c main_v15) (funext fun a => Fin.ext ?_)
  match a with
  | ⟨0, _⟩ => show win5_7.index t (0 : Fin 2) * 96 + 1 * k.val = k.val; omega
  | ⟨1, _⟩ => show win5_7.index t (1 : Fin 2) * 96 + 1 * q.val = q.val; omega

/-- The input reset bias row's block at any point is the row. -/
theorem bias_block5_8 (c : Dev nD) (t : Fin cfg5.N) (q : Fin 96) :
    iblk5 V c 8 t (ix2 (0 : Fin 1) q) = V c main_v17 (ix2 (0 : Fin 1) q) := by
  obtain ⟨-, -, -, -, -, -, ⟨e0, e1⟩, -, -, -, -, -⟩ := whole_blocks5 t
  show V c main_v17 (((cfg5.win 8).blk t).view.emb (ix2 (0 : Fin 1) q)) = _
  refine congrArg (V c main_v17) (funext fun a => Fin.ext ?_)
  match a with
  | ⟨0, _⟩ => show win5_8.index t (0 : Fin 2) * 1 + 1 * 0 = 0; omega
  | ⟨1, _⟩ => show win5_8.index t (1 : Fin 2) * 96 + 1 * q.val = q.val; omega

/-- The input update bias row's block at any point is the row. -/
theorem bias_block5_9 (c : Dev nD) (t : Fin cfg5.N) (q : Fin 96) :
    iblk5 V c 9 t (ix2 (0 : Fin 1) q) = V c main_v19 (ix2 (0 : Fin 1) q) := by
  obtain ⟨-, -, -, -, -, -, -, ⟨e0, e1⟩, -, -, -, -⟩ := whole_blocks5 t
  show V c main_v19 (((cfg5.win 9).blk t).view.emb (ix2 (0 : Fin 1) q)) = _
  refine congrArg (V c main_v19) (funext fun a => Fin.ext ?_)
  match a with
  | ⟨0, _⟩ => show win5_9.index t (0 : Fin 2) * 1 + 1 * 0 = 0; omega
  | ⟨1, _⟩ => show win5_9.index t (1 : Fin 2) * 96 + 1 * q.val = q.val; omega

/-- The input candidate bias row's block at any point is the row. -/
theorem bias_block5_10 (c : Dev nD) (t : Fin cfg5.N) (q : Fin 96) :
    iblk5 V c 10 t (ix2 (0 : Fin 1) q) = V c main_v21 (ix2 (0 : Fin 1) q) := by
  obtain ⟨-, -, -, -, -, -, -, -, ⟨e0, e1⟩, -, -, -⟩ := whole_blocks5 t
  show V c main_v21 (((cfg5.win 10).blk t).view.emb (ix2 (0 : Fin 1) q)) = _
  refine congrArg (V c main_v21) (funext fun a => Fin.ext ?_)
  match a with
  | ⟨0, _⟩ => show win5_10.index t (0 : Fin 2) * 1 + 1 * 0 = 0; omega
  | ⟨1, _⟩ => show win5_10.index t (1 : Fin 2) * 96 + 1 * q.val = q.val; omega

/-- The recurrent reset bias row's block at any point is the row. -/
theorem bias_block5_11 (c : Dev nD) (t : Fin cfg5.N) (q : Fin 96) :
    iblk5 V c 11 t (ix2 (0 : Fin 1) q) = V c main_v23 (ix2 (0 : Fin 1) q) := by
  obtain ⟨-, -, -, -, -, -, -, -, -, ⟨e0, e1⟩, -, -⟩ := whole_blocks5 t
  show V c main_v23 (((cfg5.win 11).blk t).view.emb (ix2 (0 : Fin 1) q)) = _
  refine congrArg (V c main_v23) (funext fun a => Fin.ext ?_)
  match a with
  | ⟨0, _⟩ => show win5_11.index t (0 : Fin 2) * 1 + 1 * 0 = 0; omega
  | ⟨1, _⟩ => show win5_11.index t (1 : Fin 2) * 96 + 1 * q.val = q.val; omega

/-- The recurrent update bias row's block at any point is the row. -/
theorem bias_block5_12 (c : Dev nD) (t : Fin cfg5.N) (q : Fin 96) :
    iblk5 V c 12 t (ix2 (0 : Fin 1) q) = V c main_v25 (ix2 (0 : Fin 1) q) := by
  obtain ⟨-, -, -, -, -, -, -, -, -, -, ⟨e0, e1⟩, -⟩ := whole_blocks5 t
  show V c main_v25 (((cfg5.win 12).blk t).view.emb (ix2 (0 : Fin 1) q)) = _
  refine congrArg (V c main_v25) (funext fun a => Fin.ext ?_)
  match a with
  | ⟨0, _⟩ => show win5_12.index t (0 : Fin 2) * 1 + 1 * 0 = 0; omega
  | ⟨1, _⟩ => show win5_12.index t (1 : Fin 2) * 96 + 1 * q.val = q.val; omega

/-- The recurrent candidate bias row's block at any point is the row. -/
theorem bias_block5_13 (c : Dev nD) (t : Fin cfg5.N) (q : Fin 96) :
    iblk5 V c 13 t (ix2 (0 : Fin 1) q) = V c main_v27 (ix2 (0 : Fin 1) q) := by
  obtain ⟨-, -, -, -, -, -, -, -, -, -, -, ⟨e0, e1⟩⟩ := whole_blocks5 t
  show V c main_v27 (((cfg5.win 13).blk t).view.emb (ix2 (0 : Fin 1) q)) = _
  refine congrArg (V c main_v27) (funext fun a => Fin.ext ?_)
  match a with
  | ⟨0, _⟩ => show win5_13.index t (0 : Fin 2) * 1 + 1 * 0 = 0; omega
  | ⟨1, _⟩ => show win5_13.index t (1 : Fin 2) * 96 + 1 * q.val = q.val; omega

/-! ## What a point writes back -/

/-- Point `t` writes back its block of the cell of the whole arrays. -/
theorem flushed_eq5 (c : Dev nD) (t : Fin cfg5.N) :
    (dat5 V c).flushed 14 t = ((cfg5.win 14).blk t).view.read (Elt Ideal)
      (cellTArr (V c main_v68) (V c main_v55) (V c main_v5) (V c main_v7) (V c main_v9) (V c main_v11) (V c main_v13)
        (V c main_v15) (V c main_v17) (V c main_v19) (V c main_v21) (V c main_v23) (V c main_v25) (V c main_v27)) := by
  show (cfg5.win 14).cut (grid5.coords t) ((dat5 V c).after 14 t) = _
  rw [after5_14]
  funext y
  obtain ⟨p, q, rfl⟩ : ∃ (p : Fin 5000) (q : Fin 96), y = ix2 p q := ⟨y 0, y 1, eq_ix2 y⟩
  have hin : (cfg5.win 14).xinj (grid5.coords t) (ix2 p q) = ix2 p q :=
    funext fun a => match a with | ⟨0, _⟩ => rfl | ⟨1, _⟩ => rfl
  have hemb : ((cfg5.win 14).blk t).view.emb (ix2 p q) = ix2 ⟨t.val * 5000 + p.val, row_lt5 t p⟩ q := by
    obtain ⟨e0, e1, -, -, -, -⟩ := node_blocks5 t
    refine funext fun a => Fin.ext ?_
    match a with
    | ⟨0, _⟩ => show win5_14.index t (0 : Fin 2) * 5000 + 1 * p.val = t.val * 5000 + p.val; omega
    | ⟨1, _⟩ => show win5_14.index t (1 : Fin 2) * 96 + 1 * q.val = q.val; omega
  change out5_14 (F := Ideal) _ _ _ _ _ _ _ _ _ _ _ _ _ _ ((cfg5.win 14).xinj (grid5.coords t) (ix2 p q))
    = cellTArr _ _ _ _ _ _ _ _ _ _ _ _ _ _ (((cfg5.win 14).blk t).view.emb (ix2 p q))
  rw [hin, hemb, out5_apply, Cert.GatedGraph.cellTArr_apply]
  exact cellB_eq_cellT _ _ _ _ _ _ _ _ _ _ _ _ _ _ _ _ _ _ _ _ _ _ _ _ _ _ _ _ _ p q
    (agg_block5 V c t p) (feat_block5 V c t p)
    (fun k => mat_block5_2 V c t k q) (fun k => mat_block5_3 V c t k q) (fun k => mat_block5_4 V c t k q)
    (fun k => mat_block5_5 V c t k q) (fun k => mat_block5_6 V c t k q) (fun k => mat_block5_7 V c t k q)
    (bias_block5_8 V c t q) (bias_block5_9 V c t q) (bias_block5_10 V c t q)
    (bias_block5_11 V c t q) (bias_block5_12 V c t q) (bias_block5_13 V c t q)

/-! ## The ten blocks fill the array -/

/-- A row is in point `t`'s block of the result iff each coordinate is in the block's range on its axis. -/
theorem mem_block5 (t : Fin cfg5.N) (i : S50000x96.Idx) :
    i ∈ ((cfg5.win 14).blk t).view.set ↔ ∀ a : Fin 2, win5_14.index t a * S5000x96.size a ≤ (i a).val
      ∧ (i a).val < win5_14.index t a * S5000x96.size a + S5000x96.size a := by
  show i ∈ ((View.whole main_v69).slice (win5_14.rect t)).set ↔ _
  rw [View.set_slice_whole, Rect.mem_set_unit]
  exact Iff.rfl

/-- Row `r` lies in the block of point `r / 5000`, which writes back. -/
theorem covered5 (i : S50000x96.Idx) :
    ∃ t : Fin cfg5.N, (cfg5.win 14).flush t = true ∧ i ∈ ((cfg5.win 14).blk t).view.set := by
  have hi0 : (i 0).val < 50000 := (i 0).isLt
  have hi1 : (i 1).val < 96 := (i 1).isLt
  have hN : (i 0).val / 5000 < cfg5.N := by
    show (i 0).val / 5000 < grid5.N
    rw [N_5]; omega
  obtain ⟨e0, e1, -, -, -, -⟩ := node_blocks5 ⟨(i 0).val / 5000, hN⟩
  have e0' : win5_14.index ⟨(i 0).val / 5000, hN⟩ (0 : Fin 2) = (i 0).val / 5000 := e0
  refine ⟨⟨(i 0).val / 5000, hN⟩, flush5_14 _, ?_⟩
  rw [mem_block5]
  intro a
  match a with
  | ⟨0, _⟩ =>
    show win5_14.index ⟨(i 0).val / 5000, hN⟩ (0 : Fin 2) * 5000 ≤ (i 0).val
      ∧ (i 0).val < win5_14.index ⟨(i 0).val / 5000, hN⟩ (0 : Fin 2) * 5000 + 5000
    omega
  | ⟨1, _⟩ =>
    show win5_14.index ⟨(i 0).val / 5000, hN⟩ (1 : Fin 2) * 96 ≤ (i 1).val
      ∧ (i 1).val < win5_14.index ⟨(i 0).val / 5000, hN⟩ (1 : Fin 2) * 96 + 96
    omega

/-! ## The array the step leaves -/

/-- After the ten points the result array is the cell of the aggregate, the features, the six matrices and the six
    bias rows as the step found them. -/
theorem final5 (c : Dev nD) :
    (dat5 V c).arrAt 14 cfg5.N
      = cellTArr (V c main_v68) (V c main_v55) (V c main_v5) (V c main_v7) (V c main_v9) (V c main_v11) (V c main_v13)
        (V c main_v15) (V c main_v17) (V c main_v19) (V c main_v21) (V c main_v23) (V c main_v25) (V c main_v27) :=
  (dat5 V c).arrAt_eq_of_cover 14 _ (fun t _ => flushed_eq5 V c t) (covered5)

end Cert.KernelIdeal.GruValue

end
-- ==== Proof.Fold.lean ====
/-
  The three layers, folded.

  Reading the last boundary's contents at the result buffer back through the twelve segments: the last cell
  region leaves the cell of the aggregate and features it finds; the aggregate is the aggregation of the product
  the matmul region before it left; that product is the features it found times the layer's matrix; and the
  features a layer finds are the previous layer's result (the launch features for the first).  The index
  vectors, weight pieces and bias rows every layer uses are the ones the first stretch cut, untouched since.
  With the six transposed pieces recognised as the bands of the two stacked weight matrices, the result is
  three applications of `Cert.GatedGraph.layer` to the launch features.
-/
import proofs.«177519_j19945828123200_1_alg».proof.Proof.Gen.KernelIdeal.Frame
import proofs.«177519_j19945828123200_1_alg».proof.Proof.Layer
import proofs.«177519_j19945828123200_1_alg».proof.Proof.Boundaries
import proofs.«177519_j19945828123200_1_alg».proof.Proof.Prologue
import proofs.«177519_j19945828123200_1_alg».proof.Proof.Aggregate
import proofs.«177519_j19945828123200_1_alg».proof.Proof.LinRegion0
import proofs.«177519_j19945828123200_1_alg».proof.Proof.LinRegion2
import proofs.«177519_j19945828123200_1_alg».proof.Proof.LinRegion4
import proofs.«177519_j19945828123200_1_alg».proof.Proof.GruRegion1
import proofs.«177519_j19945828123200_1_alg».proof.Proof.GruRegion3
import proofs.«177519_j19945828123200_1_alg».proof.Proof.GruRegion5

set_option maxRecDepth 16384
set_option maxHeartbeats 4000000

noncomputable section

namespace Cert.KernelIdeal.Fold

open Cert.KernelIdeal Cert.KernelIdeal.Gen Idealize.ShloMosaic Idealize.ShloMosaic.TcCoe Idealize.ShloMosaic.StableHlo
open Cert.GatedGraph (cellTArr cellArr linArr layer)

variable (m : (ℓ : Loc nD τ sig) → Buf (Elt Ideal) ℓ) (ρ : Dev nD → PrngReg) (c : Dev nD)

/-- The cell over the six pieces and six rows the first stretch cut is the cell over the stacked weights and
    biases: the pieces are their bands. -/
theorem cell_of_pieces (a x : S50000x96.Idx → EReal) :
    cellTArr a x (W1 m ρ c (Proc.devRef .tc main_v5)) (W1 m ρ c (Proc.devRef .tc main_v7)) (W1 m ρ c (Proc.devRef .tc main_v9)) (W1 m ρ c (Proc.devRef .tc main_v11)) (W1 m ρ c (Proc.devRef .tc main_v13)) (W1 m ρ c (Proc.devRef .tc main_v15)) (W1 m ρ c (Proc.devRef .tc main_v17)) (W1 m ρ c (Proc.devRef .tc main_v19)) (W1 m ρ c (Proc.devRef .tc main_v21)) (W1 m ρ c (Proc.devRef .tc main_v23)) (W1 m ρ c (Proc.devRef .tc main_v25)) (W1 m ρ c (Proc.devRef .tc main_v27))
      = cellArr a x (m ((c : Thread nD τ).loc main_arg3)) (m ((c : Thread nD τ).loc main_arg4))
          (m ((c : Thread nD τ).loc main_arg5)) (m ((c : Thread nD τ).loc main_arg6)) :=
  Cert.GatedGraph.cellT_bands a x _ _ _ _ _ _ _ _ _ _ _ _ _ _ _ _
    (wir_at m ρ c) (wiz_at m ρ c) (win_at m ρ c) (whr_at m ρ c) (whz_at m ρ c) (whn_at m ρ c)
    (bir_at m ρ c) (biz_at m ρ c) (bin_at m ρ c) (bhr_at m ρ c) (bhz_at m ρ c) (bhn_at m ρ c)

/-- The aggregation at the launch edge list. -/
abbrev agg : (S50000x96.Idx → EReal) → (S50000x96.Idx → EReal) :=
  aggr (srcOf (m ((c : Thread nD τ).loc main_arg1))) (dstOf (m ((c : Thread nD τ).loc main_arg1)))

/-- One layer at the launch weights. -/
abbrev step (x : S50000x96.Idx → EReal) (w : S96x96.Idx → EReal) : S50000x96.Idx → EReal :=
  layer (agg m c) (m ((c : Thread nD τ).loc main_arg3)) (m ((c : Thread nD τ).loc main_arg4))
    (m ((c : Thread nD τ).loc main_arg5)) (m ((c : Thread nD τ).loc main_arg6)) x w

/-- Layer `j`'s matrix at the launch layer weights. -/
abbrev slab (j : Fin 3) (h : S3x96x96.Slices ![j.val, 0, 0] S1x96x96) : S96x96.Idx → EReal :=
  slabOf j h (m ((c : Thread nD τ).loc main_arg2))

/-- After the first cell region: one layer applied to the launch features. -/
theorem layer1 : W4 m ρ c (Proc.devRef .tc main_v41)
    = step m c (m ((c : Thread nD τ).loc main_arg0)) (slab m c 0 slices_S3x96x96_S1x96x96_0_0_0) := by
  have hprod : W2 m ρ c (Proc.devRef .tc main_v30)
      = linArr (m ((c : Thread nD τ).loc main_arg0)) (slab m c 0 slices_S3x96x96_S1x96x96_0_0_0) := by
    refine ((W2_arr m ρ c 2).trans (LinValue.final0 (V1 m ρ) c)).trans ?_
    show linArr (W1 m ρ c (Proc.devRef .tc main_arg0)) (W1 m ρ c (Proc.devRef .tc main_v29)) = _
    rw [arg_at_entry m ρ c main_arg0 (by decide), slab0_eq]
  have hagg : W3 m ρ c (Proc.devRef .tc main_v40)
      = agg m c (linArr (m ((c : Thread nD τ).loc main_arg0)) (slab m c 0 slices_S3x96x96_S1x96x96_0_0_0)) := by
    rw [aggregate1, kept2 m ρ c main_v1 (by decide), kept2 m ρ c main_v3 (by decide), src_eq, dst_eq, hprod]
  refine ((W4_arr m ρ c 14).trans (GruValue.final1 (V3 m ρ) c)).trans ?_
  show cellTArr (W3 m ρ c (Proc.devRef .tc main_v40)) (W3 m ρ c (Proc.devRef .tc main_arg0)) (W3 m ρ c (Proc.devRef .tc main_v5)) (W3 m ρ c (Proc.devRef .tc main_v7)) (W3 m ρ c (Proc.devRef .tc main_v9)) (W3 m ρ c (Proc.devRef .tc main_v11)) (W3 m ρ c (Proc.devRef .tc main_v13)) (W3 m ρ c (Proc.devRef .tc main_v15)) (W3 m ρ c (Proc.devRef .tc main_v17)) (W3 m ρ c (Proc.devRef .tc main_v19)) (W3 m ρ c (Proc.devRef .tc main_v21)) (W3 m ρ c (Proc.devRef .tc main_v23)) (W3 m ρ c (Proc.devRef .tc main_v25)) (W3 m ρ c (Proc.devRef .tc main_v27)) = _
  rw [hagg, kept3 m ρ c main_arg0 (by decide), arg_at_entry m ρ c main_arg0 (by decide), kept3 m ρ c main_v5 (by decide), kept3 m ρ c main_v7 (by decide), kept3 m ρ c main_v9 (by decide), kept3 m ρ c main_v11 (by decide), kept3 m ρ c main_v13 (by decide), kept3 m ρ c main_v15 (by decide), kept3 m ρ c main_v17 (by decide), kept3 m ρ c main_v19 (by decide), kept3 m ρ c main_v21 (by decide), kept3 m ρ c main_v23 (by decide), kept3 m ρ c main_v25 (by decide), kept3 m ρ c main_v27 (by decide), cell_of_pieces]
  rfl

/-- After the second cell region: one more layer applied to the previous layer's result. -/
theorem layer2 : W8 m ρ c (Proc.devRef .tc main_v55)
    = step m c (step m c (m ((c : Thread nD τ).loc main_arg0)) (slab m c 0 slices_S3x96x96_S1x96x96_0_0_0)) (slab m c 1 slices_S3x96x96_S1x96x96_1_0_0) := by
  have hx_in : W5 m ρ c (Proc.devRef .tc main_v41) = step m c (m ((c : Thread nD τ).loc main_arg0)) (slab m c 0 slices_S3x96x96_S1x96x96_0_0_0) :=
    (host2_keep m ρ c main_v41 (by decide)).trans (layer1 m ρ c)
  have hprod : W6 m ρ c (Proc.devRef .tc main_v44)
      = linArr (step m c (m ((c : Thread nD τ).loc main_arg0)) (slab m c 0 slices_S3x96x96_S1x96x96_0_0_0)) (slab m c 1 slices_S3x96x96_S1x96x96_1_0_0) := by
    refine ((W6_arr m ρ c 2).trans (LinValue.final2 (V5 m ρ) c)).trans ?_
    show linArr (W5 m ρ c (Proc.devRef .tc main_v41)) (W5 m ρ c (Proc.devRef .tc main_v43)) = _
    rw [hx_in, slab1_eq, kept4 m ρ c main_arg2 (by decide), arg_at_entry m ρ c main_arg2 (by decide)]
  have hagg : W7 m ρ c (Proc.devRef .tc main_v54)
      = agg m c (linArr (step m c (m ((c : Thread nD τ).loc main_arg0)) (slab m c 0 slices_S3x96x96_S1x96x96_0_0_0)) (slab m c 1 slices_S3x96x96_S1x96x96_1_0_0)) := by
    rw [aggregate3, kept6 m ρ c main_v1 (by decide), kept6 m ρ c main_v3 (by decide), src_eq, dst_eq, hprod]
  have hx : W7 m ρ c (Proc.devRef .tc main_v41) = step m c (m ((c : Thread nD τ).loc main_arg0)) (slab m c 0 slices_S3x96x96_S1x96x96_0_0_0) :=
    (host3_keep m ρ c main_v41 (by decide)).trans ((region2_keep m ρ c main_v41 (by decide)).trans hx_in)
  refine ((W8_arr m ρ c 14).trans (GruValue.final3 (V7 m ρ) c)).trans ?_
  show cellTArr (W7 m ρ c (Proc.devRef .tc main_v54)) (W7 m ρ c (Proc.devRef .tc main_v41)) (W7 m ρ c (Proc.devRef .tc main_v5)) (W7 m ρ c (Proc.devRef .tc main_v7)) (W7 m ρ c (Proc.devRef .tc main_v9)) (W7 m ρ c (Proc.devRef .tc main_v11)) (W7 m ρ c (Proc.devRef .tc main_v13)) (W7 m ρ c (Proc.devRef .tc main_v15)) (W7 m ρ c (Proc.devRef .tc main_v17)) (W7 m ρ c (Proc.devRef .tc main_v19)) (W7 m ρ c (Proc.devRef .tc main_v21)) (W7 m ρ c (Proc.devRef .tc main_v23)) (W7 m ρ c (Proc.devRef .tc main_v25)) (W7 m ρ c (Proc.devRef .tc main_v27)) = _
  rw [hagg, hx, kept7 m ρ c main_v5 (by decide), kept7 m ρ c main_v7 (by decide), kept7 m ρ c main_v9 (by decide), kept7 m ρ c main_v11 (by decide), kept7 m ρ c main_v13 (by decide), kept7 m ρ c main_v15 (by decide), kept7 m ρ c main_v17 (by decide), kept7 m ρ c main_v19 (by decide), kept7 m ρ c main_v21 (by decide), kept7 m ρ c main_v23 (by decide), kept7 m ρ c main_v25 (by decide), kept7 m ρ c main_v27 (by decide), cell_of_pieces]
  rfl

/-- After the third cell region: one more layer applied to the previous layer's result. -/
theorem layer3 : W12 m ρ c (Proc.devRef .tc main_v69)
    = step m c (step m c (step m c (m ((c : Thread nD τ).loc main_arg0)) (slab m c 0 slices_S3x96x96_S1x96x96_0_0_0)) (slab m c 1 slices_S3x96x96_S1x96x96_1_0_0)) (slab m c 2 slices_S3x96x96_S1x96x96_2_0_0) := by
  have hx_in : W9 m ρ c (Proc.devRef .tc main_v55) = step m c (step m c (m ((c : Thread nD τ).loc main_arg0)) (slab m c 0 slices_S3x96x96_S1x96x96_0_0_0)) (slab m c 1 slices_S3x96x96_S1x96x96_1_0_0) :=
    (host4_keep m ρ c main_v55 (by decide)).trans (layer2 m ρ c)
  have hprod : W10 m ρ c (Proc.devRef .tc main_v58)
      = linArr (step m c (step m c (m ((c : Thread nD τ).loc main_arg0)) (slab m c 0 slices_S3x96x96_S1x96x96_0_0_0)) (slab m c 1 slices_S3x96x96_S1x96x96_1_0_0)) (slab m c 2 slices_S3x96x96_S1x96x96_2_0_0) := by
    refine ((W10_arr m ρ c 2).trans (LinValue.final4 (V9 m ρ) c)).trans ?_
    show linArr (W9 m ρ c (Proc.devRef .tc main_v55)) (W9 m ρ c (Proc.devRef .tc main_v57)) = _
    rw [hx_in, slab2_eq, kept8 m ρ c main_arg2 (by decide), arg_at_entry m ρ c main_arg2 (by decide)]
  have hagg : W11 m ρ c (Proc.devRef .tc main_v68)
      = agg m c (linArr (step m c (step m c (m ((c : Thread nD τ).loc main_arg0)) (slab m c 0 slices_S3x96x96_S1x96x96_0_0_0)) (slab m c 1 slices_S3x96x96_S1x96x96_1_0_0)) (slab m c 2 slices_S3x96x96_S1x96x96_2_0_0)) := by
    rw [aggregate5, kept10 m ρ c main_v1 (by decide), kept10 m ρ c main_v3 (by decide), src_eq, dst_eq, hprod]
  have hx : W11 m ρ c (Proc.devRef .tc main_v55) = step m c (step m c (m ((c : Thread nD τ).loc main_arg0)) (slab m c 0 slices_S3x96x96_S1x96x96_0_0_0)) (slab m c 1 slices_S3x96x96_S1x96x96_1_0_0) :=
    (host5_keep m ρ c main_v55 (by decide)).trans ((region4_keep m ρ c main_v55 (by decide)).trans hx_in)
  refine ((W12_arr m ρ c 14).trans (GruValue.final5 (V11 m ρ) c)).trans ?_
  show cellTArr (W11 m ρ c (Proc.devRef .tc main_v68)) (W11 m ρ c (Proc.devRef .tc main_v55)) (W11 m ρ c (Proc.devRef .tc main_v5)) (W11 m ρ c (Proc.devRef .tc main_v7)) (W11 m ρ c (Proc.devRef .tc main_v9)) (W11 m ρ c (Proc.devRef .tc main_v11)) (W11 m ρ c (Proc.devRef .tc main_v13)) (W11 m ρ c (Proc.devRef .tc main_v15)) (W11 m ρ c (Proc.devRef .tc main_v17)) (W11 m ρ c (Proc.devRef .tc main_v19)) (W11 m ρ c (Proc.devRef .tc main_v21)) (W11 m ρ c (Proc.devRef .tc main_v23)) (W11 m ρ c (Proc.devRef .tc main_v25)) (W11 m ρ c (Proc.devRef .tc main_v27)) = _
  rw [hagg, hx, kept11 m ρ c main_v5 (by decide), kept11 m ρ c main_v7 (by decide), kept11 m ρ c main_v9 (by decide), kept11 m ρ c main_v11 (by decide), kept11 m ρ c main_v13 (by decide), kept11 m ρ c main_v15 (by decide), kept11 m ρ c main_v17 (by decide), kept11 m ρ c main_v19 (by decide), kept11 m ρ c main_v21 (by decide), kept11 m ρ c main_v23 (by decide), kept11 m ρ c main_v25 (by decide), kept11 m ρ c main_v27 (by decide), cell_of_pieces]
  rfl

end Cert.KernelIdeal.Fold

end
-- ==== Proof.RefLayer.lean ====
/-
  The reference program's three layers, read as one function applied three times.

  Each layer of the reference multiplies the node features by the layer's 96 × 96 matrix, aggregates the
  product along the edges, and applies the gated recurrent cell written over the stacked 288 × 96 weights:
  both stacked pre-activations `a · Wᵀ + b` (a 50000 × 288 array each), their three 96-column bands, the
  logistic function spelled `1 / (1 + e^(−s))`, the hyperbolic tangent, and the convex combination with
  the features.  Here that term is named (`refLayer`), shown equal entry by entry to the layer stated over
  the extended reals, and the reference's result is shown to be three nested applications of it.  Every sum
  stays the sum over the 96 channels in the one order the dot product gives it; only equals are rewritten
  by equals.
-/
import proofs.«177519_j19945828123200_1_alg».proof.Proof.Layer
import proofs.«177519_j19945828123200_1_alg».proof.Proof.Gen.ReferenceIdeal.Run
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Idealize.ShloMosaic.PureOps.IdealRules

noncomputable section

namespace Cert.ReferenceIdeal.RefValue

open Cert.ReferenceIdeal Cert.ReferenceIdeal.Gen Cert.ReferenceIdeal.Value
open Idealize.ShloMosaic Idealize.ShloMosaic.ValueIdx Idealize.ShloMosaic.StackMember Idealize.SL.Sem

/-- The aggregation along the edges: every edge gathers the row of its source node (a negative source
    index counted from the end) and adds it into the row of its destination node, starting from zero. -/
def aggr (src dst : IVec S800000 32) (h : FVec Ideal S50000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The features times a layer's 96 × 96 matrix. -/
def prod (x : FVec Ideal S50000x96 .f32) (w : FVec Ideal S96x96 .f32) : FVec Ideal S50000x96 .f32 :=
  Host.dotGeneral dot_S50000x96_S96x96_S50000x96_1_0_0_1_n_n none x w

/-- The three gates' stacked pre-activations `a · Wᵀ + b`, a 50000 × 288 array. -/
def gates (a : FVec Ideal S50000x96 .f32) (W : FVec Ideal S288x96 .f32) (b : FVec Ideal S288 .f32) :
    FVec Ideal S50000x288 .f32 :=
  addf (Host.dotGeneral dot_S50000x96_S96x288_S50000x288_1_0_0_1_n_n none a
      (transpose S96x288 [1, 0] W transposes_S288x96_S96x288_1_0))
    (broadcastInDim S50000x288 ![0, 1] bcast_S1x288_S50000x288_0_1 (broadcastInDim S1x288 ![1] bcast_S288_S1x288_1 b))

/-- The constant `1.0` at every node and channel. -/
def ones : FVec Ideal S50000x96 .f32 :=
  broadcastInDim S50000x96 ![] bcast_S_S50000x96 (constant S_ .f32 0x3F800000#32)

/-- The logistic function as the reference spells it, `1 / (1 + e^(−s))`. -/
def sigm (s : FVec Ideal S50000x96 .f32) : FVec Ideal S50000x96 .f32 :=
  Host.divf ones (addf ones (Host.exp (Host.negf s)))

/-- The reset gate: the logistic function of the first bands' sum. -/
def gateR (gi gh : FVec Ideal S50000x288 .f32) : FVec Ideal S50000x96 .f32 :=
  sigm (addf (extractStridedSlice S50000x96 ![0, 0] gi slices_S50000x288_S50000x96_0_0)
    (extractStridedSlice S50000x96 ![0, 0] gh slices_S50000x288_S50000x96_0_0))

/-- The update gate: the logistic function of the second bands' sum. -/
def gateZ (gi gh : FVec Ideal S50000x288 .f32) : FVec Ideal S50000x96 .f32 :=
  sigm (addf (extractStridedSlice S50000x96 ![0, 96] gi slices_S50000x288_S50000x96_0_96)
    (extractStridedSlice S50000x96 ![0, 96] gh slices_S50000x288_S50000x96_0_96))

/-- The candidate: the hyperbolic tangent of the third input band plus the reset gate times the third
    hidden band. -/
def cand (gi gh : FVec Ideal S50000x288 .f32) : FVec Ideal S50000x96 .f32 :=
  Host.tanh (addf (extractStridedSlice S50000x96 ![0, 192] gi slices_S50000x288_S50000x96_0_192)
    (mulf (gateR gi gh) (extractStridedSlice S50000x96 ![0, 192] gh slices_S50000x288_S50000x96_0_192)))

/-- The cell's output `(1 − z) · n + z · x`. -/
def mix (gi gh : FVec Ideal S50000x288 .f32) (x : FVec Ideal S50000x96 .f32) : FVec Ideal S50000x96 .f32 :=
  addf (mulf (subf ones (gateZ gi gh)) (cand gi gh)) (mulf (gateZ gi gh) x)

/-- One layer of the reference: the cell of the aggregated product and the features. -/
def refLayer (src dst : IVec S800000 32) (x : FVec Ideal S50000x96 .f32) (w : FVec Ideal S96x96 .f32)
    (a3 a4 : FVec Ideal S288x96 .f32) (a5 a6 : FVec Ideal S288 .f32) : FVec Ideal S50000x96 .f32 :=
  mix (gates (aggr src dst (prod x w)) a3 a5) (gates x a4 a6) x

/-! ## The two products read at an entry -/

/-- The layer's product is the plain matrix product, entry by entry. -/
theorem prod_eq (x : FVec Ideal S50000x96 .f32) (w : FVec Ideal S96x96 .f32) :
    prod x w = Cert.GatedGraph.linArr x w := by
  funext i
  obtain ⟨p, q, rfl⟩ : ∃ (p : Fin 50000) (q : Fin 96), i = ix2 p q := ⟨i 0, i 1, eq_ix2 i⟩
  exact dotGeneral_plain_apply (m := 50000) (n := 96) (k := 96) none x w p q

/-- The stacked product `a · Wᵀ` at node `p` and row `r` is `∑ₖ a(p, k) · W(r, k)`. -/
theorem dotT_apply (a : FVec Ideal S50000x96 .f32) (W : FVec Ideal S288x96 .f32) (p : Fin 50000) (r : Fin 288) :
    Host.dotGeneral dot_S50000x96_S96x288_S50000x288_1_0_0_1_n_n none a
        (transpose S96x288 [1, 0] W transposes_S288x96_S96x288_1_0) (ix2 p r)
      = ∑ k : Fin 96, a (ix2 p k) * W (ix2 r k) := by
  refine (dotGeneral_plain_apply (m := 50000) (n := 288) (k := 96) none a
    (transpose S96x288 [1, 0] W transposes_S288x96_S96x288_1_0) p r).trans ?_
  exact Finset.sum_congr rfl fun k _ =>
    congrArg (a (ix2 p k) * ·) (transpose_ix2_apply W transposes_S288x96_S96x288_1_0 k r)

/-- The stacked biases spread over the nodes read, at node `p` and row `r`, the bias of row `r`. -/
theorem bias_apply (b : FVec Ideal S288 .f32) (p : Fin 50000) (r : Fin 288) :
    broadcastInDim S50000x288 ![0, 1] bcast_S1x288_S50000x288_0_1 (broadcastInDim S1x288 ![1] bcast_S288_S1x288_1 b) (ix2 p r)
      = b (ix1 r) := by
  refine (broadcastInDim_apply (s := S1x288) (t := S50000x288) ![0, 1] bcast_S1x288_S50000x288_0_1 _ (ix2 p r)
    (ix2 (0 : Fin 1) r) fun ax => ?_).trans ?_
  · match ax with
    | ⟨0, _⟩ => rfl
    | ⟨1, _⟩ => rfl
  · exact broadcastInDim_apply (s := S288) (t := S1x288) ![1] bcast_S288_S1x288_1 b (ix2 (0 : Fin 1) r) (ix1 r) fun ax => by
      match ax with
      | ⟨0, _⟩ => rfl

/-- A stacked pre-activation at node `p` and row `r`. -/
theorem gates_apply (a : FVec Ideal S50000x96 .f32) (W : FVec Ideal S288x96 .f32) (b : FVec Ideal S288 .f32)
    (p : Fin 50000) (r : Fin 288) : gates a W b (ix2 p r) = Cert.GatedGraph.pre a W b p r := by
  unfold gates Cert.GatedGraph.pre
  rw [addf_apply, dotT_apply, bias_apply]

/-! ## The cell read at an entry -/

/-- The constant array reads the float word of `1.0` everywhere. -/
theorem ones_apply (i : S50000x96.Idx) : ones i = Cert.GatedGraph.one :=
  broadcastInDim_apply (s := S_) (t := S50000x96) ![] bcast_S_S50000x96 (constant S_ .f32 0x3F800000#32) i ix0
    fun ax => ax.elim0

/-- The float word of `1.0` is the extended real `1`. -/
theorem one_eq : Cert.GatedGraph.one = 1 := IdealRules.sign_bit.ideal_onePat .f32

/-- The reference's spelling of the logistic function is the logistic function. -/
theorem sigm_apply (s : FVec Ideal S50000x96 .f32) (i : S50000x96.Idx) : sigm s i = Ideal.logistic (s i) := by
  show Ideal.div (ones i) (ones i + Ideal.exp (-(s i))) = Ideal.logistic (s i)
  rw [ones_apply, one_eq]
  rfl

/-- A 96-column band of a stacked pre-activation, at node `p` and channel `q`. -/
theorem band_apply (o : Nat) (ho : o + 96 ≤ 288) (h : S50000x288.Slices ![0, o] S50000x96)
    (a : FVec Ideal S50000x96 .f32) (W : FVec Ideal S288x96 .f32) (b : FVec Ideal S288 .f32) (p : Fin 50000) (q : Fin 96) :
    extractStridedSlice S50000x96 ![0, o] (gates a W b) h (ix2 p q)
      = Cert.GatedGraph.pre a W b p (Cert.GatedGraph.band o ho q) :=
  (slice2_axis1_eq o (gates a W b) h p q).trans (gates_apply a W b p _)

/-- The cell's output over two stacked pre-activations, at node `p` and channel `q`. -/
theorem mix_apply (a x : FVec Ideal S50000x96 .f32) (Wi Wh : FVec Ideal S288x96 .f32) (bi bh : FVec Ideal S288 .f32)
    (p : Fin 50000) (q : Fin 96) :
    mix (gates a Wi bi) (gates x Wh bh) x (ix2 p q) = Cert.GatedGraph.cell a x Wi Wh bi bh p q := by
  have hr : gateR (gates a Wi bi) (gates x Wh bh) (ix2 p q)
      = Ideal.logistic (Cert.GatedGraph.pre a Wi bi p (Cert.GatedGraph.band 0 (by omega) q)
          + Cert.GatedGraph.pre x Wh bh p (Cert.GatedGraph.band 0 (by omega) q)) := by
    unfold gateR
    rw [sigm_apply, addf_apply, band_apply 0 (by omega), band_apply 0 (by omega)]
  have hz : gateZ (gates a Wi bi) (gates x Wh bh) (ix2 p q)
      = Ideal.logistic (Cert.GatedGraph.pre a Wi bi p (Cert.GatedGraph.band 96 (by omega) q)
          + Cert.GatedGraph.pre x Wh bh p (Cert.GatedGraph.band 96 (by omega) q)) := by
    unfold gateZ
    rw [sigm_apply, addf_apply, band_apply 96 (by omega), band_apply 96 (by omega)]
  have hn : cand (gates a Wi bi) (gates x Wh bh) (ix2 p q)
      = Ideal.tanh (Cert.GatedGraph.pre a Wi bi p (Cert.GatedGraph.band 192 (by omega) q)
          + Ideal.logistic (Cert.GatedGraph.pre a Wi bi p (Cert.GatedGraph.band 0 (by omega) q)
              + Cert.GatedGraph.pre x Wh bh p (Cert.GatedGraph.band 0 (by omega) q))
            * Cert.GatedGraph.pre x Wh bh p (Cert.GatedGraph.band 192 (by omega) q)) := by
    show Ideal.tanh (addf (extractStridedSlice S50000x96 ![0, 192] (gates a Wi bi) slices_S50000x288_S50000x96_0_192)
      (mulf (gateR (gates a Wi bi) (gates x Wh bh))
        (extractStridedSlice S50000x96 ![0, 192] (gates x Wh bh) slices_S50000x288_S50000x96_0_192)) (ix2 p q)) = _
    rw [addf_apply, mulf_apply, hr, band_apply 192 (by omega), band_apply 192 (by omega)]
  unfold mix Cert.GatedGraph.cell
  rw [addf_apply, mulf_apply, mulf_apply, subf_apply, ones_apply, hz, hn]

/-- One layer of the reference is the layer stated over the extended reals, with the reference's aggregation. -/
theorem refLayer_eq (src dst : IVec S800000 32) (x : FVec Ideal S50000x96 .f32) (w : FVec Ideal S96x96 .f32)
    (a3 a4 : FVec Ideal S288x96 .f32) (a5 a6 : FVec Ideal S288 .f32) :
    refLayer src dst x w a3 a4 a5 a6 = Cert.GatedGraph.layer (aggr src dst) a3 a4 a5 a6 x w := by
  funext i
  obtain ⟨p, q, rfl⟩ : ∃ (p : Fin 50000) (q : Fin 96), i = ix2 p q := ⟨i 0, i 1, eq_ix2 i⟩
  unfold refLayer Cert.GatedGraph.layer
  rw [prod_eq, Cert.GatedGraph.cellArr_apply]
  exact mix_apply (aggr src dst (Cert.GatedGraph.linArr x w)) x a3 a4 a5 a6 p q

/-! ## The reference's result: the layer three times -/

/-- The 3 × 96 × 96 stack cuts into its three matrices. -/
theorem wslices (j : Fin 3) : S3x96x96.Slices ![j.val, 0, 0] S1x96x96 := by
  fin_cases j <;> decide

/-- Layer `j`'s 96 × 96 matrix, cut from the 3 × 96 × 96 stack. -/
def wslice (j : Fin 3) (V0 : Valuation τ sig (Elt Ideal)) : FVec Ideal S96x96 .f32 :=
  shapeCast _ (extractStridedSlice S1x96x96 ![j.val, 0, 0] (V0 (Proc.devRef .tc main_arg2)) (wslices j)) shapeCasts_S1x96x96_S96x96

/-- Its entries are the stack's entries on level `j`. -/
theorem wslice_apply (j : Fin 3) (V0 : Valuation τ sig (Elt Ideal)) (k q : Fin 96) :
    wslice j V0 (ix2 k q) = V0 (Proc.devRef .tc main_arg2) (ix3 j k q) := by
  unfold wslice
  refine (shapeCast_1ab_ab_apply _ shapeCasts_S1x96x96_S96x96 k q).trans ?_
  refine extractStridedSlice_apply (s := S3x96x96) (t := S1x96x96) _ _ (wslices j) (ix3 (0 : Fin 1) k q) (ix3 j k q) fun ax => ?_
  match ax with
  | ⟨0, _⟩ => rfl
  | ⟨1, _⟩ => exact (Nat.zero_add _).symm
  | ⟨2, _⟩ => exact (Nat.zero_add _).symm

set_option maxRecDepth 8192 in
/-- The first layer's output as the reference computes it is the layer at the features and the first matrix. -/
theorem v54_eq (V0 : Valuation τ sig (Elt Ideal)) :
    res_main_v54 V0 = refLayer (res_main_v1 V0) (res_main_v3 V0) (V0 (Proc.devRef .tc main_arg0)) (wslice 0 V0)
      (V0 (Proc.devRef .tc main_arg3)) (V0 (Proc.devRef .tc main_arg4)) (V0 (Proc.devRef .tc main_arg5)) (V0 (Proc.devRef .tc main_arg6)) := by
  unfold res_main_v54 res_main_v46 res_main_v21 res_main_v26 refLayer mix cand gateZ gateR sigm ones gates prod aggr wslice
  rfl

set_option maxRecDepth 8192 in
/-- The second layer's output is the layer at the first layer's output and the second matrix. -/
theorem v105_eq (V0 : Valuation τ sig (Elt Ideal)) :
    res_main_v105 V0 = refLayer (res_main_v1 V0) (res_main_v3 V0) (res_main_v54 V0) (wslice 1 V0)
      (V0 (Proc.devRef .tc main_arg3)) (V0 (Proc.devRef .tc main_arg4)) (V0 (Proc.devRef .tc main_arg5)) (V0 (Proc.devRef .tc main_arg6)) := by
  unfold res_main_v105 res_main_v97 res_main_v72 res_main_v77 refLayer mix cand gateZ gateR sigm ones gates prod aggr wslice
  rfl

set_option maxRecDepth 8192 in
/-- The reference's result is the layer at the second layer's output and the third matrix. -/
theorem v156_eq (V0 : Valuation τ sig (Elt Ideal)) :
    addf (mulf (subf (broadcastInDim S50000x96 ![] bcast_S_S50000x96 (constant S_ .f32 0x3F800000#32)) (res_main_v148 V0)) (Host.tanh (addf (extractStridedSlice S50000x96 ![0, 192] (res_main_v123 V0) slices_S50000x288_S50000x96_0_192) (mulf (Host.divf (broadcastInDim S50000x96 ![] bcast_S_S50000x96 (constant S_ .f32 0x3F800000#32)) (addf (broadcastInDim S50000x96 ![] bcast_S_S50000x96 (constant S_ .f32 0x3F800000#32)) (Host.exp (Host.negf (addf (extractStridedSlice S50000x96 ![0, 0] (res_main_v123 V0) slices_S50000x288_S50000x96_0_0) (extractStridedSlice S50000x96 ![0, 0] (res_main_v128 V0) slices_S50000x288_S50000x96_0_0)))))) (extractStridedSlice S50000x96 ![0, 192] (res_main_v128 V0) slices_S50000x288_S50000x96_0_192))))) (mulf (res_main_v148 V0) (res_main_v105 V0))
      = refLayer (res_main_v1 V0) (res_main_v3 V0) (res_main_v105 V0) (wslice 2 V0)
        (V0 (Proc.devRef .tc main_arg3)) (V0 (Proc.devRef .tc main_arg4)) (V0 (Proc.devRef .tc main_arg5)) (V0 (Proc.devRef .tc main_arg6)) := by
  unfold res_main_v148 res_main_v123 res_main_v128 refLayer mix cand gateZ gateR sigm ones gates prod aggr wslice
  rfl

set_option maxRecDepth 8192 in
/-- The reference's result is the layer over the extended reals applied three times, each time with the same
    aggregation along the edges and the same stacked weights and biases, to the features and the three matrices
    in turn. -/
theorem result_eq (V0 : Valuation τ sig (Elt Ideal)) :
    addf (mulf (subf (broadcastInDim S50000x96 ![] bcast_S_S50000x96 (constant S_ .f32 0x3F800000#32)) (res_main_v148 V0)) (Host.tanh (addf (extractStridedSlice S50000x96 ![0, 192] (res_main_v123 V0) slices_S50000x288_S50000x96_0_192) (mulf (Host.divf (broadcastInDim S50000x96 ![] bcast_S_S50000x96 (constant S_ .f32 0x3F800000#32)) (addf (broadcastInDim S50000x96 ![] bcast_S_S50000x96 (constant S_ .f32 0x3F800000#32)) (Host.exp (Host.negf (addf (extractStridedSlice S50000x96 ![0, 0] (res_main_v123 V0) slices_S50000x288_S50000x96_0_0) (extractStridedSlice S50000x96 ![0, 0] (res_main_v128 V0) slices_S50000x288_S50000x96_0_0)))))) (extractStridedSlice S50000x96 ![0, 192] (res_main_v128 V0) slices_S50000x288_S50000x96_0_192))))) (mulf (res_main_v148 V0) (res_main_v105 V0))
      = Cert.GatedGraph.layer (aggr (res_main_v1 V0) (res_main_v3 V0))
          (V0 (Proc.devRef .tc main_arg3)) (V0 (Proc.devRef .tc main_arg4)) (V0 (Proc.devRef .tc main_arg5)) (V0 (Proc.devRef .tc main_arg6))
          (Cert.GatedGraph.layer (aggr (res_main_v1 V0) (res_main_v3 V0))
            (V0 (Proc.devRef .tc main_arg3)) (V0 (Proc.devRef .tc main_arg4)) (V0 (Proc.devRef .tc main_arg5)) (V0 (Proc.devRef .tc main_arg6))
            (Cert.GatedGraph.layer (aggr (res_main_v1 V0) (res_main_v3 V0))
              (V0 (Proc.devRef .tc main_arg3)) (V0 (Proc.devRef .tc main_arg4)) (V0 (Proc.devRef .tc main_arg5)) (V0 (Proc.devRef .tc main_arg6))
              (V0 (Proc.devRef .tc main_arg0)) (wslice 0 V0))
            (wslice 1 V0))
          (wslice 2 V0) := by
  rw [v156_eq, refLayer_eq, v105_eq, refLayer_eq, v54_eq, refLayer_eq]

end Cert.ReferenceIdeal.RefValue

end
-- ==== Proof.Bridge.lean ====
/-
  The two programs' three-layer terms are one function of the arguments.

  Both results have been brought to three applications of `Cert.GatedGraph.layer`.  What still differs is
  spelling: each program cuts the edge list into its source and target rows, and the stacked layer weights into
  the three 96 × 96 matrices, with its own copies of the same shape facts, and each names the gather and
  scatter-add of the aggregation with its own copies of the same dimension records.  Those are the same
  functions, so once the seven arguments agree the two terms are equal.
-/
import proofs.«177519_j19945828123200_1_alg».proof.Proof.RefLayer
import proofs.«177519_j19945828123200_1_alg».proof.Proof.Aggregate
import proofs.«177519_j19945828123200_1_alg».proof.Proof.Layer

set_option maxRecDepth 16384

noncomputable section

namespace Cert.Proof.Bridge

open Idealize.ShloMosaic Idealize.ShloMosaic.TcCoe
open Cert.GatedGraph (layer)

/-- The aggregation along the edges is the same function in both programs. -/
theorem aggr_same (src dst : IVec Cert.KernelIdeal.S800000 32) (h : FVec Ideal Cert.KernelIdeal.S50000x96 .f32) :
    Cert.ReferenceIdeal.RefValue.aggr src dst h = Cert.KernelIdeal.Fold.aggr src dst h := rfl

/-- The source row of the edge list, in both spellings. -/
theorem src_same (V0 : Valuation Cert.ReferenceIdeal.τ Cert.ReferenceIdeal.sig (Elt Ideal)) :
    Cert.ReferenceIdeal.Value.res_main_v1 V0 = Cert.KernelIdeal.Fold.srcOf (V0 (Proc.devRef .tc Cert.ReferenceIdeal.main_arg1)) := rfl
/-- The target row of the edge list, in both spellings. -/
theorem dst_same (V0 : Valuation Cert.ReferenceIdeal.τ Cert.ReferenceIdeal.sig (Elt Ideal)) :
    Cert.ReferenceIdeal.Value.res_main_v3 V0 = Cert.KernelIdeal.Fold.dstOf (V0 (Proc.devRef .tc Cert.ReferenceIdeal.main_arg1)) := rfl
/-- Layer `j`'s matrix, in both spellings (whatever proof of the slicing fact each carries). -/
theorem slab_same (j : Fin 3) (hs : Cert.KernelIdeal.S3x96x96.Slices ![j.val, 0, 0] Cert.KernelIdeal.S1x96x96)
    (V0 : Valuation Cert.ReferenceIdeal.τ Cert.ReferenceIdeal.sig (Elt Ideal)) :
    Cert.ReferenceIdeal.RefValue.wslice j V0 = Cert.KernelIdeal.Fold.slabOf j hs (V0 (Proc.devRef .tc Cert.ReferenceIdeal.main_arg2)) := rfl

/-- The reference's three layers over its own launch contents equal the kernel's three layers over arrays that
    agree with them. -/
theorem layers_agree (V0 : Valuation Cert.ReferenceIdeal.τ Cert.ReferenceIdeal.sig (Elt Ideal))
    (x : FVec Ideal Cert.KernelIdeal.S50000x96 .f32) (e : IVec Cert.KernelIdeal.S2x800000 32)
    (w : FVec Ideal Cert.KernelIdeal.S3x96x96 .f32) (a3 a4 : FVec Ideal Cert.KernelIdeal.S288x96 .f32)
    (a5 a6 : FVec Ideal Cert.KernelIdeal.S288 .f32)
    (h0 : (V0 (Proc.devRef .tc Cert.ReferenceIdeal.main_arg0)) = x) (h1 : (V0 (Proc.devRef .tc Cert.ReferenceIdeal.main_arg1)) = e) (h2 : (V0 (Proc.devRef .tc Cert.ReferenceIdeal.main_arg2)) = w)
    (h3 : (V0 (Proc.devRef .tc Cert.ReferenceIdeal.main_arg3)) = a3) (h4 : (V0 (Proc.devRef .tc Cert.ReferenceIdeal.main_arg4)) = a4) (h5 : (V0 (Proc.devRef .tc Cert.ReferenceIdeal.main_arg5)) = a5) (h6 : (V0 (Proc.devRef .tc Cert.ReferenceIdeal.main_arg6)) = a6) :
    layer (Cert.ReferenceIdeal.RefValue.aggr (Cert.ReferenceIdeal.Value.res_main_v1 V0) (Cert.ReferenceIdeal.Value.res_main_v3 V0))
        (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6))
        (layer (Cert.ReferenceIdeal.RefValue.aggr (Cert.ReferenceIdeal.Value.res_main_v1 V0) (Cert.ReferenceIdeal.Value.res_main_v3 V0))
          (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6))
          (layer (Cert.ReferenceIdeal.RefValue.aggr (Cert.ReferenceIdeal.Value.res_main_v1 V0) (Cert.ReferenceIdeal.Value.res_main_v3 V0))
            (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6))
            (V0 (Proc.devRef .tc Cert.ReferenceIdeal.main_arg0)) (Cert.ReferenceIdeal.RefValue.wslice 0 V0))
          (Cert.ReferenceIdeal.RefValue.wslice 1 V0))
        (Cert.ReferenceIdeal.RefValue.wslice 2 V0)
      = layer (Cert.KernelIdeal.Fold.aggr (Cert.KernelIdeal.Fold.srcOf e) (Cert.KernelIdeal.Fold.dstOf e)) a3 a4 a5 a6
          (layer (Cert.KernelIdeal.Fold.aggr (Cert.KernelIdeal.Fold.srcOf e) (Cert.KernelIdeal.Fold.dstOf e)) a3 a4 a5 a6
            (layer (Cert.KernelIdeal.Fold.aggr (Cert.KernelIdeal.Fold.srcOf e) (Cert.KernelIdeal.Fold.dstOf e)) a3 a4 a5 a6
              x (Cert.KernelIdeal.Fold.slabOf 0 Cert.KernelIdeal.Facts₀.slices_S3x96x96_S1x96x96_0_0_0 w))
            (Cert.KernelIdeal.Fold.slabOf 1 Cert.KernelIdeal.Facts₀.slices_S3x96x96_S1x96x96_1_0_0 w))
          (Cert.KernelIdeal.Fold.slabOf 2 Cert.KernelIdeal.Facts₀.slices_S3x96x96_S1x96x96_2_0_0 w) := by
  rw [src_same, dst_same, slab_same 0 Cert.KernelIdeal.Facts₀.slices_S3x96x96_S1x96x96_0_0_0,
    slab_same 1 Cert.KernelIdeal.Facts₀.slices_S3x96x96_S1x96x96_1_0_0, slab_same 2 Cert.KernelIdeal.Facts₀.slices_S3x96x96_S1x96x96_2_0_0,
    h0, h1, h2, h3, h4, h5, h6,
    show Cert.ReferenceIdeal.RefValue.aggr (Cert.KernelIdeal.Fold.srcOf e) (Cert.KernelIdeal.Fold.dstOf e)
        = Cert.KernelIdeal.Fold.aggr (Cert.KernelIdeal.Fold.srcOf e) (Cert.KernelIdeal.Fold.dstOf e) from funext (aggr_same _ _)]

end Cert.Proof.Bridge

end
-- ==== Proof.lean ====
/-
  Three layers of a gated graph convolution: a tiled kernel program against its plain reference, equal as
  extended reals.

  Each layer multiplies the node features (50000 nodes, 96 channels) by a 96 × 96 matrix, aggregates the
  products along 800000 edges (gather at the sources, scatter-add at the targets), and updates the features by a
  gated recurrent cell of the aggregate and the features.  The reference does all of it with whole-array
  operations over the stacked gate weights; the kernel program runs the matmul and the cell as two tiled regions
  per layer (ten blocks of 5000 nodes), with the gate weights cut into six transposed pieces beforehand, matmul
  operands narrowed to bf16, and the logistic function as one operation; the aggregation between the two regions
  is the same host operations in both.

  On the extended reals the narrowing is the identity, a matmul into a zero accumulator is the plain sum of
  products, the logistic operation is 1 / (1 + e^(−s)) by definition, and a transposed band of the stacked
  weights read at (k, q) is the stacked matrix at (band offset + q, k).  Every sum runs over the same 96
  channels and every sum and product is grouped alike on the two sides, so no law that could fail at an infinity
  is used and the precondition is never opened.

  The modules: `Layer` states one layer entry by entry in both arrangements; `MatmulAt`, `LinRegion*` and
  `GruPayload`, `GruRegion*` read what each tiled region leaves in its output array; `KernelRun` names the
  kernel program's result after its run; `Boundaries`, `Prologue`, `Aggregate` and `Fold` read that result back
  through the twelve segments to three layers of the launch features; `RefLayer` does the same for the
  reference's run; `Bridge` identifies the two spellings.
-/
import proofs.«177519_j19945828123200_1_alg».proof.Defs
import proofs.«177519_j19945828123200_1_alg».proof.Proof.Gen.Kernel
import proofs.«177519_j19945828123200_1_alg».proof.Proof.Gen.Kernel.Skeleton
import proofs.«177519_j19945828123200_1_alg».proof.Proof.Gen.Kernel.Launch
import proofs.«177519_j19945828123200_1_alg».proof.Proof.Gen.Kernel.Points
import proofs.«177519_j19945828123200_1_alg».proof.Proof.Gen.Kernel.Frame
import proofs.«177519_j19945828123200_1_alg».proof.Proof.Gen.KernelIdeal
import proofs.«177519_j19945828123200_1_alg».proof.Proof.Gen.KernelIdeal.Skeleton
import proofs.«177519_j19945828123200_1_alg».proof.Proof.Gen.KernelIdeal.Launch
import proofs.«177519_j19945828123200_1_alg».proof.Proof.Gen.KernelIdeal.Points
import proofs.«177519_j19945828123200_1_alg».proof.Proof.Gen.KernelIdeal.Frame
import proofs.«177519_j19945828123200_1_alg».proof.Proof.Gen.ReferenceIdeal
import proofs.«177519_j19945828123200_1_alg».proof.Proof.Gen.ReferenceIdeal.Run
import proofs.«177519_j19945828123200_1_alg».proof.Proof.Gen.Pre_finite_inputs
import proofs.«177519_j19945828123200_1_alg».proof.Proof.KernelRun
import proofs.«177519_j19945828123200_1_alg».proof.Proof.Fold
import proofs.«177519_j19945828123200_1_alg».proof.Proof.RefLayer
import proofs.«177519_j19945828123200_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result: three layers applied to the launch features, at the launch
    edge list and weights. -/
theorem algebraic : Cert.algebraic_KernelIdeal_ReferenceIdeal := by
  intro m ρ m' ρ' _ hagree
  refine ⟨fun c => Cert.KernelIdeal.Fold.step m c
      (Cert.KernelIdeal.Fold.step m c
        (Cert.KernelIdeal.Fold.step m c (m ((c.tc : Thread Cert.KernelIdeal.nD Cert.KernelIdeal.τ).loc Cert.KernelIdeal.main_arg0))
          (Cert.KernelIdeal.Fold.slab m c 0 Cert.KernelIdeal.Facts₀.slices_S3x96x96_S1x96x96_0_0_0))
        (Cert.KernelIdeal.Fold.slab m c 1 Cert.KernelIdeal.Facts₀.slices_S3x96x96_S1x96x96_1_0_0))
      (Cert.KernelIdeal.Fold.slab m c 2 Cert.KernelIdeal.Facts₀.slices_S3x96x96_S1x96x96_2_0_0), ?_, ?_⟩
  · exact (θ_run Cert.KernelIdeal.defs _ _).mono
      (fun _ h c => ⟨(h c).1.trans (Cert.KernelIdeal.Fold.layer3 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq (launchContents m' c)).trans ?_
    exact Cert.Proof.Bridge.layers_agree (launchContents m' c) _ _ _ _ _ _ _
      (hagree c).1 (hagree c).2.1 (hagree c).2.2.1 (hagree c).2.2.2.1 (hagree c).2.2.2.2.1 (hagree c).2.2.2.2.2.1
      (hagree c).2.2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
